-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg13 : FVec F S128 .f32) (main_arg17 : FVec F S128 .f32) (main_arg21 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_cst_40 : FVec F S_ .f32 := constant S_ .f32 0x00000000#32
  let main_v104 : FVec F S128 .f32 := broadcastInDim S128 ![] bcast_S_S128 main_cst_40
  let main_v105 : IVec S128 1 := cmpf .oge main_arg13 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v103 main_v106
  let main_cst_42 : FVec F S_ .f32 := constant S_ .f32 0x00000000#32
  let main_v108 : FVec F S128 .f32 := broadcastInDim S128 ![] bcast_S_S128 main_cst_42
  let main_v109 : IVec S128 1 := cmpf .oge main_arg17 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v107 main_v110
  let main_cst_44 : FVec F S_ .f32 := constant S_ .f32 0x00000000#32
  let main_v112 : FVec F S128 .f32 := broadcastInDim S128 ![] bcast_S_S128 main_cst_44
  let main_v113 : IVec S128 1 := cmpf .oge main_arg21 main_v112
  let main_c_45 : IVec S_ 1 := constantI S_ 1 1#1
  let main_v114 : IVec S_ 1 := (fun x v => Host.reduce IntOp.andi x v reducesTo_S128_S_d0 h_S_) main_v113 main_c_45
  let main_v115 : IVec S_ 1 := andi main_v111 main_v114
  main_v115

def fn_part5 {F : FTy → Type} [FloatOps F] (main_arg13 : FVec F S128 .f32) (main_arg17 : FVec F S128 .f32) (main_arg19 : FVec F S128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg13 main_arg17 main_arg21 main_v98 main_v101 main_c_39

def fn_part4 {F : FTy → Type} [FloatOps F] (main_arg13 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg13 main_arg17 main_arg19 main_arg20 main_arg21 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg13 main_arg15 main_arg16 main_arg17 main_arg18 main_arg19 main_arg20 main_arg21 main_v63 main_v67

def fn_part2 {F : FTy → Type} [FloatOps F] (main_arg8 : FVec F S128x2 .f32) (main_arg9 : FVec F S2 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128x2 .f32) (main_arg9 : FVec F S2 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x512 .f32) (main_arg1 : IVec S2x800000 32) (main_arg2 : FVec F S512x128 .f32) (main_arg3 : FVec F S128 .f32) (main_arg4 : FVec F S128x128 .f32) (main_arg5 : FVec F S128 .f32) (main_arg6 : FVec F S128x128 .f32) (main_arg7 : FVec F S128 .f32) (main_arg8 : FVec F S128x2 .f32) (main_arg9 : FVec F S2 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 165
  | .vmem => 43
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S50000, .i32⟩
  | 23 => ⟨S1x800000, .i32⟩
  | 24 => ⟨S800000, .i32⟩
  | 25 => ⟨S850000, .i32⟩
  | 26 => ⟨S1x800000, .i32⟩
  | 27 => ⟨S800000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S850000x1, .f32⟩
  | 63 => ⟨S50000x128, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S_, .f32⟩
  | 80 => ⟨S128, .f32⟩
  | 81 => ⟨S128, .f32⟩
  | 82 => ⟨S128, .f32⟩
  | 83 => ⟨S128, .f32⟩
  | 84 => ⟨S128, .f32⟩
  | 85 => ⟨S128, .f32⟩
  | 86 => ⟨S128, .f32⟩
  | 87 => ⟨S128, .f32⟩
  | 88 => ⟨S1x128, .f32⟩
  | 89 => ⟨S1x128, .f32⟩
  | 90 => ⟨S50000x128, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S_, .f32⟩
  | 108 => ⟨S128, .f32⟩
  | 109 => ⟨S128, .f32⟩
  | 110 => ⟨S128, .f32⟩
  | 111 => ⟨S128, .f32⟩
  | 112 => ⟨S128, .f32⟩
  | 113 => ⟨S128, .f32⟩
  | 114 => ⟨S128, .f32⟩
  | 115 => ⟨S128, .f32⟩
  | 116 => ⟨S1x128, .f32⟩
  | 117 => ⟨S1x128, .f32⟩
  | 118 => ⟨S50000x128, .f32⟩
  | 119 => ⟨S50000x128, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x512, .f32⟩

abbrev hbmTy0_1 (i : Nat) : BufTy := match i % 128 with
  | 0 => ⟨S850000x128, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S_, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S1x128, .f32⟩
  | 17 => ⟨S1x128, .f32⟩
  | 18 => ⟨S50000x128, .f32⟩
  | 19 => ⟨S50000x2, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x2, .f32⟩
  | 29 => ⟨S850000x2, .f32⟩
  | 30 => ⟨S850000x2, .f32⟩
  | 31 => ⟨S_, .f32⟩
  | 32 => ⟨S50000x2, .f32⟩
  | 33 => ⟨S850000x1, .i32⟩
  | 34 => ⟨S50000x2, .f32⟩
  | 35 => ⟨S1x2, .f32⟩
  | 36 => ⟨S50000x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x2, .f32⟩
  | .local _ .vmem, ⟨36, _⟩ => ⟨S2000x2, .f32⟩
  | .local _ .vmem, ⟨37, _⟩ => ⟨S2000x2, .f32⟩
  | .local _ .vmem, ⟨38, _⟩ => ⟨S2000x2, .f32⟩
  | .local _ .vmem, ⟨39, _⟩ => ⟨S2000x2, .f32⟩
  | .local _ .vmem, ⟨40, _⟩ => ⟨S1x2, .f32⟩
  | .local _ .vmem, ⟨41, _⟩ => ⟨S2000x2, .f32⟩
  | .local _ .vmem, ⟨42, _⟩ => ⟨S2000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_14 : Ref sig .tc := ⟨.hbm, 120, rfl⟩
abbrev main_v80 : Ref sig .tc := ⟨.hbm, 121, rfl⟩
abbrev main_v81 : Ref sig .tc := ⟨.hbm, 122, rfl⟩
abbrev main_c_15 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_17 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_18 : Ref sig .tc := ⟨.hbm, 148, rfl⟩
abbrev main_v104 : Ref sig .tc := ⟨.hbm, 149, rfl⟩
abbrev main_v105 : Ref sig .tc := ⟨.hbm, 150, rfl⟩
abbrev main_c_19 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem2_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x2 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x2 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x2.size a ≤ S50000x2.size a
  hwx6_2 : ∀ i : grid6.Coords, EltTy.bits .f32 = 32 ∨ (Rect.block (s := S50000x2) S2000x2.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x2.size a ≤ S50000x2.size a
  hwx7_0 : ∀ i : grid7.Coords, EltTy.bits .f32 = 32 ∨ (Rect.block (s := S50000x2) S2000x2.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x2.size a ≤ S1x2.size a
  hwx7_1 : ∀ i : grid7.Coords, EltTy.bits .f32 = 32 ∨ (Rect.block (s := S1x2) S1x2.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x2.size a ≤ S50000x2.size a
  hwx7_2 : ∀ i : grid7.Coords, EltTy.bits .f32 = 32 ∨ (Rect.block (s := S50000x2) S2000x2.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v78) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v102) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S2000x2.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v115) S2000x2.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S1x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v117) S2000x2.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x2 : Shape := ⟨2, ![50000, 2]⟩
abbrev S850000x2 : Shape := ⟨2, ![850000, 2]⟩
abbrev S1x2 : Shape := ⟨2, ![1, 2]⟩
abbrev S50000x1 : Shape := ⟨2, ![50000, 1]⟩

abbrev nBuf : Space → Nat
  | .hbm => 205
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S50000, .i32⟩
  | 23 => ⟨S1x800000, .i32⟩
  | 24 => ⟨S800000, .i32⟩
  | 25 => ⟨S850000, .i32⟩
  | 26 => ⟨S1x800000, .i32⟩
  | 27 => ⟨S800000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S850000x1, .f32⟩
  | 63 => ⟨S50000x128, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x512, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x128, .f32⟩
  | 18 => ⟨S850000x128, .f32⟩
  | 19 => ⟨S_, .f32⟩
  | 20 => ⟨S50000x128, .f32⟩
  | 21 => ⟨S850000x1, .i32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S128, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x2, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x2, .f32⟩
  | 53 => ⟨S850000x2, .f32⟩
  | 54 => ⟨S850000x2, .f32⟩
  | 55 => ⟨S_, .f32⟩
  | 56 => ⟨S50000x2, .f32⟩
  | 57 => ⟨S850000x1, .i32⟩
  | 58 => ⟨S50000x2, .f32⟩
  | 59 => ⟨S1x2, .f32⟩
  | 60 => ⟨S50000x2, .f32⟩
  | 61 => ⟨S50000x2, .f32⟩
  | 62 => ⟨S_, .f32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x2, .f32⟩
  | 69 => ⟨S50000x2, .f32⟩
  | 70 => ⟨S50000x2, .f32⟩
  | 71 => ⟨S_, .f32⟩
  | 72 => ⟨S50000, .f32⟩
  | 73 => ⟨S50000x1, .f32⟩
  | 74 => ⟨S50000x1, .f32⟩
  | 75 => ⟨S50000x2, .f32⟩
  | 76 => ⟨S50000x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call1_cst : Ref sig .tc := ⟨.hbm, 96, rfl⟩
abbrev main_call1_v0 : Ref sig .tc := ⟨.hbm, 97, rfl⟩
abbrev main_v60 : Ref sig .tc := ⟨.hbm, 98, rfl⟩
abbrev main_v61 : Ref sig .tc := ⟨.hbm, 99, rfl⟩
abbrev main_c_10 : Ref sig .tc := ⟨.hbm, 100, rfl⟩
abbrev main_v62 : Ref sig .tc := ⟨.hbm, 101, rfl⟩
abbrev main_v63 : Ref sig .tc := ⟨.hbm, 102, rfl⟩
abbrev main_c_11 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_13 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call2_cst : Ref sig .tc := ⟨.hbm, 132, rfl⟩
abbrev main_call2_v0 : Ref sig .tc := ⟨.hbm, 133, rfl⟩
abbrev main_v90 : Ref sig .tc := ⟨.hbm, 134, rfl⟩
abbrev main_v91 : Ref sig .tc := ⟨.hbm, 135, rfl⟩
abbrev main_c_14 : Ref sig .tc := ⟨.hbm, 136, rfl⟩
abbrev main_v92 : Ref sig .tc := ⟨.hbm, 137, rfl⟩
abbrev main_v93 : Ref sig .tc := ⟨.hbm, 138, rfl⟩
abbrev main_c_15 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_16 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_17 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_call3_cst : Ref sig .tc := ⟨.hbm, 168, rfl⟩
abbrev main_call3_v0 : Ref sig .tc := ⟨.hbm, 169, rfl⟩
abbrev main_v120 : Ref sig .tc := ⟨.hbm, 170, rfl⟩
abbrev main_v121 : Ref sig .tc := ⟨.hbm, 171, rfl⟩
abbrev main_c_18 : Ref sig .tc := ⟨.hbm, 172, rfl⟩
abbrev main_v122 : Ref sig .tc := ⟨.hbm, 173, rfl⟩
abbrev main_v123 : Ref sig .tc := ⟨.hbm, 174, rfl⟩
abbrev main_c_19 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_20 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_call4_cst : Ref sig .tc := ⟨.hbm, 190, rfl⟩
abbrev main_call4_v0 : Ref sig .tc := ⟨.hbm, 191, rfl⟩
abbrev main_call4_cst_0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_v5 : Ref sig .tc := ⟨.hbm, 197, rfl⟩
abbrev main_call4_v6 : Ref sig .tc := ⟨.hbm, 198, rfl⟩
abbrev main_call4_cst_1 : Ref sig .tc := ⟨.hbm, 199, rfl⟩
abbrev main_call4_v7 : Ref sig .tc := ⟨.hbm, 200, rfl⟩
abbrev main_call4_v8 : Ref sig .tc := ⟨.hbm, 201, rfl⟩
abbrev main_call4_v9 : Ref sig .tc := ⟨.hbm, 202, rfl⟩
abbrev main_call4_v10 : Ref sig .tc := ⟨.hbm, 203, rfl⟩
abbrev main_v137 : Ref sig .tc := ⟨.hbm, 204, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.RefRunRaw.lean ====
/-
  The reference program's run, read off its list of operations. Every weakly fair execution of the program ends with
  each buffer of a core at the fold of the operations over what the launch dealt that core (`run_seq`); an argument
  buffer is the result of no operation, so the fold leaves it as launched (`kept_argK`, one operation after another).
  `run_raw` states the run with the result buffer at that fold, unopened, and the 22 arguments unchanged.
-/
import proofs.«152642_j38920993636608_1_alg».proof.Proof.RefRun
import Idealize.ShloMosaic.Lib.StableHlo.Run

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- What the launch deals a core, read at a TensorCore reference, is the launch memory at that reference's location. -/
theorem launch_arg (m : (ℓ : Loc nD τ sig) → Buf (Elt F) ℓ) (c : Dev nD) (b : Ref sig .tc) :
    launchContents m c (Proc.devRef .tc b) = m ((c.tc : Thread nD τ).loc b) := rfl

set_option maxRecDepth 8192 in
set_option maxHeartbeats 4000000 in
/-- No operation writes argument 0: the fold of the operations leaves it as it was. -/
theorem kept_arg0 (V : Valuation τ sig (Elt F)) :
    StableHlo.after (ops (F := F)) V (Proc.devRef .tc main_arg0) = V (Proc.devRef .tc main_arg0) := by
  after_results_simp <;> rfl

set_option maxRecDepth 8192 in
set_option maxHeartbeats 4000000 in
/-- No operation writes argument 1: the fold of the operations leaves it as it was. -/
theorem kept_arg1 (V : Valuation τ sig (Elt F)) :
    StableHlo.after (ops (F := F)) V (Proc.devRef .tc main_arg1) = V (Proc.devRef .tc main_arg1) := by
  after_results_simp <;> rfl

set_option maxRecDepth 8192 in
set_option maxHeartbeats 4000000 in
/-- No operation writes argument 2: the fold of the operations leaves it as it was. -/
theorem kept_arg2 (V : Valuation τ sig (Elt F)) :
    StableHlo.after (ops (F := F)) V (Proc.devRef .tc main_arg2) = V (Proc.devRef .tc main_arg2) := by
  after_results_simp <;> rfl

set_option maxRecDepth 8192 in
set_option maxHeartbeats 4000000 in
/-- No operation writes argument 3: the fold of the operations leaves it as it was. -/
theorem kept_arg3 (V : Valuation τ sig (Elt F)) :
    StableHlo.after (ops (F := F)) V (Proc.devRef .tc main_arg3) = V (Proc.devRef .tc main_arg3) := by
  after_results_simp <;> rfl

set_option maxRecDepth 8192 in
set_option maxHeartbeats 4000000 in
/-- No operation writes argument 4: the fold of the operations leaves it as it was. -/
theorem kept_arg4 (V : Valuation τ sig (Elt F)) :
    StableHlo.after (ops (F := F)) V (Proc.devRef .tc main_arg4) = V (Proc.devRef .tc main_arg4) := by
  after_results_simp <;> rfl

set_option maxRecDepth 8192 in
set_option maxHeartbeats 4000000 in
/-- No operation writes argument 5: the fold of the operations leaves it as it was. -/
theorem kept_arg5 (V : Valuation τ sig (Elt F)) :
    StableHlo.after (ops (F := F)) V (Proc.devRef .tc main_arg5) = V (Proc.devRef .tc main_arg5) := by
  after_results_simp <;> rfl

set_option maxRecDepth 8192 in
set_option maxHeartbeats 4000000 in
/-- No operation writes argument 6: the fold of the operations leaves it as it was. -/
theorem kept_arg6 (V : Valuation τ sig (Elt F)) :
    StableHlo.after (ops (F := F)) V (Proc.devRef .tc main_arg6) = V (Proc.devRef .tc main_arg6) := by
  after_results_simp <;> rfl

set_option maxRecDepth 8192 in
set_option maxHeartbeats 4000000 in
/-- No operation writes argument 7: the fold of the operations leaves it as it was. -/
theorem kept_arg7 (V : Valuation τ sig (Elt F)) :
    StableHlo.after (ops (F := F)) V (Proc.devRef .tc main_arg7) = V (Proc.devRef .tc main_arg7) := by
  after_results_simp <;> rfl

set_option maxRecDepth 8192 in
set_option maxHeartbeats 4000000 in
/-- No operation writes argument 8: the fold of the operations leaves it as it was. -/
theorem kept_arg8 (V : Valuation τ sig (Elt F)) :
    StableHlo.after (ops (F := F)) V (Proc.devRef .tc main_arg8) = V (Proc.devRef .tc main_arg8) := by
  after_results_simp <;> rfl

set_option maxRecDepth 8192 in
set_option maxHeartbeats 4000000 in
/-- No operation writes argument 9: the fold of the operations leaves it as it was. -/
theorem kept_arg9 (V : Valuation τ sig (Elt F)) :
    StableHlo.after (ops (F := F)) V (Proc.devRef .tc main_arg9) = V (Proc.devRef .tc main_arg9) := by
  after_results_simp <;> rfl

set_option maxRecDepth 8192 in
set_option maxHeartbeats 4000000 in
/-- No operation writes argument 10: the fold of the operations leaves it as it was. -/
theorem kept_arg10 (V : Valuation τ sig (Elt F)) :
    StableHlo.after (ops (F := F)) V (Proc.devRef .tc main_arg10) = V (Proc.devRef .tc main_arg10) := by
  after_results_simp <;> rfl

set_option maxRecDepth 8192 in
set_option maxHeartbeats 4000000 in
/-- No operation writes argument 11: the fold of the operations leaves it as it was. -/
theorem kept_arg11 (V : Valuation τ sig (Elt F)) :
    StableHlo.after (ops (F := F)) V (Proc.devRef .tc main_arg11) = V (Proc.devRef .tc main_arg11) := by
  after_results_simp <;> rfl

set_option maxRecDepth 8192 in
set_option maxHeartbeats 4000000 in
/-- No operation writes argument 12: the fold of the operations leaves it as it was. -/
theorem kept_arg12 (V : Valuation τ sig (Elt F)) :
    StableHlo.after (ops (F := F)) V (Proc.devRef .tc main_arg12) = V (Proc.devRef .tc main_arg12) := by
  after_results_simp <;> rfl

set_option maxRecDepth 8192 in
set_option maxHeartbeats 4000000 in
/-- No operation writes argument 13: the fold of the operations leaves it as it was. -/
theorem kept_arg13 (V : Valuation τ sig (Elt F)) :
    StableHlo.after (ops (F := F)) V (Proc.devRef .tc main_arg13) = V (Proc.devRef .tc main_arg13) := by
  after_results_simp <;> rfl

set_option maxRecDepth 8192 in
set_option maxHeartbeats 4000000 in
/-- No operation writes argument 14: the fold of the operations leaves it as it was. -/
theorem kept_arg14 (V : Valuation τ sig (Elt F)) :
    StableHlo.after (ops (F := F)) V (Proc.devRef .tc main_arg14) = V (Proc.devRef .tc main_arg14) := by
  after_results_simp <;> rfl

set_option maxRecDepth 8192 in
set_option maxHeartbeats 4000000 in
/-- No operation writes argument 15: the fold of the operations leaves it as it was. -/
theorem kept_arg15 (V : Valuation τ sig (Elt F)) :
    StableHlo.after (ops (F := F)) V (Proc.devRef .tc main_arg15) = V (Proc.devRef .tc main_arg15) := by
  after_results_simp <;> rfl

set_option maxRecDepth 8192 in
set_option maxHeartbeats 4000000 in
/-- No operation writes argument 16: the fold of the operations leaves it as it was. -/
theorem kept_arg16 (V : Valuation τ sig (Elt F)) :
    StableHlo.after (ops (F := F)) V (Proc.devRef .tc main_arg16) = V (Proc.devRef .tc main_arg16) := by
  after_results_simp <;> rfl

set_option maxRecDepth 8192 in
set_option maxHeartbeats 4000000 in
/-- No operation writes argument 17: the fold of the operations leaves it as it was. -/
theorem kept_arg17 (V : Valuation τ sig (Elt F)) :
    StableHlo.after (ops (F := F)) V (Proc.devRef .tc main_arg17) = V (Proc.devRef .tc main_arg17) := by
  after_results_simp <;> rfl

set_option maxRecDepth 8192 in
set_option maxHeartbeats 4000000 in
/-- No operation writes argument 18: the fold of the operations leaves it as it was. -/
theorem kept_arg18 (V : Valuation τ sig (Elt F)) :
    StableHlo.after (ops (F := F)) V (Proc.devRef .tc main_arg18) = V (Proc.devRef .tc main_arg18) := by
  after_results_simp <;> rfl

set_option maxRecDepth 8192 in
set_option maxHeartbeats 4000000 in
/-- No operation writes argument 19: the fold of the operations leaves it as it was. -/
theorem kept_arg19 (V : Valuation τ sig (Elt F)) :
    StableHlo.after (ops (F := F)) V (Proc.devRef .tc main_arg19) = V (Proc.devRef .tc main_arg19) := by
  after_results_simp <;> rfl

set_option maxRecDepth 8192 in
set_option maxHeartbeats 4000000 in
/-- No operation writes argument 20: the fold of the operations leaves it as it was. -/
theorem kept_arg20 (V : Valuation τ sig (Elt F)) :
    StableHlo.after (ops (F := F)) V (Proc.devRef .tc main_arg20) = V (Proc.devRef .tc main_arg20) := by
  after_results_simp <;> rfl

set_option maxRecDepth 8192 in
set_option maxHeartbeats 4000000 in
/-- No operation writes argument 21: the fold of the operations leaves it as it was. -/
theorem kept_arg21 (V : Valuation τ sig (Elt F)) :
    StableHlo.after (ops (F := F)) V (Proc.devRef .tc main_arg21) = V (Proc.devRef .tc main_arg21) := by
  after_results_simp <;> rfl

set_option maxRecDepth 8192 in
set_option maxHeartbeats 40000000 in
/-- On every device, for any float values, from any memory with zero counters: every weakly fair execution of the
    program terminates with the result buffer at the fold of the 183 operations over the launch contents and the
    22 arguments unchanged. -/
theorem run_raw (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137) = StableHlo.after (ops (F := F)) (launchContents m c) (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨h c main_v137,
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c)),
      (h c main_arg20).trans (kept_arg20 (launchContents m c)),
      (h c main_arg21).trans (kept_arg21 (launchContents m c))⟩)
    (run_seq scopedRefs_eq scopedSems_eq defs main (fun _ => ops) main_eq (fun _ => ops_sub) m ρ)

end Cert.ReferenceIdeal.Hand

end
-- ==== Proof.RefChunks.lean ====
/- A table. The reference's 183 host operations (the list `ops` of Proof/RefRun.lean) in five consecutive stretches: the edge data
   (operations 1-41), one hidden layer each (42-77, 78-113, 114-149: dense product, aggregation, bias, normalisation, clamp), and
   the last layer with its log-softmax (150-183). Each entry is copied verbatim from that list; the list is the concatenation. -/
import proofs.«152642_j38920993636608_1_alg».proof.Proof.RefRun

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

abbrev opsR0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)) ]

abbrev opsR1 : List (HloOp τ sig (Elt F)) :=
  [ binary main_arg0 main_arg2 main_v31 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x128 ![0, 1] bcast_S850000x1_S850000x128_0_1 : (⟨S850000x1, .f32⟩ : BufTy).Contents (Elt F) → (⟨S850000x128, .f32⟩ : BufTy).Contents (Elt F)),
    binary main_v38 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    unary main_arg12 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (subf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3727C5AC#32),
    unary main_cst_9 main_v50 (broadcastInDim S128 ![] bcast_S_S128 : (⟨S_, .f32⟩ : BufTy).Contents (Elt F) → (⟨S128, .f32⟩ : BufTy).Contents (Elt F)),
    binary main_arg13 main_v50 main_v51 (addf : (⟨S128, .f32⟩ : BufTy).Contents (Elt F) → (⟨S128, .f32⟩ : BufTy).Contents (Elt F) → (⟨S128, .f32⟩ : BufTy).Contents (Elt F)),
    unary main_v51 main_v52 (Host.rsqrt : (⟨S128, .f32⟩ : BufTy).Contents (Elt F) → (⟨S128, .f32⟩ : BufTy).Contents (Elt F)),
    binary main_arg10 main_v52 main_v53 (mulf : (⟨S128, .f32⟩ : BufTy).Contents (Elt F) → (⟨S128, .f32⟩ : BufTy).Contents (Elt F) → (⟨S128, .f32⟩ : BufTy).Contents (Elt F)),
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v49 main_v55 main_v56 (mulf : (⟨S50000x128, .f32⟩ : BufTy).Contents (Elt F) → (⟨S50000x128, .f32⟩ : BufTy).Contents (Elt F) → (⟨S50000x128, .f32⟩ : BufTy).Contents (Elt F)),
    unary main_arg11 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v59) (TRef.of (T := ⟨S50000x128, .f32⟩) main_call1_v0) (TRef.of (T := ⟨S50000x128, .f32⟩) main_v60) maximumf ]

abbrev opsR2 : List (HloOp τ sig (Elt F)) :=
  [ binary main_v60 main_arg4 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v62 (broadcastInDim S850000 ![] bcast_S_S850000 : (⟨S_, .i32⟩ : BufTy).Contents (Elt F) → (⟨S850000, .i32⟩ : BufTy).Contents (Elt F)),
    binary main_v3 main_v62 main_v63 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v64 (broadcastInDim S850000 ![] bcast_S_S850000 : (⟨S_, .i32⟩ : BufTy).Contents (Elt F) → (⟨S850000, .i32⟩ : BufTy).Contents (Elt F)),
    binary main_v3 main_v64 main_v65 (addi : (⟨S850000, .i32⟩ : BufTy).Contents (Elt F) → (⟨S850000, .i32⟩ : BufTy).Contents (Elt F) → (⟨S850000, .i32⟩ : BufTy).Contents (Elt F)),
    ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v66 main_v67 (broadcastInDim S850000x1 ![0] bcast_S850000_S850000x1_0 : (⟨S850000, .i32⟩ : BufTy).Contents (Elt F) → (⟨S850000x1, .i32⟩ : BufTy).Contents (Elt F)),
    binary main_v61 main_v67 main_v68 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v69 (broadcastInDim S850000x128 ![0, 1] bcast_S850000x1_S850000x128_0_1 : (⟨S850000x1, .f32⟩ : BufTy).Contents (Elt F) → (⟨S850000x128, .f32⟩ : BufTy).Contents (Elt F)),
    binary main_v68 main_v69 main_v70 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v71 (broadcastInDim S50000x128 ![] bcast_S_S50000x128 : (⟨S_, .f32⟩ : BufTy).Contents (Elt F) → (⟨S50000x128, .f32⟩ : BufTy).Contents (Elt F)),
    unary main_v6 main_v72 (broadcastInDim S850000x1 ![0] bcast_S850000_S850000x1_0 : (⟨S850000, .i32⟩ : BufTy).Contents (Elt F) → (⟨S850000x1, .i32⟩ : BufTy).Contents (Elt F)),
    ternary main_v71 main_v72 main_v70 main_v73 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    unary main_arg16 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v80 (broadcastInDim S128 ![] bcast_S_S128 : (⟨S_, .f32⟩ : BufTy).Contents (Elt F) → (⟨S128, .f32⟩ : BufTy).Contents (Elt F)),
    binary main_arg17 main_v80 main_v81 (addf : (⟨S128, .f32⟩ : BufTy).Contents (Elt F) → (⟨S128, .f32⟩ : BufTy).Contents (Elt F) → (⟨S128, .f32⟩ : BufTy).Contents (Elt F)),
    unary main_v81 main_v82 (Host.rsqrt : (⟨S128, .f32⟩ : BufTy).Contents (Elt F) → (⟨S128, .f32⟩ : BufTy).Contents (Elt F)),
    binary main_arg14 main_v82 main_v83 (mulf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v79 main_v85 main_v86 (mulf : (⟨S50000x128, .f32⟩ : BufTy).Contents (Elt F) → (⟨S50000x128, .f32⟩ : BufTy).Contents (Elt F) → (⟨S50000x128, .f32⟩ : BufTy).Contents (Elt F)),
    unary main_arg15 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v89) (TRef.of (T := ⟨S50000x128, .f32⟩) main_call2_v0) (TRef.of (T := ⟨S50000x128, .f32⟩) main_v90) maximumf ]

abbrev opsR3 : List (HloOp τ sig (Elt F)) :=
  [ binary main_v90 main_arg6 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v92 (broadcastInDim S850000 ![] bcast_S_S850000 : (⟨S_, .i32⟩ : BufTy).Contents (Elt F) → (⟨S850000, .i32⟩ : BufTy).Contents (Elt F)),
    binary main_v3 main_v92 main_v93 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v94 (broadcastInDim S850000 ![] bcast_S_S850000 : (⟨S_, .i32⟩ : BufTy).Contents (Elt F) → (⟨S850000, .i32⟩ : BufTy).Contents (Elt F)),
    binary main_v3 main_v94 main_v95 (addi : (⟨S850000, .i32⟩ : BufTy).Contents (Elt F) → (⟨S850000, .i32⟩ : BufTy).Contents (Elt F) → (⟨S850000, .i32⟩ : BufTy).Contents (Elt F)),
    ternary main_v93 main_v95 main_v3 main_v96 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v96 main_v97 (broadcastInDim S850000x1 ![0] bcast_S850000_S850000x1_0 : (⟨S850000, .i32⟩ : BufTy).Contents (Elt F) → (⟨S850000x1, .i32⟩ : BufTy).Contents (Elt F)),
    binary main_v91 main_v97 main_v98 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v99 (broadcastInDim S850000x128 ![0, 1] bcast_S850000x1_S850000x128_0_1 : (⟨S850000x1, .f32⟩ : BufTy).Contents (Elt F) → (⟨S850000x128, .f32⟩ : BufTy).Contents (Elt F)),
    binary main_v98 main_v99 main_v100 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v101 (broadcastInDim S50000x128 ![] bcast_S_S50000x128 : (⟨S_, .f32⟩ : BufTy).Contents (Elt F) → (⟨S50000x128, .f32⟩ : BufTy).Contents (Elt F)),
    unary main_v6 main_v102 (broadcastInDim S850000x1 ![0] bcast_S850000_S850000x1_0 : (⟨S850000, .i32⟩ : BufTy).Contents (Elt F) → (⟨S850000x1, .i32⟩ : BufTy).Contents (Elt F)),
    ternary main_v101 main_v102 main_v100 main_v103 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v103 main_v105 main_v106 (addf : (⟨S50000x128, .f32⟩ : BufTy).Contents (Elt F) → (⟨S50000x128, .f32⟩ : BufTy).Contents (Elt F) → (⟨S50000x128, .f32⟩ : BufTy).Contents (Elt F)),
    unary main_arg20 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v110 (broadcastInDim S128 ![] bcast_S_S128 : (⟨S_, .f32⟩ : BufTy).Contents (Elt F) → (⟨S128, .f32⟩ : BufTy).Contents (Elt F)),
    binary main_arg21 main_v110 main_v111 (addf : (⟨S128, .f32⟩ : BufTy).Contents (Elt F) → (⟨S128, .f32⟩ : BufTy).Contents (Elt F) → (⟨S128, .f32⟩ : BufTy).Contents (Elt F)),
    unary main_v111 main_v112 (Host.rsqrt : (⟨S128, .f32⟩ : BufTy).Contents (Elt F) → (⟨S128, .f32⟩ : BufTy).Contents (Elt F)),
    binary main_arg18 main_v112 main_v113 (mulf : (⟨S128, .f32⟩ : BufTy).Contents (Elt F) → (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v109 main_v115 main_v116 (mulf : (⟨S50000x128, .f32⟩ : BufTy).Contents (Elt F) → (⟨S50000x128, .f32⟩ : BufTy).Contents (Elt F) → (⟨S50000x128, .f32⟩ : BufTy).Contents (Elt F)),
    unary main_arg19 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v119) (TRef.of (T := ⟨S50000x128, .f32⟩) main_call3_v0) (TRef.of (T := ⟨S50000x128, .f32⟩) main_v120) maximumf ]

abbrev opsR4 : List (HloOp τ sig (Elt F)) :=
  [ binary main_v120 main_arg8 main_v121 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    nullary main_c_18 (constantI S_ 32 0#32),
    unary main_c_18 main_v122 (broadcastInDim S850000 ![] bcast_S_S850000 : (⟨S_, .i32⟩ : BufTy).Contents (Elt F) → (⟨S850000, .i32⟩ : BufTy).Contents (Elt F)),
    binary main_v3 main_v122 main_v123 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v124 (broadcastInDim S850000 ![] bcast_S_S850000 : (⟨S_, .i32⟩ : BufTy).Contents (Elt F) → (⟨S850000, .i32⟩ : BufTy).Contents (Elt F)),
    binary main_v3 main_v124 main_v125 (addi : (⟨S850000, .i32⟩ : BufTy).Contents (Elt F) → (⟨S850000, .i32⟩ : BufTy).Contents (Elt F) → (⟨S850000, .i32⟩ : BufTy).Contents (Elt F)),
    ternary main_v123 main_v125 main_v3 main_v126 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v126 main_v127 (broadcastInDim S850000x1 ![0] bcast_S850000_S850000x1_0 : (⟨S850000, .i32⟩ : BufTy).Contents (Elt F) → (⟨S850000x1, .i32⟩ : BufTy).Contents (Elt F)),
    binary main_v121 main_v127 main_v128 ((fun x i => Host.gather gather_S50000x2_S850000x1_S850000x2_1_0_n_n_0_1_12 x i) : (⟨S50000x2, .f32⟩ : BufTy).Contents (Elt F) → (⟨S850000x1, .i32⟩ : BufTy).Contents (Elt F) → (⟨S850000x2, .f32⟩ : BufTy).Contents (Elt F)),
    unary main_v30 main_v129 (broadcastInDim S850000x2 ![0, 1] bcast_S850000x1_S850000x2_0_1 : (⟨S850000x1, .f32⟩ : BufTy).Contents (Elt F) → (⟨S850000x2, .f32⟩ : BufTy).Contents (Elt F)),
    binary main_v128 main_v129 main_v130 (mulf : (⟨S850000x2, .f32⟩ : BufTy).Contents (Elt F) → (⟨S850000x2, .f32⟩ : BufTy).Contents (Elt F) → (⟨S850000x2, .f32⟩ : BufTy).Contents (Elt F)),
    nullary main_cst_20 (constant S_ .f32 0x00000000#32),
    unary main_cst_20 main_v131 (broadcastInDim S50000x2 ![] bcast_S_S50000x2 : (⟨S_, .f32⟩ : BufTy).Contents (Elt F) → (⟨S50000x2, .f32⟩ : BufTy).Contents (Elt F)),
    unary main_v6 main_v132 (broadcastInDim S850000x1 ![0] bcast_S850000_S850000x1_0 : (⟨S850000, .i32⟩ : BufTy).Contents (Elt F) → (⟨S850000x1, .i32⟩ : BufTy).Contents (Elt F)),
    ternary main_v131 main_v132 main_v130 main_v133 ((fun x i u => Host.scatterAdd scatter_S50000x2_S850000x1_S850000x2_1_0_0_1 x i u) : (⟨S50000x2, .f32⟩ : BufTy).Contents (Elt F) → (⟨S850000x1, .i32⟩ : BufTy).Contents (Elt F) → (⟨S850000x2, .f32⟩ : BufTy).Contents (Elt F) → (⟨S50000x2, .f32⟩ : BufTy).Contents (Elt F)),
    unary main_arg9 main_v134 (broadcastInDim S1x2 ![1] bcast_S2_S1x2_1 : (⟨S2, .f32⟩ : BufTy).Contents (Elt F) → (⟨S1x2, .f32⟩ : BufTy).Contents (Elt F)),
    unary main_v134 main_v135 (broadcastInDim S50000x2 ![0, 1] bcast_S1x2_S50000x2_0_1 : (⟨S1x2, .f32⟩ : BufTy).Contents (Elt F) → (⟨S50000x2, .f32⟩ : BufTy).Contents (Elt F)),
    binary main_v133 main_v135 main_v136 (addf : (⟨S50000x2, .f32⟩ : BufTy).Contents (Elt F) → (⟨S50000x2, .f32⟩ : BufTy).Contents (Elt F) → (⟨S50000x2, .f32⟩ : BufTy).Contents (Elt F)),
    TRef.nullary (TRef.of (T := ⟨S_, .f32⟩) main_call4_cst) (constant S_ .f32 0xFF800000#32),
    TRef.binary (TRef.of (T := ⟨S50000x2, .f32⟩) main_v136) (TRef.of (T := ⟨S_, .f32⟩) main_call4_cst) (TRef.of (T := ⟨S50000, .f32⟩) main_call4_v0) (fun x v => Host.reduce FloatOps.maximumf x v reducesTo_S50000x2_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x2, .f32⟩) main_call4_v4) (broadcastInDim S50000x2 ![0, 1] bcast_S50000x1_S50000x2_0_1),
    TRef.binary (TRef.of (T := ⟨S50000x2, .f32⟩) main_v136) (TRef.of (T := ⟨S50000x2, .f32⟩) main_call4_v4) (TRef.of (T := ⟨S50000x2, .f32⟩) main_call4_v5) subf,
    TRef.unary (TRef.of (T := ⟨S50000x2, .f32⟩) main_call4_v5) (TRef.of (T := ⟨S50000x2, .f32⟩) main_call4_v6) Host.exp,
    TRef.nullary (TRef.of (T := ⟨S_, .f32⟩) main_call4_cst_1) (constant S_ .f32 0x00000000#32),
    TRef.binary (TRef.of (T := ⟨S50000x2, .f32⟩) main_call4_v6) (TRef.of (T := ⟨S_, .f32⟩) main_call4_cst_1) (TRef.of (T := ⟨S50000, .f32⟩) main_call4_v7) (fun x v => Host.reduceAdd x v reducesTo_S50000x2_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x2, .f32⟩) main_call4_v10) (broadcastInDim S50000x2 ![0, 1] bcast_S50000x1_S50000x2_0_1),
    TRef.binary (TRef.of (T := ⟨S50000x2, .f32⟩) main_call4_v5) (TRef.of (T := ⟨S50000x2, .f32⟩) main_call4_v10) (TRef.of (T := ⟨S50000x2, .f32⟩) main_v137) subf ]

set_option maxRecDepth 8192 in
theorem ops_eq : (ops : List (HloOp τ sig (Elt F))) = opsR0 ++ (opsR1 ++ (opsR2 ++ (opsR3 ++ opsR4))) := rfl

end Cert.ReferenceIdeal.Hand

end
-- ==== Proof.Chain.lean ====
/-
  Which buffers the kernel program leaves alone.

  Between two boundaries of the run a buffer changes only if a host operation of the stretch writes it, or if it is
  one of the region's arrays.  The argument arrays, the two edge-endpoint vectors and the edge weights are written
  once at most, early, and only read afterwards: at every later boundary they still hold what they held before.
-/
import proofs.«152642_j38920993636608_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the list writes the buffer. -/
abbrev Untouched (ops : List (HloOp τ sig (Elt F))) (b : Ref sig .tc) : Prop :=
  ∀ op ∈ ops, (Proc.devRef .tc b : DevRef τ sig) ∉ op.writes

/-- Decides `Untouched` for a printed stretch and a named buffer: every operation's written buffer is another one. -/
macro "untouched " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

variable {b : Ref sig .tc}

/-- A buffer none of the three opening stretches writes holds its launch contents at the first region's entry. -/
theorem to3 (h0 : Untouched (F := F) hostOps0 b) (h1 : Untouched (F := F) hostOps0_1 b) (h2 : Untouched (F := F) hostOps0_2 b) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- Written by neither of the two later opening stretches: as after the first. -/
theorem to3_from1 (h1 : Untouched (F := F) hostOps0_1 b) (h2 : Untouched (F := F) hostOps0_2 b) :
    W3 m ρ c (Proc.devRef .tc b) = W1 m ρ c (Proc.devRef .tc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1

theorem at4 (r0 : ∀ w, Pipeline.arrRef spec0 w ≠ b) : W4 m ρ c (Proc.devRef .tc b) = W3 m ρ c (Proc.devRef .tc b) :=
  W4_of_ne m ρ c b r0

theorem at5 (r0 : ∀ w, Pipeline.arrRef spec0 w ≠ b) (h1 : Untouched (F := F) hostOps1 b) :
    W5 m ρ c (Proc.devRef .tc b) = W3 m ρ c (Proc.devRef .tc b) :=
  (StableHlo.after_of_forall_not_mem _ _ h1).trans (at4 m ρ c r0)

theorem at6 (r0 : ∀ w, Pipeline.arrRef spec0 w ≠ b) (h1 : Untouched (F := F) hostOps1 b) (r1 : ∀ w, Pipeline.arrRef spec1 w ≠ b) :
    W6 m ρ c (Proc.devRef .tc b) = W3 m ρ c (Proc.devRef .tc b) :=
  (W6_of_ne m ρ c b r1).trans (at5 m ρ c r0 h1)

theorem at7 (r0 : ∀ w, Pipeline.arrRef spec0 w ≠ b) (h1 : Untouched (F := F) hostOps1 b) (r1 : ∀ w, Pipeline.arrRef spec1 w ≠ b)
    (r2 : ∀ w, Pipeline.arrRef spec2 w ≠ b) :
    W7 m ρ c (Proc.devRef .tc b) = W3 m ρ c (Proc.devRef .tc b) :=
  (W7_of_ne m ρ c b r2).trans (at6 m ρ c r0 h1 r1)

theorem at8 (r0 : ∀ w, Pipeline.arrRef spec0 w ≠ b) (h1 : Untouched (F := F) hostOps1 b) (r1 : ∀ w, Pipeline.arrRef spec1 w ≠ b)
    (r2 : ∀ w, Pipeline.arrRef spec2 w ≠ b) (h3 : Untouched (F := F) hostOps3 b) :
    W8 m ρ c (Proc.devRef .tc b) = W3 m ρ c (Proc.devRef .tc b) :=
  (StableHlo.after_of_forall_not_mem _ _ h3).trans (at7 m ρ c r0 h1 r1 r2)

theorem at9 (r0 : ∀ w, Pipeline.arrRef spec0 w ≠ b) (h1 : Untouched (F := F) hostOps1 b) (r1 : ∀ w, Pipeline.arrRef spec1 w ≠ b)
    (r2 : ∀ w, Pipeline.arrRef spec2 w ≠ b) (h3 : Untouched (F := F) hostOps3 b) (r3 : ∀ w, Pipeline.arrRef spec3 w ≠ b) :
    W9 m ρ c (Proc.devRef .tc b) = W3 m ρ c (Proc.devRef .tc b) :=
  (W9_of_ne m ρ c b r3).trans (at8 m ρ c r0 h1 r1 r2 h3)

theorem at10 (r0 : ∀ w, Pipeline.arrRef spec0 w ≠ b) (h1 : Untouched (F := F) hostOps1 b) (r1 : ∀ w, Pipeline.arrRef spec1 w ≠ b)
    (r2 : ∀ w, Pipeline.arrRef spec2 w ≠ b) (h3 : Untouched (F := F) hostOps3 b) (r3 : ∀ w, Pipeline.arrRef spec3 w ≠ b)
    (r4 : ∀ w, Pipeline.arrRef spec4 w ≠ b) :
    W10 m ρ c (Proc.devRef .tc b) = W3 m ρ c (Proc.devRef .tc b) :=
  (W10_of_ne m ρ c b r4).trans (at9 m ρ c r0 h1 r1 r2 h3 r3)

theorem at11 (r0 : ∀ w, Pipeline.arrRef spec0 w ≠ b) (h1 : Untouched (F := F) hostOps1 b) (r1 : ∀ w, Pipeline.arrRef spec1 w ≠ b)
    (r2 : ∀ w, Pipeline.arrRef spec2 w ≠ b) (h3 : Untouched (F := F) hostOps3 b) (r3 : ∀ w, Pipeline.arrRef spec3 w ≠ b)
    (r4 : ∀ w, Pipeline.arrRef spec4 w ≠ b) (h5 : Untouched (F := F) hostOps5 b) :
    W11 m ρ c (Proc.devRef .tc b) = W3 m ρ c (Proc.devRef .tc b) :=
  (StableHlo.after_of_forall_not_mem _ _ h5).trans (at10 m ρ c r0 h1 r1 r2 h3 r3 r4)

theorem at12 (r0 : ∀ w, Pipeline.arrRef spec0 w ≠ b) (h1 : Untouched (F := F) hostOps1 b) (r1 : ∀ w, Pipeline.arrRef spec1 w ≠ b)
    (r2 : ∀ w, Pipeline.arrRef spec2 w ≠ b) (h3 : Untouched (F := F) hostOps3 b) (r3 : ∀ w, Pipeline.arrRef spec3 w ≠ b)
    (r4 : ∀ w, Pipeline.arrRef spec4 w ≠ b) (h5 : Untouched (F := F) hostOps5 b) (r5 : ∀ w, Pipeline.arrRef spec5 w ≠ b) :
    W12 m ρ c (Proc.devRef .tc b) = W3 m ρ c (Proc.devRef .tc b) :=
  (W12_of_ne m ρ c b r5).trans (at11 m ρ c r0 h1 r1 r2 h3 r3 r4 h5)

theorem at13 (r0 : ∀ w, Pipeline.arrRef spec0 w ≠ b) (h1 : Untouched (F := F) hostOps1 b) (r1 : ∀ w, Pipeline.arrRef spec1 w ≠ b)
    (r2 : ∀ w, Pipeline.arrRef spec2 w ≠ b) (h3 : Untouched (F := F) hostOps3 b) (r3 : ∀ w, Pipeline.arrRef spec3 w ≠ b)
    (r4 : ∀ w, Pipeline.arrRef spec4 w ≠ b) (h5 : Untouched (F := F) hostOps5 b) (r5 : ∀ w, Pipeline.arrRef spec5 w ≠ b)
    (r6 : ∀ w, Pipeline.arrRef spec6 w ≠ b) :
    W13 m ρ c (Proc.devRef .tc b) = W3 m ρ c (Proc.devRef .tc b) :=
  (W13_of_ne m ρ c b r6).trans (at12 m ρ c r0 h1 r1 r2 h3 r3 r4 h5 r5)

end Cert.KernelIdeal.Hand

end
-- ==== Proof.Spec.lean ====
/-
  The mathematics both programs compute, written once as functions of whole arrays over the extended reals.

  A graph-convolution layer is: a dense product `h · W`, a gather of its rows along the edges scaled by the
  edge weights and summed into the target nodes, then per column an affine map and a clamp at zero.  The last
  layer ends in a row-wise log-softmax instead.  The three array functions below are the dense product, the
  per-column affine map with the clamp, and the log-softmax of a two-column array after a bias is added.
-/
import Idealize.ShloMosaic.PureOps.Ideal
import Idealize.ShloMosaic.Lib.ValueIdx

noncomputable section

namespace Cert.Gcn

open Idealize.ShloMosaic Idealize.ShloMosaic.ValueIdx

/-- A two-axis array of extended reals with literal extents. -/
abbrev Arr (n c : Nat) : Type := (⟨2, ![n, c]⟩ : Shape).Idx → EReal

/-- Every entry of a family of extended reals is a real number. -/
def IsReal {ι : Type} (f : ι → EReal) : Prop := ∀ i, ∃ r : ℝ, f i = (r : EReal)

/-- The product of an n×k array with a k×c array: entry (p, q) is the sum over κ of h(p, κ) · W(κ, q). -/
def mm {n k c : Nat} (h : Arr n k) (W : Arr k c) : Arr n c :=
  fun i => ∑ κ : Fin k, h (ix2 (i 0) κ) * W (ix2 κ (i 1))

/-- Per column q: a(p, q) · s(0, q) + t(0, q), clamped below at zero. -/
def ssr {n c : Nat} (a : Arr n c) (s t : Arr 1 c) : Arr n c :=
  fun i => max (a i * s (ix2 0 (i 1)) + t (ix2 0 (i 1))) 0

/-- Row p of `a` with the bias row added. -/
def biased {n : Nat} (a : Arr n 2) (b : Arr 1 2) (p : Fin n) : Fin 2 → EReal :=
  fun j => a (ix2 p j) + b (ix2 0 j)

/-- The largest entry of a row of two, taken from −∞. -/
def rowMax (y : Fin 2 → EReal) : EReal := Finset.univ.fold max (⊥ : EReal) y

/-- The row-wise log-softmax of `a` plus the bias row: with y the biased row and M its maximum,
    entry (p, q) is (y q − M) − log (Σ_j exp (y j − M)). -/
def lsm {n : Nat} (a : Arr n 2) (b : Arr 1 2) : Arr n 2 :=
  fun i => (biased a b (i 0) (i 1) - rowMax (biased a b (i 0)))
    - Ideal.log (∑ j : Fin 2, Ideal.exp (biased a b (i 0) j - rowMax (biased a b (i 0))))

end Cert.Gcn

end
-- ==== Proof.LibNonnegScale.lean ====
/-
  Scaling a finite sum of extended reals by a nonnegative finite factor.

  On the extended reals `(y + z) * d = y * d + z * d` fails in general (take `y = ⊤`, `z = ⊥` and `d < 0`, or `d = ⊤`
  with `y + z = 0`), but it holds for EVERY `y`, `z` once `0 ≤ d` and `d ≠ ⊤`. So a factor of that kind moves across a
  finite sum whatever the terms are — no finiteness of the terms is needed. The factor met here is the inverse square root
  of a node's degree, guarded by `degree > 0`: `rsqrt ⊤ = 0` and `rsqrt r = (√r)⁻¹` for a real `r > 0`, so the guarded
  value is nonnegative and finite for every extended-real degree.
-/
import Idealize.ShloMosaic.PureOps.Ideal
import Idealize.ShloMosaic.PureOps.Ideal.Laws

noncomputable section

open scoped BigOperators

namespace Cert.NonnegScale

open Idealize.ShloMosaic

/-- A factor that is nonnegative and not `⊤` distributes over a finite sum of arbitrary extended reals. -/
theorem sum_mul {ι : Type*} (s : Finset ι) (f : ι → EReal) {d : EReal} (h0 : 0 ≤ d) (htop : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 htop, ih]

/-- The same with a zero in front of each sum, the form a scatter-add into a zero array takes. -/
theorem zero_add_sum_mul {ι : Type*} (s : Finset ι) (f : ι → EReal) {d : EReal} (h0 : 0 ≤ d) (htop : d ≠ ⊤) :
    (0 + ∑ j ∈ s, f j) * d = 0 + ∑ j ∈ s, f j * d := by
  rw [zero_add, zero_add, sum_mul s f h0 htop]

/-- The inverse square root of a positive extended real is nonnegative and finite (`rsqrt ⊤ = 0`). -/
theorem rsqrt_of_pos {y : EReal} (hy : 0 < y) : 0 ≤ Ideal.rsqrt y ∧ Ideal.rsqrt y ≠ ⊤ := by
  induction y using EReal.rec with
  | bot => exact absurd hy (not_lt_bot)
  | top => rw [Ideal.rsqrt_top]; exact ⟨le_refl _, EReal.zero_ne_top⟩
  | coe r =>
    have hr : 0 < r := by exact_mod_cast hy
    have h1 : ¬ r < 0 := not_lt.mpr hr.le
    have h2 : ¬ r = 0 := hr.ne'
    have e : Ideal.rsqrt (r : EReal) = (((Real.sqrt r)⁻¹ : ℝ) : EReal) := by
      rw [Ideal.rsqrt_coe, if_neg h1, if_neg h2]
    rw [e]
    exact ⟨by exact_mod_cast inv_nonneg.mpr (Real.sqrt_nonneg r), EReal.coe_ne_top _⟩

/-- `where(y > 0, rsqrt y, 0)` is nonnegative and finite at every extended real `y`. -/
theorem guarded_rsqrt (y : EReal) :
    0 ≤ Scalar.select (Ideal.cmp .ogt y 0) (Ideal.rsqrt y) 0 ∧ Scalar.select (Ideal.cmp .ogt y 0) (Ideal.rsqrt y) 0 ≠ ⊤ := by
  by_cases hy : 0 < y
  · have hc : Ideal.cmp .ogt y 0 = 1#1 := by simp [Ideal.cmp, hy]
    rw [hc]
    simpa [Scalar.select] using rsqrt_of_pos hy
  · have hc : Ideal.cmp .ogt y 0 = 0#1 := by simp [Ideal.cmp, hy]
    rw [hc]
    simp [Scalar.select]

end Cert.NonnegScale

end
-- ==== Proof.Edges.lean ====
/-
  The edge data of the kernel program.

  Before its first region the program computes, from the edge list alone, the source and the target node of every
  edge (one self-loop per node appended), the degree of every node (the number of edges that end there), its guarded
  inverse square root  where (deg > 0) (rsqrt deg) 0,  and the edge weight: the product of that value at the two
  endpoints.  These are written here once as functions of the edge list, and the program's buffers at the first
  region's entry are shown to hold them.  Over the extended reals every edge weight is a real number, whatever the
  edge list is: the guarded inverse square root is nonnegative and never +∞.
-/
import proofs.«152642_j38920993636608_1_alg».proof.Proof.Chain
import proofs.«152642_j38920993636608_1_alg».proof.Proof.Gen.KernelIdeal
import proofs.«152642_j38920993636608_1_alg».proof.Proof.Spec
import proofs.«152642_j38920993636608_1_alg».proof.Proof.LibNonnegScale

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

section Functions

variable {F : FTy → Type} [FloatOps F]

/-- Row 0 of the edge list, flattened, then the node numbers 0, 1, …: the source node of every edge. -/
def srcOf (e : (⟨S2x800000, .i32⟩ : BufTy).Contents (Elt F)) : (⟨S850000, .i32⟩ : BufTy).Contents (Elt F) :=
  concatenate S850000 0
    [⟨S800000, shapeCast S800000 (extractStridedSlice S1x800000 ![0, 0] e slices_S2x800000_S1x800000_0_0)
        shapeCasts_S1x800000_S800000⟩,
      ⟨S50000, iotaInDim S50000 32 0⟩]
    concatenates_S800000_S50000_S850000_d0

/-- Row 1 of the edge list, flattened, then the node numbers 0, 1, …: the target node of every edge. -/
def dstOf (e : (⟨S2x800000, .i32⟩ : BufTy).Contents (Elt F)) : (⟨S850000, .i32⟩ : BufTy).Contents (Elt F) :=
  concatenate S850000 0
    [⟨S800000, shapeCast S800000 (extractStridedSlice S1x800000 ![1, 0] e slices_S2x800000_S1x800000_1_0)
        shapeCasts_S1x800000_S800000⟩,
      ⟨S50000, iotaInDim S50000 32 0⟩]
    concatenates_S800000_S50000_S850000_d0

/-- The degree of every node: a one added, from zero, at the target of every edge. -/
def degOf (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (dstOf e))
    (broadcastInDim S850000 ![] bcast_S_S850000 (constant S_ .f32 0x3F800000#32))

/-- The guarded inverse square root of the degree: where (deg > 0) (rsqrt deg) 0. -/
def disOf (e : (⟨S2x800000, .i32⟩ : BufTy).Contents (Elt F)) : (⟨S50000, .f32⟩ : BufTy).Contents (Elt F) :=
  select (cmpf .ogt (degOf e) (broadcastInDim S50000 ![] bcast_S_S50000 (constant S_ .f32 0x00000000#32)))
    (Host.rsqrt (degOf e))
    (broadcastInDim S50000 ![] bcast_S_S50000 (constant S_ .f32 0x00000000#32))

/-- A node number read the way an array index is: a negative one counts from the end. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- The edge weights from a per-node factor d and the two endpoint vectors: d at the source times d at the target,
    as a column. -/
def normFrom (d : (⟨S50000, .f32⟩ : BufTy).Contents (Elt F)) (s t : (⟨S850000, .i32⟩ : BufTy).Contents (Elt F)) :
    (⟨S850000x1, .f32⟩ : BufTy).Contents (Elt F) :=
  broadcastInDim S850000x1 ![0] bcast_S850000_S850000x1_0
    (mulf
      (Host.gather gather_S50000_S850000x1_S850000_n_0_n_n_0_1_1 d
        (broadcastInDim S850000x1 ![0] bcast_S850000_S850000x1_0 (wrapIdx (F := F) s)))
      (Host.gather gather_S50000_S850000x1_S850000_n_0_n_n_0_1_1 d
        (broadcastInDim S850000x1 ![0] bcast_S850000_S850000x1_0 (wrapIdx (F := F) t))))

/-- The edge weight of every edge, as a column. -/
def normOf (e : (⟨S2x800000, .i32⟩ : BufTy).Contents (Elt F)) : (⟨S850000x1, .f32⟩ : BufTy).Contents (Elt F) :=
  normFrom (disOf e) (srcOf e) (dstOf e)

end Functions

section Run

variable {F : FTy → Type} [FloatOps F]
variable (m : (ℓ : Loc nD τ sig) → Buf (Elt F) ℓ) (ρ : Dev nD → PrngReg) (c : Dev nD)

/-- After the first stretch the source vector is the function of the edge list. -/
theorem v3_W1 : W1 m ρ c (Proc.devRef .tc main_v3) = srcOf (m ((c : Thread nD τ).loc main_arg1)) := by
  show StableHlo.after hostOps0 (W0 m ρ c) (Proc.devRef .tc main_v3) = _
  dsimp only [hostOps0]
  after_results
  rfl

/-- After the first stretch the target vector is the function of the edge list. -/
theorem v6_W1 : W1 m ρ c (Proc.devRef .tc main_v6) = dstOf (m ((c : Thread nD τ).loc main_arg1)) := by
  show StableHlo.after hostOps0 (W0 m ρ c) (Proc.devRef .tc main_v6) = _
  dsimp only [hostOps0]
  after_results
  rfl

set_option maxHeartbeats 1600000 in
/-- After the second stretch the per-node factor is the function of the edge list. -/
theorem v14_W2 : W2 m ρ c (Proc.devRef .tc main_v14) = disOf (m ((c : Thread nD τ).loc main_arg1)) := by
  show StableHlo.after hostOps0_1 (W1 m ρ c) (Proc.devRef .tc main_v14) = _
  dsimp only [hostOps0_1]
  after_results
  rfl

set_option maxHeartbeats 1600000 in
/-- The third stretch, from any contents: the weight column is the product of the gathered factors. -/
theorem v30_after (V : Valuation τ sig (Elt F)) :
    StableHlo.after hostOps0_2 V (Proc.devRef .tc main_v30)
      = normFrom (V (Proc.devRef .tc main_v14)) (V (Proc.devRef .tc main_v3)) (V (Proc.devRef .tc main_v6)) := by
  dsimp only [hostOps0_2]
  after_results
  rfl

end Run

section Entry

variable {F : FTy → Type} [FloatOps F]
variable (m : (ℓ : Loc nD τ sig) → Buf (Elt F) ℓ) (ρ : Dev nD → PrngReg) (c : Dev nD)

/-- At the first region's entry the source vector is the function of the edge list. -/
theorem v3_W3 : W3 m ρ c (Proc.devRef .tc main_v3) = srcOf (m ((c : Thread nD τ).loc main_arg1)) :=
  (to3_from1 m ρ c (by untouched hostOps0_1) (by untouched hostOps0_2)).trans (v3_W1 m ρ c)

/-- At the first region's entry the target vector is the function of the edge list. -/
theorem v6_W3 : W3 m ρ c (Proc.devRef .tc main_v6) = dstOf (m ((c : Thread nD τ).loc main_arg1)) :=
  (to3_from1 m ρ c (by untouched hostOps0_1) (by untouched hostOps0_2)).trans (v6_W1 m ρ c)

/-- At the first region's entry the weight column is the function of the edge list. -/
theorem v30_W3 : W3 m ρ c (Proc.devRef .tc main_v30) = normOf (m ((c : Thread nD τ).loc main_arg1)) := by
  have h3 : W2 m ρ c (Proc.devRef .tc main_v3) = srcOf (m ((c : Thread nD τ).loc main_arg1)) :=
    (StableHlo.after_of_forall_not_mem _ _ (by untouched hostOps0_1)).trans (v3_W1 m ρ c)
  have h6 : W2 m ρ c (Proc.devRef .tc main_v6) = dstOf (m ((c : Thread nD τ).loc main_arg1)) :=
    (StableHlo.after_of_forall_not_mem _ _ (by untouched hostOps0_1)).trans (v6_W1 m ρ c)
  show StableHlo.after hostOps0_2 (W2 m ρ c) (Proc.devRef .tc main_v30) = _
  rw [v30_after, v14_W2, h3, h6]
  rfl

end Entry

section Real

open Cert.Gcn

/-- A nonnegative extended real other than +∞ is a real number. -/
theorem real_of_bounds {x : EReal} (h0 : 0 ≤ x) (ht : x ≠ ⊤) : ∃ r : ℝ, x = (r : EReal) := by
  induction x using EReal.rec with
  | bot => exact absurd h0 (by simp)
  | top => exact absurd rfl ht
  | coe r => exact ⟨r, rfl⟩

/-- A product of two reals is real. -/
theorem mul_real {x y : EReal} (hx : ∃ r : ℝ, x = (r : EReal)) (hy : ∃ r : ℝ, y = (r : EReal)) :
    ∃ r : ℝ, x * y = (r : EReal) := by
  obtain ⟨r, rfl⟩ := hx
  obtain ⟨q, rfl⟩ := hy
  exact ⟨r * q, (EReal.coe_mul r q).symm⟩

/-- where (g > 0) (rsqrt g) 0 is a real number at every index, for any array g of extended reals. -/
theorem guard_real (g : FVec Ideal S50000 .f32) :
    IsReal (select (cmpf (F := Ideal) .ogt g
        (broadcastInDim S50000 ![] bcast_S_S50000 (constant (F := Ideal) S_ .f32 0x00000000#32)))
      (Host.rsqrt (F := Ideal) g)
      (broadcastInDim S50000 ![] bcast_S_S50000 (constant (F := Ideal) S_ .f32 0x00000000#32))) := fun i => by
  have h := Cert.NonnegScale.guarded_rsqrt (g i)
  show ∃ r : ℝ, Scalar.select (Ideal.cmp .ogt (g i) (Ideal.ofBits .f32 0x00000000#32)) (Ideal.rsqrt (g i))
    (Ideal.ofBits .f32 0x00000000#32) = (r : EReal)
  rw [Ideal.ofBits_zero_f32]
  exact real_of_bounds h.1 h.2

/-- The per-node factor is a real number at every node, whatever the edge list. -/
theorem dis_real (e : (⟨S2x800000, .i32⟩ : BufTy).Contents (Elt Ideal)) : IsReal (disOf (F := Ideal) e) := by
  unfold disOf
  exact guard_real _

/-- Products of gathered entries of a real array are real, whatever the index vectors. -/
theorem normFrom_real (d : (⟨S50000, .f32⟩ : BufTy).Contents (Elt Ideal)) (hd : IsReal d)
    (s t : (⟨S850000, .i32⟩ : BufTy).Contents (Elt Ideal)) : IsReal (normFrom (F := Ideal) d s t) := fun i => by
  unfold normFrom
  exact mul_real (hd _) (hd _)

/-- The edge weights are real numbers, whatever the edge list. -/
theorem norm_real (e : (⟨S2x800000, .i32⟩ : BufTy).Contents (Elt Ideal)) : IsReal (normOf (F := Ideal) e) := by
  unfold normOf
  exact normFrom_real _ (dis_real e) _ _

end Real

end Cert.KernelIdeal.Hand

end
-- ==== Proof.RefEdges.lean ====
/-
  The edge data of the reference program.

  The reference computes the source and target node of every edge and the edge weights by the same operations as the
  kernel program does before its first region; here its buffers after its opening stretch are shown to hold the same
  functions of the edge list.  No later stretch writes an argument array or one of these three arrays.
-/
import proofs.«152642_j38920993636608_1_alg».proof.Proof.RefChunks
import proofs.«152642_j38920993636608_1_alg».proof.Proof.Edges

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (V : Valuation τ sig (Elt F))

section Split

/-- The first 21 operations of the opening stretch: endpoints, degree and its guarded inverse square root. -/
abbrev opsR0a : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The last 20 operations of the opening stretch: the two gathers and the product. -/
abbrev opsR0b : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)) ]

/-- The opening stretch is the two parts in order. -/
theorem opsR0_eq : (opsR0 : List (HloOp τ sig (Elt F))) = opsR0a ++ opsR0b := rfl

end Split

/-- Running two lists in order. -/
theorem after_append' (l1 l2 : List (HloOp τ sig (Elt F))) (W : Valuation τ sig (Elt F)) :
    StableHlo.after (l1 ++ l2) W = StableHlo.after l2 (StableHlo.after l1 W) := by
  induction l1 generalizing W with
  | nil => rfl
  | cons op l ih => exact ih _

set_option maxHeartbeats 4000000 in
/-- After the opening stretch the source vector is the shared function of the edge list. -/
theorem r0_v3 : StableHlo.after opsR0 V (Proc.devRef .tc main_v3)
    = Cert.KernelIdeal.Hand.srcOf (F := F) (V (Proc.devRef .tc main_arg1)) := by
  dsimp only [opsR0]
  after_results_simp
  unfold Cert.KernelIdeal.Hand.srcOf
  rfl

set_option maxHeartbeats 4000000 in
/-- After the opening stretch the target vector is the shared function of the edge list. -/
theorem r0_v6 : StableHlo.after opsR0 V (Proc.devRef .tc main_v6)
    = Cert.KernelIdeal.Hand.dstOf (F := F) (V (Proc.devRef .tc main_arg1)) := by
  dsimp only [opsR0]
  after_results_simp
  unfold Cert.KernelIdeal.Hand.dstOf
  rfl

set_option maxHeartbeats 4000000 in
/-- After the first part the source vector is the shared function of the edge list. -/
theorem ra_v3 : StableHlo.after opsR0a V (Proc.devRef .tc main_v3)
    = Cert.KernelIdeal.Hand.srcOf (F := F) (V (Proc.devRef .tc main_arg1)) := by
  dsimp only [opsR0a]
  after_results_simp
  unfold Cert.KernelIdeal.Hand.srcOf
  rfl

set_option maxHeartbeats 4000000 in
/-- After the first part the target vector is the shared function of the edge list. -/
theorem ra_v6 : StableHlo.after opsR0a V (Proc.devRef .tc main_v6)
    = Cert.KernelIdeal.Hand.dstOf (F := F) (V (Proc.devRef .tc main_arg1)) := by
  dsimp only [opsR0a]
  after_results_simp
  unfold Cert.KernelIdeal.Hand.dstOf
  rfl

set_option maxHeartbeats 4000000 in
/-- After the first part the per-node factor is the shared function of the edge list. -/
theorem ra_v14 : StableHlo.after opsR0a V (Proc.devRef .tc main_v14)
    = Cert.KernelIdeal.Hand.disOf (F := F) (V (Proc.devRef .tc main_arg1)) := by
  dsimp only [opsR0a]
  after_results_simp
  unfold Cert.KernelIdeal.Hand.disOf Cert.KernelIdeal.Hand.degOf Cert.KernelIdeal.Hand.dstOf
  rfl

set_option maxHeartbeats 4000000 in
/-- The second part, from any contents: the weight column is the product of the gathered factors. -/
theorem rb_v30 : StableHlo.after opsR0b V (Proc.devRef .tc main_v30)
    = Cert.KernelIdeal.Hand.normFrom (F := F) (V (Proc.devRef .tc main_v14)) (V (Proc.devRef .tc main_v3))
        (V (Proc.devRef .tc main_v6)) := by
  dsimp only [opsR0b]
  after_results_simp
  unfold Cert.KernelIdeal.Hand.normFrom Cert.KernelIdeal.Hand.wrapIdx
  rfl

/-- After the opening stretch the weight column is the shared function of the edge list. -/
theorem r0_v30 : StableHlo.after opsR0 V (Proc.devRef .tc main_v30)
    = Cert.KernelIdeal.Hand.normOf (F := F) (V (Proc.devRef .tc main_arg1)) := by
  rw [opsR0_eq, after_append', rb_v30, ra_v14, ra_v3, ra_v6]
  rfl

/-! ## What each stretch leaves alone

A buffer keeps its contents through a stretch when no operation of the stretch has it as its result.  The results of
each stretch are listed; a buffer outside the list is kept. -/

/-- The argument arrays. -/
abbrev argRefs : List (Ref sig .tc) :=
  [main_arg0, main_arg1, main_arg2, main_arg3, main_arg4, main_arg5, main_arg6, main_arg7,
    main_arg8, main_arg9, main_arg10, main_arg11, main_arg12, main_arg13, main_arg14, main_arg15,
    main_arg16, main_arg17, main_arg18, main_arg19, main_arg20, main_arg21]

/-- The argument arrays and the three edge arrays. -/
abbrev keptRefs : List (Ref sig .tc) := argRefs ++ [main_v3, main_v6, main_v30]

/-- The results of the operations of stretch 0. -/
abbrev wr0 : List (Ref sig .tc) :=
  [main_v0, main_v1, main_v2, main_v3, main_v4, main_v5, main_v6, main_cst,
    main_v7, main_cst_0, main_v8, main_v9, main_v10, main_cst_1, main_v11, main_v12,
    main_v13, main_cst_2, main_call0_v0, main_call0_v1, main_v14, main_c, main_v15, main_v16,
    main_c_3, main_v17, main_v18, main_v19, main_v20, main_v21, main_c_4, main_v22,
    main_v23, main_c_5, main_v24, main_v25, main_v26, main_v27, main_v28, main_v29,
    main_v30]

set_option maxHeartbeats 1000000 in
/-- Every operation of stretch 0 writes a buffer of the list. -/
theorem wr0_sub : (opsR0 : List (HloOp τ sig (Elt F))).Forall
    fun op => op.writes ⊆ (wr0.map (Proc.devRef (τ := τ) .tc)).toFinset := by
  simp only [opsR0, List.Forall, StableHlo.nullary_writes, StableHlo.unary_writes, StableHlo.binary_writes,
    StableHlo.ternary_writes, StableHlo.reshape_writes, Finset.singleton_subset_iff]
  repeat' apply And.intro
  all_goals exact List.mem_toFinset.2 (List.mem_map_of_mem (by decide))

/-- A buffer that is no result of stretch 0 holds after it what it held before. -/
theorem keep_R0 (b : Ref sig .tc) (hb : b ∉ wr0) :
    StableHlo.after opsR0 V (Proc.devRef .tc b) = V (Proc.devRef .tc b) :=
  StableHlo.after_of_writes_sub opsR0 V wr0_sub hb

/-- The results of the operations of stretch 1. -/
abbrev wr1 : List (Ref sig .tc) :=
  [main_v31, main_c_6, main_v32, main_v33, main_c_7, main_v34, main_v35, main_v36,
    main_v37, main_v38, main_v39, main_v40, main_cst_8, main_v41, main_v42, main_v43,
    main_v44, main_v45, main_v46, main_v47, main_v48, main_v49, main_cst_9, main_v50,
    main_v51, main_v52, main_v53, main_v54, main_v55, main_v56, main_v57, main_v58,
    main_v59, main_call1_cst, main_call1_v0, main_v60]

set_option maxHeartbeats 1000000 in
/-- Every operation of stretch 1 writes a buffer of the list. -/
theorem wr1_sub : (opsR1 : List (HloOp τ sig (Elt F))).Forall
    fun op => op.writes ⊆ (wr1.map (Proc.devRef (τ := τ) .tc)).toFinset := by
  simp only [opsR1, List.Forall, StableHlo.nullary_writes, StableHlo.unary_writes, StableHlo.binary_writes,
    StableHlo.ternary_writes, StableHlo.reshape_writes, Finset.singleton_subset_iff]
  repeat' apply And.intro
  all_goals exact List.mem_toFinset.2 (List.mem_map_of_mem (by decide))

/-- A buffer that is no result of stretch 1 holds after it what it held before. -/
theorem keep_R1 (b : Ref sig .tc) (hb : b ∉ wr1) :
    StableHlo.after opsR1 V (Proc.devRef .tc b) = V (Proc.devRef .tc b) :=
  StableHlo.after_of_writes_sub opsR1 V wr1_sub hb

/-- The results of the operations of stretch 2. -/
abbrev wr2 : List (Ref sig .tc) :=
  [main_v61, main_c_10, main_v62, main_v63, main_c_11, main_v64, main_v65, main_v66,
    main_v67, main_v68, main_v69, main_v70, main_cst_12, main_v71, main_v72, main_v73,
    main_v74, main_v75, main_v76, main_v77, main_v78, main_v79, main_cst_13, main_v80,
    main_v81, main_v82, main_v83, main_v84, main_v85, main_v86, main_v87, main_v88,
    main_v89, main_call2_cst, main_call2_v0, main_v90]

set_option maxHeartbeats 1000000 in
/-- Every operation of stretch 2 writes a buffer of the list. -/
theorem wr2_sub : (opsR2 : List (HloOp τ sig (Elt F))).Forall
    fun op => op.writes ⊆ (wr2.map (Proc.devRef (τ := τ) .tc)).toFinset := by
  simp only [opsR2, List.Forall, StableHlo.nullary_writes, StableHlo.unary_writes, StableHlo.binary_writes,
    StableHlo.ternary_writes, StableHlo.reshape_writes, Finset.singleton_subset_iff]
  repeat' apply And.intro
  all_goals exact List.mem_toFinset.2 (List.mem_map_of_mem (by decide))

/-- A buffer that is no result of stretch 2 holds after it what it held before. -/
theorem keep_R2 (b : Ref sig .tc) (hb : b ∉ wr2) :
    StableHlo.after opsR2 V (Proc.devRef .tc b) = V (Proc.devRef .tc b) :=
  StableHlo.after_of_writes_sub opsR2 V wr2_sub hb

/-- The results of the operations of stretch 3. -/
abbrev wr3 : List (Ref sig .tc) :=
  [main_v91, main_c_14, main_v92, main_v93, main_c_15, main_v94, main_v95, main_v96,
    main_v97, main_v98, main_v99, main_v100, main_cst_16, main_v101, main_v102, main_v103,
    main_v104, main_v105, main_v106, main_v107, main_v108, main_v109, main_cst_17, main_v110,
    main_v111, main_v112, main_v113, main_v114, main_v115, main_v116, main_v117, main_v118,
    main_v119, main_call3_cst, main_call3_v0, main_v120]

set_option maxHeartbeats 1000000 in
/-- Every operation of stretch 3 writes a buffer of the list. -/
theorem wr3_sub : (opsR3 : List (HloOp τ sig (Elt F))).Forall
    fun op => op.writes ⊆ (wr3.map (Proc.devRef (τ := τ) .tc)).toFinset := by
  simp only [opsR3, List.Forall, StableHlo.nullary_writes, StableHlo.unary_writes, StableHlo.binary_writes,
    StableHlo.ternary_writes, StableHlo.reshape_writes, Finset.singleton_subset_iff]
  repeat' apply And.intro
  all_goals exact List.mem_toFinset.2 (List.mem_map_of_mem (by decide))

/-- A buffer that is no result of stretch 3 holds after it what it held before. -/
theorem keep_R3 (b : Ref sig .tc) (hb : b ∉ wr3) :
    StableHlo.after opsR3 V (Proc.devRef .tc b) = V (Proc.devRef .tc b) :=
  StableHlo.after_of_writes_sub opsR3 V wr3_sub hb

/-- The results of the operations of stretch 4. -/
abbrev wr4 : List (Ref sig .tc) :=
  [main_v121, main_c_18, main_v122, main_v123, main_c_19, main_v124, main_v125, main_v126,
    main_v127, main_v128, main_v129, main_v130, main_cst_20, main_v131, main_v132, main_v133,
    main_v134, main_v135, main_v136, main_call4_cst, main_call4_v0, main_call4_cst_0, main_call4_v1, main_call4_v2,
    main_call4_v3, main_call4_v4, main_call4_v5, main_call4_v6, main_call4_cst_1, main_call4_v7, main_call4_v8, main_call4_v9,
    main_call4_v10, main_v137]

set_option maxHeartbeats 1000000 in
/-- Every operation of stretch 4 writes a buffer of the list. -/
theorem wr4_sub : (opsR4 : List (HloOp τ sig (Elt F))).Forall
    fun op => op.writes ⊆ (wr4.map (Proc.devRef (τ := τ) .tc)).toFinset := by
  simp only [opsR4, List.Forall, StableHlo.nullary_writes, StableHlo.unary_writes, StableHlo.binary_writes,
    StableHlo.ternary_writes, StableHlo.reshape_writes, Finset.singleton_subset_iff]
  repeat' apply And.intro
  all_goals exact List.mem_toFinset.2 (List.mem_map_of_mem (by decide))

/-- A buffer that is no result of stretch 4 holds after it what it held before. -/
theorem keep_R4 (b : Ref sig .tc) (hb : b ∉ wr4) :
    StableHlo.after opsR4 V (Proc.devRef .tc b) = V (Proc.devRef .tc b) :=
  StableHlo.after_of_writes_sub opsR4 V wr4_sub hb

/-- No stretch writes an argument array. -/
theorem args_not_written : ∀ b ∈ argRefs, b ∉ wr0 ∧ b ∉ wr1 ∧ b ∉ wr2 ∧ b ∉ wr3 ∧ b ∉ wr4 := by decide

/-- No stretch after the opening one writes an argument array or one of the three edge arrays. -/
theorem kept_not_written : ∀ b ∈ keptRefs, b ∉ wr1 ∧ b ∉ wr2 ∧ b ∉ wr3 ∧ b ∉ wr4 := by decide

/-- An argument array is kept by the opening stretch. -/
theorem keep0_arg (b : Ref sig .tc) (hb : b ∈ argRefs) :
    StableHlo.after opsR0 V (Proc.devRef .tc b) = V (Proc.devRef .tc b) := keep_R0 V b (args_not_written b hb).1

/-- An argument array or edge array is kept by stretch 1. -/
theorem keep1_kept (b : Ref sig .tc) (hb : b ∈ keptRefs) :
    StableHlo.after opsR1 V (Proc.devRef .tc b) = V (Proc.devRef .tc b) :=
  keep_R1 V b (kept_not_written b hb).1

/-- An argument array or edge array is kept by stretch 2. -/
theorem keep2_kept (b : Ref sig .tc) (hb : b ∈ keptRefs) :
    StableHlo.after opsR2 V (Proc.devRef .tc b) = V (Proc.devRef .tc b) :=
  keep_R2 V b (kept_not_written b hb).2.1

/-- An argument array or edge array is kept by stretch 3. -/
theorem keep3_kept (b : Ref sig .tc) (hb : b ∈ keptRefs) :
    StableHlo.after opsR3 V (Proc.devRef .tc b) = V (Proc.devRef .tc b) :=
  keep_R3 V b (kept_not_written b hb).2.2.1

/-- An argument array or edge array is kept by stretch 4. -/
theorem keep4_kept (b : Ref sig .tc) (hb : b ∈ keptRefs) :
    StableHlo.after opsR4 V (Proc.devRef .tc b) = V (Proc.devRef .tc b) :=
  keep_R4 V b (kept_not_written b hb).2.2.2

end Cert.ReferenceIdeal.Hand

end
-- ==== Proof.HostOps.lean ====
/-
  The host-side operations of a graph-convolution layer, named once.

  Between two kernel regions both programs do the same thing to the dense product `a` of a layer: gather its rows
  at the source node of every edge (a negative node number wraps round once), scale each gathered row by the edge's
  weight, and add the rows up at the edge's target node.  The kernel program also folds the bias and the batch
  normalisation of a layer into one scale and one shift per column: scale = g · rsqrt (v + ε) and
  shift = (b · scale + β) − μ · scale, each laid out as a one-row array.
-/
import proofs.«152642_j38920993636608_1_alg».proof.Proof.Gen.KernelIdeal

noncomputable section

namespace Cert.Gcn.HostOps

open Idealize.ShloMosaic Cert.KernelIdeal Cert.KernelIdeal.Facts₀ Cert.KernelIdeal.Facts

variable {F : FTy → Type} [FloatOps F]

/-- Node numbers as a column of gather indices; a negative number has the node count added once. -/
def wrapIdx (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Rows of `a` gathered at the edges' sources, weighted, and summed at the edges' targets (128 columns). -/
def aggregate128 (a : FVec F S50000x128 .f32) (s d : IVec S850000 32) (n : FVec F S850000x1 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 a (wrapIdx s))
      (broadcastInDim S850000x128 ![0, 1] bcast_S850000x1_S850000x128_0_1 n))

/-- The same for the two-column array of the last layer. -/
def aggregate2 (a : FVec F S50000x2 .f32) (s d : IVec S850000 32) (n : FVec F S850000x1 .f32) : FVec F S50000x2 .f32 :=
  Host.scatterAdd scatter_S50000x2_S850000x1_S850000x2_1_0_0_1
    (broadcastInDim S50000x2 ![] bcast_S_S50000x2 (constant S_ .f32 0x00000000#32))
    (broadcastInDim S850000x1 ![0] bcast_S850000_S850000x1_0 d)
    (mulf (Host.gather gather_S50000x2_S850000x1_S850000x2_1_0_n_n_0_1_12 a (wrapIdx s))
      (broadcastInDim S850000x2 ![0, 1] bcast_S850000x1_S850000x2_0_1 n))

/-- The per-column scale g · rsqrt (v + ε). -/
def scaleOf (g v : FVec F S128 .f32) : FVec F S128 .f32 :=
  mulf g (Host.rsqrt (addf v (broadcastInDim S128 ![] bcast_S_S128 (constant S_ .f32 0x3727C5AC#32))))

/-- The per-column shift (b · scale + β) − μ · scale. -/
def shiftOf (b be mu sc : FVec F S128 .f32) : FVec F S128 .f32 :=
  subf (addf (mulf b sc) be) (mulf mu sc)

/-- A vector of 128 columns as a one-row array. -/
def row128 (x : FVec F S128 .f32) : FVec F S1x128 .f32 := shapeCast S1x128 x shapeCasts_S128_S1x128

/-- A vector of 2 columns as a one-row array. -/
def row2 (x : FVec F S2 .f32) : FVec F S1x2 .f32 := shapeCast S1x2 x shapeCasts_S2_S1x2

end Cert.Gcn.HostOps

end
-- ==== Proof.ScaleShift.lean ====
/-
  The three regions that scale, shift and clamp a row-blocked array column by column, each read as one function
  of the arrays the region finds; and the algebra that turns the reference's normalisation
  max (((A + b) − μ) · s + β, 0) into that form, max (A · s + ((b · s + β) − μ · s), 0), with s = g · rsqrt (v + ε).

  Per region: the payload at an index (`payK_apply`), the printed index maps decided over the 25 grid points
  (`idx_factsK`), what a grid point writes back as a block of the whole-array function (`flushedK_eq`), the cover of
  the 50000 rows by the 25 blocks of 2000 rows (`coverK`), and the array after the region (`ssrK_final`).
-/
import proofs.«152642_j38920993636608_1_alg».proof.Proof.Gen.KernelIdeal.Frame
import proofs.«152642_j38920993636608_1_alg».proof.Proof.Spec
import proofs.«152642_j38920993636608_1_alg».proof.ReferenceIdeal
import proofs.«152642_j38920993636608_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.ScaleShift

section Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset pair is the constant-zero offset. -/
theorem hz : (![0, 0] : Fin 2 → Nat) = fun _ => 0 := funext fun a => by fin_cases a <;> rfl

/-! ## Region 1: per column scale, shift and clamp of a row-blocked array -/

set_option maxHeartbeats 400000 in
/-- The payload at an index: the block's entry times the scale row's entry of that column, plus the shift
    row's, clamped below at zero. -/
theorem pay1_apply (x0 : Vec Ideal S2000x128 .f32) (x1 x2 : Vec Ideal S1x128 .f32) (j : S2000x128.Idx) :
    k1_pay1 x0 x1 x2 j = max (x0 j * x1 (ix2 0 (j 1)) + x2 (ix2 0 (j 1))) 0 := by
  unfold k1_pay1
  simp only [shapeCast_self]
  show max (x0 j * broadcastTo S2000x128 x1 broadcasts_S1x128_S2000x128 j + broadcastTo S2000x128 x2 broadcasts_S1x128_S2000x128 j) (Ideal.ofBits .f32 0x00000000#32) = _
  rw [Ideal.ofBits_zero_f32]
  obtain ⟨p, q, rfl⟩ : ∃ p q, j = ix2 p q := ⟨j 0, j 1, eq_ix2 j⟩
  rw [broadcastTo_1b_ab_apply, broadcastTo_1b_ab_apply]

/-- The payload of three blocks at a block index is the whole-array function at an array index, once each
    block's entry is the array's entry where the array index says. -/
theorem pay1_eq_ssr (A : Cert.Gcn.Arr 50000 128) (s u : Cert.Gcn.Arr 1 128)
    (x0 : Vec Ideal S2000x128 .f32) (x1 x2 : Vec Ideal S1x128 .f32) (j : S2000x128.Idx) (i : S50000x128.Idx)
    (h0 : x0 j = A i) (h1 : x1 (ix2 0 (j 1)) = s (ix2 0 (i 1))) (h2 : x2 (ix2 0 (j 1)) = u (ix2 0 (i 1))) :
    k1_pay1 x0 x1 x2 j = Cert.Gcn.ssr A s u i := by
  rw [pay1_apply, h0, h1, h2]
  rfl

/-- The printed index maps, decided over the 25 grid points: the row-blocked input moves with the output,
    whose block index on the row axis is the point's number; every other block index is zero. -/
theorem idx_facts1 : ∀ t : Fin cfg1.N, win1_3.index t (0 : Fin 2) = t.val
    ∧ win1_3.index t (1 : Fin 2) = 0
    ∧ win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0 :=
  (by decide +kernel : ∀ t : Fin grid1.N, _)

set_option maxHeartbeats 400000 in
/-- What point `t` writes back is block `t` of the per-column scale, shift and clamp of the whole input array. -/
theorem flushed1_eq (c : Dev nD) (t : Fin cfg1.N) :
    (dat1 V c).flushed 3 t = ((cfg1.win 3).blk t).view.read (Elt Ideal)
      (Cert.Gcn.ssr (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz]
  obtain ⟨e0, e1, e2, e3, e4, e5, e6, e7⟩ := idx_facts1 t
  funext j
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 0 (j 1)) = ix2 0 ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : ((cfg1.win 2).blk t).view.emb (ix2 0 (j 1)) = ix2 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  exact pay1_eq_ssr (V c (Pipeline.arrRef spec1 0)) (V c (Pipeline.arrRef spec1 1)) (V c (Pipeline.arrRef spec1 2))
    (iblk1 V c 0 t) (iblk1 V c 1 t) (iblk1 V c 2 t) j (((cfg1.win 3).blk t).view.emb j)
    (congrArg (V c (Pipeline.arrRef spec1 0)) h0) (congrArg (V c (Pipeline.arrRef spec1 1)) h1) (congrArg (V c (Pipeline.arrRef spec1 2)) h2)

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v54).slice (win1_3.rect t)).set ↔ _
  rw [View.set_slice_whole, Rect.mem_set_unit]
  exact Iff.rfl

/-- Row `r` of the output lies in the block of point `r / 2000`: the 25 blocks of 2000 rows fill the 50000 rows. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have htv : t.val = (i 0).val / 2000 := rfl
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The output array after the region: the per-column scale, shift and clamp of the input array as the region finds it. -/
theorem ssr1_final (c : Dev nD) :
    (dat1 (F := Ideal) V c).arrAt 3 cfg1.N
      = Cert.Gcn.ssr (V c (Pipeline.arrRef spec1 0)) (V c (Pipeline.arrRef spec1 1)) (V c (Pipeline.arrRef spec1 2)) :=
  (dat1 V c).arrAt_eq_of_cover 3 _ (fun t _ => flushed1_eq V c t) (cover1)

/-! ## Region 3: per column scale, shift and clamp of a row-blocked array -/

set_option maxHeartbeats 400000 in
/-- The payload at an index: the block's entry times the scale row's entry of that column, plus the shift
    row's, clamped below at zero. -/
theorem pay3_apply (x0 : Vec Ideal S2000x128 .f32) (x1 x2 : Vec Ideal S1x128 .f32) (j : S2000x128.Idx) :
    k3_pay1 x0 x1 x2 j = max (x0 j * x1 (ix2 0 (j 1)) + x2 (ix2 0 (j 1))) 0 := by
  unfold k3_pay1
  simp only [shapeCast_self]
  show max (x0 j * broadcastTo S2000x128 x1 broadcasts_S1x128_S2000x128 j + broadcastTo S2000x128 x2 broadcasts_S1x128_S2000x128 j) (Ideal.ofBits .f32 0x00000000#32) = _
  rw [Ideal.ofBits_zero_f32]
  obtain ⟨p, q, rfl⟩ : ∃ p q, j = ix2 p q := ⟨j 0, j 1, eq_ix2 j⟩
  rw [broadcastTo_1b_ab_apply, broadcastTo_1b_ab_apply]

/-- The payload of three blocks at a block index is the whole-array function at an array index, once each
    block's entry is the array's entry where the array index says. -/
theorem pay3_eq_ssr (A : Cert.Gcn.Arr 50000 128) (s u : Cert.Gcn.Arr 1 128)
    (x0 : Vec Ideal S2000x128 .f32) (x1 x2 : Vec Ideal S1x128 .f32) (j : S2000x128.Idx) (i : S50000x128.Idx)
    (h0 : x0 j = A i) (h1 : x1 (ix2 0 (j 1)) = s (ix2 0 (i 1))) (h2 : x2 (ix2 0 (j 1)) = u (ix2 0 (i 1))) :
    k3_pay1 x0 x1 x2 j = Cert.Gcn.ssr A s u i := by
  rw [pay3_apply, h0, h1, h2]
  rfl

/-- The printed index maps, decided over the 25 grid points: the row-blocked input moves with the output,
    whose block index on the row axis is the point's number; every other block index is zero. -/
theorem idx_facts3 : ∀ t : Fin cfg3.N, win3_3.index t (0 : Fin 2) = t.val
    ∧ win3_3.index t (1 : Fin 2) = 0
    ∧ win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0 :=
  (by decide +kernel : ∀ t : Fin grid3.N, _)

set_option maxHeartbeats 400000 in
/-- What point `t` writes back is block `t` of the per-column scale, shift and clamp of the whole input array. -/
theorem flushed3_eq (c : Dev nD) (t : Fin cfg3.N) :
    (dat3 V c).flushed 3 t = ((cfg3.win 3).blk t).view.read (Elt Ideal)
      (Cert.Gcn.ssr (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S2000x128) hz, View.ld_unit_zero (S := S1x128) hz]
  obtain ⟨e0, e1, e2, e3, e4, e5, e6, e7⟩ := idx_facts3 t
  funext j
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb (ix2 0 (j 1)) = ix2 0 ((((cfg3.win 3).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : ((cfg3.win 2).blk t).view.emb (ix2 0 (j 1)) = ix2 0 ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  exact pay3_eq_ssr (V c (Pipeline.arrRef spec3 0)) (V c (Pipeline.arrRef spec3 1)) (V c (Pipeline.arrRef spec3 2))
    (iblk3 V c 0 t) (iblk3 V c 1 t) (iblk3 V c 2 t) j (((cfg3.win 3).blk t).view.emb j)
    (congrArg (V c (Pipeline.arrRef spec3 0)) h0) (congrArg (V c (Pipeline.arrRef spec3 1)) h1) (congrArg (V c (Pipeline.arrRef spec3 2)) h2)

/-- An index of the output array is in point `t`'s block iff each coordinate is in the block's range on its axis. -/
theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v78).slice (win3_3.rect t)).set ↔ _
  rw [View.set_slice_whole, Rect.mem_set_unit]
  exact Iff.rfl

/-- Row `r` of the output lies in the block of point `r / 2000`: the 25 blocks of 2000 rows fill the 50000 rows. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  have htv : t.val = (i 0).val / 2000 := rfl
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The output array after the region: the per-column scale, shift and clamp of the input array as the region finds it. -/
theorem ssr3_final (c : Dev nD) :
    (dat3 (F := Ideal) V c).arrAt 3 cfg3.N
      = Cert.Gcn.ssr (V c (Pipeline.arrRef spec3 0)) (V c (Pipeline.arrRef spec3 1)) (V c (Pipeline.arrRef spec3 2)) :=
  (dat3 V c).arrAt_eq_of_cover 3 _ (fun t _ => flushed3_eq V c t) (cover3)

/-! ## Region 5: per column scale, shift and clamp of a row-blocked array -/

set_option maxHeartbeats 400000 in
/-- The payload at an index: the block's entry times the scale row's entry of that column, plus the shift
    row's, clamped below at zero. -/
theorem pay5_apply (x0 : Vec Ideal S2000x128 .f32) (x1 x2 : Vec Ideal S1x128 .f32) (j : S2000x128.Idx) :
    k5_pay1 x0 x1 x2 j = max (x0 j * x1 (ix2 0 (j 1)) + x2 (ix2 0 (j 1))) 0 := by
  unfold k5_pay1
  simp only [shapeCast_self]
  show max (x0 j * broadcastTo S2000x128 x1 broadcasts_S1x128_S2000x128 j + broadcastTo S2000x128 x2 broadcasts_S1x128_S2000x128 j) (Ideal.ofBits .f32 0x00000000#32) = _
  rw [Ideal.ofBits_zero_f32]
  obtain ⟨p, q, rfl⟩ : ∃ p q, j = ix2 p q := ⟨j 0, j 1, eq_ix2 j⟩
  rw [broadcastTo_1b_ab_apply, broadcastTo_1b_ab_apply]

/-- The payload of three blocks at a block index is the whole-array function at an array index, once each
    block's entry is the array's entry where the array index says. -/
theorem pay5_eq_ssr (A : Cert.Gcn.Arr 50000 128) (s u : Cert.Gcn.Arr 1 128)
    (x0 : Vec Ideal S2000x128 .f32) (x1 x2 : Vec Ideal S1x128 .f32) (j : S2000x128.Idx) (i : S50000x128.Idx)
    (h0 : x0 j = A i) (h1 : x1 (ix2 0 (j 1)) = s (ix2 0 (i 1))) (h2 : x2 (ix2 0 (j 1)) = u (ix2 0 (i 1))) :
    k5_pay1 x0 x1 x2 j = Cert.Gcn.ssr A s u i := by
  rw [pay5_apply, h0, h1, h2]
  rfl

/-- The printed index maps, decided over the 25 grid points: the row-blocked input moves with the output,
    whose block index on the row axis is the point's number; every other block index is zero. -/
theorem idx_facts5 : ∀ t : Fin cfg5.N, win5_3.index t (0 : Fin 2) = t.val
    ∧ win5_3.index t (1 : Fin 2) = 0
    ∧ win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0 :=
  (by decide +kernel : ∀ t : Fin grid5.N, _)

set_option maxHeartbeats 400000 in
/-- What point `t` writes back is block `t` of the per-column scale, shift and clamp of the whole input array. -/
theorem flushed5_eq (c : Dev nD) (t : Fin cfg5.N) :
    (dat5 V c).flushed 3 t = ((cfg5.win 3).blk t).view.read (Elt Ideal)
      (Cert.Gcn.ssr (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x128) hz, View.ld_unit_zero (S := S1x128) hz]
  obtain ⟨e0, e1, e2, e3, e4, e5, e6, e7⟩ := idx_facts5 t
  funext j
  have h0 : ((cfg5.win 0).blk t).view.emb j = ((cfg5.win 3).blk t).view.emb j := by
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb (ix2 0 (j 1)) = ix2 0 ((((cfg5.win 3).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_3.index t (1 : Fin 2) * 128 + 1 * (j 1).val; omega
  have h2 : ((cfg5.win 2).blk t).view.emb (ix2 0 (j 1)) = ix2 0 ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega
  exact pay5_eq_ssr (V c (Pipeline.arrRef spec5 0)) (V c (Pipeline.arrRef spec5 1)) (V c (Pipeline.arrRef spec5 2))
    (iblk5 V c 0 t) (iblk5 V c 1 t) (iblk5 V c 2 t) j (((cfg5.win 3).blk t).view.emb j)
    (congrArg (V c (Pipeline.arrRef spec5 0)) h0) (congrArg (V c (Pipeline.arrRef spec5 1)) h1) (congrArg (V c (Pipeline.arrRef spec5 2)) h2)

/-- An index of the output array is in point `t`'s block iff each coordinate is in the block's range on its axis. -/
theorem mem_blk5 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v102).slice (win5_3.rect t)).set ↔ _
  rw [View.set_slice_whole, Rect.mem_set_unit]
  exact Iff.rfl

/-- Row `r` of the output lies in the block of point `r / 2000`: the 25 blocks of 2000 rows fill the 50000 rows. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  have htv : t.val = (i 0).val / 2000 := rfl
  obtain ⟨e0, e1, e2, e3, e4, e5, e6, e7⟩ := idx_facts5 t
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- The output array after the region: the per-column scale, shift and clamp of the input array as the region finds it. -/
theorem ssr5_final (c : Dev nD) :
    (dat5 (F := Ideal) V c).arrAt 3 cfg5.N
      = Cert.Gcn.ssr (V c (Pipeline.arrRef spec5 0)) (V c (Pipeline.arrRef spec5 1)) (V c (Pipeline.arrRef spec5 2)) :=
  (dat5 V c).arrAt_eq_of_cover 3 _ (fun t _ => flushed5_eq V c t) (cover5)

end Regions

section Algebra

open Idealize.ShloMosaic Idealize.ShloMosaic.ValueIdx
open Cert.ReferenceIdeal Cert.ReferenceIdeal.Gen

/-! ## The reference's normalisation against the kernel's scale and shift -/

/-- The word 0x3727C5AC read as an f32 is a positive real number (10995116 · 2⁻⁴⁰, about 1e-5). -/
theorem eps_real : ∃ e : ℝ, 0 < e ∧ Ideal.ofBits .f32 0x3727C5AC#32 = (e : EReal) := by
  refine ⟨10995116 * (2 ^ 40)⁻¹, by positivity, ?_⟩
  simp [Ideal.ofBits, Ideal.ieee]

/-- The inverse square root of a positive real is the real 1 / √r. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- A real clamped below at zero is a real. -/
theorem max_zero_real (x : ℝ) : ∃ r : ℝ, max (x : EReal) 0 = (r : EReal) := by
  rcases le_total (x : EReal) 0 with h | h
  · exact ⟨0, by rw [max_eq_right h]; exact EReal.coe_zero.symm⟩
  · exact ⟨x, by rw [max_eq_left h]⟩

/-- The two spellings agree on reals: a · s + ((b · s + β) − μ · s) = ((a + b) − μ) · s + β. -/
theorem scalar_id (a b β μ s : ℝ) :
    max ((a : EReal) * (s : EReal) + (((b : EReal) * (s : EReal) + (β : EReal)) - (μ : EReal) * (s : EReal))) 0
      = max ((((a : EReal) + (b : EReal)) - (μ : EReal)) * (s : EReal) + (β : EReal)) 0 := by
  congr 1
  exact_mod_cast (by ring : a * s + ((b * s + β) - μ * s) = ((a + b) - μ) * s + β)

/-- A [128] row replicated down 50000 rows the way the reference spells it: first to [1,128], then to [50000,128]. -/
def bb (x : FVec Ideal S128 .f32) : FVec Ideal S50000x128 .f32 :=
  broadcastInDim S50000x128 ![0, 1] bcast_S1x128_S50000x128_0_1 (broadcastInDim S1x128 ![1] bcast_S128_S1x128_1 x)

/-- Its entry (p, q) is the row's entry q. -/
theorem bb_apply (x : FVec Ideal S128 .f32) (p : Fin 50000) (q : Fin 128) : bb x (ix2 p q) = x (ix1 q) := by
  unfold bb
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 x (ix2 (0 : Fin 1) q) (ix1 q) (fun a => match a with
    | ⟨0, _⟩ => by show q.val = if (128 : Nat) = 1 then 0 else q.val; rw [if_neg (by decide)])

/-- The scale row: g · rsqrt (v + ε). -/
def scale (g v : FVec Ideal S128 .f32) : FVec Ideal S128 .f32 :=
  mulf g (Host.rsqrt (addf v (broadcastInDim S128 ![] bcast_S_S128 (constant S_ .f32 0x3727C5AC#32))))

/-- The shift row: (b · scale + β) − μ · scale. -/
def shift (b g be mu v : FVec Ideal S128 .f32) : FVec Ideal S128 .f32 :=
  subf (addf (mulf b (scale g v)) be) (mulf mu (scale g v))

/-- The reference's normalisation of an array `agg`: max ((((agg + b) − μ) · scale) + β, 0), every row operand replicated
    down the rows. -/
def refForm (agg : FVec Ideal S50000x128 .f32) (b g be mu v : FVec Ideal S128 .f32) : FVec Ideal S50000x128 .f32 :=
  maximumf (addf (mulf (subf (addf agg (bb b)) (bb mu)) (bb (scale g v))) (bb be))
    (broadcastInDim S50000x128 ![] bcast_S_S50000x128 (constant S_ .f32 0x00000000#32))

/-- The scale row's entry: real, and g · (√(v + ε))⁻¹. -/
theorem scale_apply (g v : FVec Ideal S128 .f32) (hg : IsReal g) (hv : IsReal v) (hv0 : ∀ j, 0 ≤ v j) (q : Fin 128) :
    ∃ s : ℝ, scale g v (ix1 q) = (s : EReal) := by
  obtain ⟨e, he, hε⟩ := eps_real
  obtain ⟨g', hg'⟩ := hg (ix1 q)
  obtain ⟨v', hv'⟩ := hv (ix1 q)
  have hv'0 : 0 ≤ v' := by have := hv0 (ix1 q); rw [hv'] at this; exact_mod_cast this
  refine ⟨g' * (Real.sqrt (v' + e))⁻¹, ?_⟩
  show g (ix1 q) * Ideal.rsqrt (v (ix1 q) + Ideal.ofBits .f32 0x3727C5AC#32) = _
  rw [hg', hv', hε, ← EReal.coe_add, rsqrt_coe_pos (by positivity), ← EReal.coe_mul]

/-- The reference's normalisation at entry (p, q): every row operand read at column q. -/
theorem refForm_apply (agg : FVec Ideal S50000x128 .f32) (b g be mu v : FVec Ideal S128 .f32) (p : Fin 50000) (q : Fin 128) :
    refForm agg b g be mu v (ix2 p q)
      = max ((((agg (ix2 p q) + b (ix1 q)) - mu (ix1 q)) * scale g v (ix1 q)) + be (ix1 q)) 0 := by
  unfold refForm
  show max ((((agg (ix2 p q) + bb b (ix2 p q)) - bb mu (ix2 p q)) * bb (scale g v) (ix2 p q)) + bb be (ix2 p q))
      (broadcastInDim S50000x128 ![] bcast_S_S50000x128 (constant S_ .f32 0x00000000#32) (ix2 p q)) = _
  rw [bb_apply, bb_apply, bb_apply, bb_apply,
    broadcastInDim_apply _ bcast_S_S50000x128 (constant S_ .f32 0x00000000#32) (ix2 p q) ix0 (fun a => a.elim0)]
  show max _ (Ideal.ofBits .f32 0x00000000#32) = _
  rw [Ideal.ofBits_zero_f32]

/-- THE ALGEBRA: with every operand real and the variance nonnegative, the per-column scale-shift-clamp of `agg` by the
    scale row g · rsqrt (v + ε) and the shift row (b · scale + β) − μ · scale, each reshaped to [1,128], is the reference's
    normalisation max ((((agg + b) − μ) · scale) + β, 0). Distributivity over the extended reals needs finiteness,
    hence the hypotheses; v + ε is a positive real, so its inverse square root is a real. -/
theorem ssr_eq_refForm (agg : FVec Ideal S50000x128 .f32) (b g be mu v : FVec Ideal S128 .f32)
    (hagg : IsReal agg) (hb : IsReal b) (hg : IsReal g) (hbe : IsReal be) (hmu : IsReal mu) (hv : IsReal v)
    (hv0 : ∀ j, 0 ≤ v j) (hc : S128.ShapeCasts S1x128) :
    Cert.Gcn.ssr agg (shapeCast S1x128 (scale g v) hc) (shapeCast S1x128 (shift b g be mu v) hc)
      = refForm agg b g be mu v := by
  funext i
  obtain ⟨p, q, rfl⟩ : ∃ p q, i = ix2 p q := ⟨i 0, i 1, eq_ix2 i⟩
  obtain ⟨s, hs⟩ := scale_apply g v hg hv hv0 q
  obtain ⟨a, ha⟩ := hagg (ix2 p q)
  obtain ⟨b', hb'⟩ := hb (ix1 q)
  obtain ⟨β, hβ⟩ := hbe (ix1 q)
  obtain ⟨μ, hμ⟩ := hmu (ix1 q)
  have hS : shapeCast S1x128 (scale g v) hc (ix2 (0 : Fin 1) q) = (s : EReal) := by
    rw [shapeCast_a_1a_apply, hs]
  have hT : shapeCast S1x128 (shift b g be mu v) hc (ix2 (0 : Fin 1) q) = ((b' : EReal) * (s : EReal) + (β : EReal)) - (μ : EReal) * (s : EReal) := by
    rw [shapeCast_a_1a_apply]
    show (b (ix1 q) * scale g v (ix1 q) + be (ix1 q)) - mu (ix1 q) * scale g v (ix1 q) = _
    rw [hs, hb', hβ, hμ]
  rw [refForm_apply]
  show max (agg (ix2 p q) * shapeCast S1x128 (scale g v) hc (ix2 (0 : Fin 1) q)
      + shapeCast S1x128 (shift b g be mu v) hc (ix2 (0 : Fin 1) q)) 0 = _
  rw [hS, hT, hs, ha, hb', hβ, hμ]
  exact scalar_id a b' β μ s

/-- The common value is real at every entry. -/
theorem refForm_real (agg : FVec Ideal S50000x128 .f32) (b g be mu v : FVec Ideal S128 .f32)
    (hagg : IsReal agg) (hb : IsReal b) (hg : IsReal g) (hbe : IsReal be) (hmu : IsReal mu) (hv : IsReal v)
    (hv0 : ∀ j, 0 ≤ v j) : IsReal (refForm agg b g be mu v) := by
  intro i
  obtain ⟨p, q, rfl⟩ : ∃ p q, i = ix2 p q := ⟨i 0, i 1, eq_ix2 i⟩
  obtain ⟨s, hs⟩ := scale_apply g v hg hv hv0 q
  obtain ⟨a, ha⟩ := hagg (ix2 p q)
  obtain ⟨b', hb'⟩ := hb (ix1 q)
  obtain ⟨β, hβ⟩ := hbe (ix1 q)
  obtain ⟨μ, hμ⟩ := hmu (ix1 q)
  rw [refForm_apply, hs, ha, hb', hβ, hμ]
  have hx : ((((a : EReal) + (b' : EReal)) - (μ : EReal)) * (s : EReal) + (β : EReal)) = ((((a + b') - μ) * s + β : ℝ) : EReal) := by
    norm_cast
  rw [hx]
  exact max_zero_real _

end Algebra

end Cert.Gcn.ScaleShift

end
-- ==== Proof.RefLayers.lean ====
/-
  The reference program's three hidden layers, each read off its stretch of operations as one function of the buffer
  contents V the stretch starts from: the dense product of the layer's input with its weight array, the weighted
  gather-and-sum over the edges, then the bias, the batch normalisation and the clamp at zero in the reference's own
  order, max ((((agg + b) − μ) · (g · rsqrt (v + ε))) + β, 0).
-/
import proofs.«152642_j38920993636608_1_alg».proof.Proof.RefChunks
import proofs.«152642_j38920993636608_1_alg».proof.Proof.HostOps
import proofs.«152642_j38920993636608_1_alg».proof.Proof.ScaleShift

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

section Generic

variable {F : FTy → Type} [FloatOps F]

/-- A [128] row replicated down 50000 rows: first to [1,128], then to [50000,128]. -/
def bbG (x : FVec F S128 .f32) : FVec F S50000x128 .f32 :=
  broadcastInDim S50000x128 ![0, 1] bcast_S1x128_S50000x128_0_1 (broadcastInDim S1x128 ![1] bcast_S128_S1x128_1 x)

/-- The scale row g · rsqrt (v + ε). -/
def scaleG (g v : FVec F S128 .f32) : FVec F S128 .f32 :=
  mulf g (Host.rsqrt (addf v (broadcastInDim S128 ![] bcast_S_S128 (constant S_ .f32 0x3727C5AC#32))))

/-- The reference's normalisation of an array: max ((((agg + b) − μ) · scale) + β, 0), every row operand replicated
    down the rows. -/
def refFormG (agg : FVec F S50000x128 .f32) (b g be mu v : FVec F S128 .f32) : FVec F S50000x128 .f32 :=
  maximumf (addf (mulf (subf (addf agg (bbG b)) (bbG mu)) (bbG (scaleG g v))) (bbG be))
    (broadcastInDim S50000x128 ![] bcast_S_S50000x128 (constant S_ .f32 0x00000000#32))

set_option maxHeartbeats 4000000 in
/-- After the stretch the layer's output is the normalisation of the aggregated dense product, whatever the
    arithmetic. -/
theorem r1G (V : Valuation τ sig (Elt F)) :
    StableHlo.after opsR1 V (Proc.devRef .tc main_v60)
      = refFormG
          (Cert.Gcn.HostOps.aggregate128 (F := F)
            (Host.dotGeneral (F := F) (φ₁ := .f32) (φ₂ := .f32) dot_S50000x512_S512x128_S50000x128_1_0_0_1_n_n none (V (Proc.devRef .tc main_arg0)) (V (Proc.devRef .tc main_arg2)))
            (V (Proc.devRef .tc main_v3)) (V (Proc.devRef .tc main_v6)) (V (Proc.devRef .tc main_v30)))
          (V (Proc.devRef .tc main_arg3)) (V (Proc.devRef .tc main_arg10)) (V (Proc.devRef .tc main_arg11)) (V (Proc.devRef .tc main_arg12)) (V (Proc.devRef .tc main_arg13)) := by
  dsimp only [opsR1]
  after_results_simp
  unfold refFormG bbG scaleG Cert.Gcn.HostOps.aggregate128 Cert.Gcn.HostOps.wrapIdx
  rfl

set_option maxHeartbeats 4000000 in
/-- After the stretch the layer's output is the normalisation of the aggregated dense product, whatever the
    arithmetic. -/
theorem r2G (V : Valuation τ sig (Elt F)) :
    StableHlo.after opsR2 V (Proc.devRef .tc main_v90)
      = refFormG
          (Cert.Gcn.HostOps.aggregate128 (F := F)
            (Host.dotGeneral (F := F) (φ₁ := .f32) (φ₂ := .f32) dot_S50000x128_S128x128_S50000x128_1_0_0_1_n_n none (V (Proc.devRef .tc main_v60)) (V (Proc.devRef .tc main_arg4)))
            (V (Proc.devRef .tc main_v3)) (V (Proc.devRef .tc main_v6)) (V (Proc.devRef .tc main_v30)))
          (V (Proc.devRef .tc main_arg5)) (V (Proc.devRef .tc main_arg14)) (V (Proc.devRef .tc main_arg15)) (V (Proc.devRef .tc main_arg16)) (V (Proc.devRef .tc main_arg17)) := by
  dsimp only [opsR2]
  after_results_simp
  unfold refFormG bbG scaleG Cert.Gcn.HostOps.aggregate128 Cert.Gcn.HostOps.wrapIdx
  rfl

set_option maxHeartbeats 4000000 in
/-- After the stretch the layer's output is the normalisation of the aggregated dense product, whatever the
    arithmetic. -/
theorem r3G (V : Valuation τ sig (Elt F)) :
    StableHlo.after opsR3 V (Proc.devRef .tc main_v120)
      = refFormG
          (Cert.Gcn.HostOps.aggregate128 (F := F)
            (Host.dotGeneral (F := F) (φ₁ := .f32) (φ₂ := .f32) dot_S50000x128_S128x128_S50000x128_1_0_0_1_n_n none (V (Proc.devRef .tc main_v90)) (V (Proc.devRef .tc main_arg6)))
            (V (Proc.devRef .tc main_v3)) (V (Proc.devRef .tc main_v6)) (V (Proc.devRef .tc main_v30)))
          (V (Proc.devRef .tc main_arg7)) (V (Proc.devRef .tc main_arg18)) (V (Proc.devRef .tc main_arg19)) (V (Proc.devRef .tc main_arg20)) (V (Proc.devRef .tc main_arg21)) := by
  dsimp only [opsR3]
  after_results_simp
  unfold refFormG bbG scaleG Cert.Gcn.HostOps.aggregate128 Cert.Gcn.HostOps.wrapIdx
  rfl

end Generic

/-- Over the extended reals the generic normalisation is the one the algebra is stated for. -/
theorem refFormG_eq (agg : FVec Ideal S50000x128 .f32) (b g be mu v : FVec Ideal S128 .f32) :
    refFormG (F := Ideal) agg b g be mu v = Cert.Gcn.ScaleShift.refForm agg b g be mu v := rfl

/-- After the stretch the layer's output is the reference's normalisation of the aggregated dense product. -/
theorem r1_v60 (V : Valuation τ sig (Elt Ideal)) :
    StableHlo.after opsR1 V (Proc.devRef .tc main_v60)
      = Cert.Gcn.ScaleShift.refForm
          (Cert.Gcn.HostOps.aggregate128 (F := Ideal)
            (Host.dotGeneral (F := Ideal) (φ₁ := .f32) (φ₂ := .f32) dot_S50000x512_S512x128_S50000x128_1_0_0_1_n_n none (V (Proc.devRef .tc main_arg0)) (V (Proc.devRef .tc main_arg2)))
            (V (Proc.devRef .tc main_v3)) (V (Proc.devRef .tc main_v6)) (V (Proc.devRef .tc main_v30)))
          (V (Proc.devRef .tc main_arg3)) (V (Proc.devRef .tc main_arg10)) (V (Proc.devRef .tc main_arg11)) (V (Proc.devRef .tc main_arg12)) (V (Proc.devRef .tc main_arg13)) :=
  (r1G (F := Ideal) V).trans (refFormG_eq _ _ _ _ _ _)

/-- After the stretch the layer's output is the reference's normalisation of the aggregated dense product. -/
theorem r2_v90 (V : Valuation τ sig (Elt Ideal)) :
    StableHlo.after opsR2 V (Proc.devRef .tc main_v90)
      = Cert.Gcn.ScaleShift.refForm
          (Cert.Gcn.HostOps.aggregate128 (F := Ideal)
            (Host.dotGeneral (F := Ideal) (φ₁ := .f32) (φ₂ := .f32) dot_S50000x128_S128x128_S50000x128_1_0_0_1_n_n none (V (Proc.devRef .tc main_v60)) (V (Proc.devRef .tc main_arg4)))
            (V (Proc.devRef .tc main_v3)) (V (Proc.devRef .tc main_v6)) (V (Proc.devRef .tc main_v30)))
          (V (Proc.devRef .tc main_arg5)) (V (Proc.devRef .tc main_arg14)) (V (Proc.devRef .tc main_arg15)) (V (Proc.devRef .tc main_arg16)) (V (Proc.devRef .tc main_arg17)) :=
  (r2G (F := Ideal) V).trans (refFormG_eq _ _ _ _ _ _)

/-- After the stretch the layer's output is the reference's normalisation of the aggregated dense product. -/
theorem r3_v120 (V : Valuation τ sig (Elt Ideal)) :
    StableHlo.after opsR3 V (Proc.devRef .tc main_v120)
      = Cert.Gcn.ScaleShift.refForm
          (Cert.Gcn.HostOps.aggregate128 (F := Ideal)
            (Host.dotGeneral (F := Ideal) (φ₁ := .f32) (φ₂ := .f32) dot_S50000x128_S128x128_S50000x128_1_0_0_1_n_n none (V (Proc.devRef .tc main_v90)) (V (Proc.devRef .tc main_arg6)))
            (V (Proc.devRef .tc main_v3)) (V (Proc.devRef .tc main_v6)) (V (Proc.devRef .tc main_v30)))
          (V (Proc.devRef .tc main_arg7)) (V (Proc.devRef .tc main_arg18)) (V (Proc.devRef .tc main_arg19)) (V (Proc.devRef .tc main_arg20)) (V (Proc.devRef .tc main_arg21)) :=
  (r3G (F := Ideal) V).trans (refFormG_eq _ _ _ _ _ _)

end Cert.ReferenceIdeal.Hand

end
-- ==== Proof.LogSoftmax.lean ====
/-
  The last layer's tail: a bias row added to a two-column array, then the row-wise log-softmax.

  For a row y = (y₀, y₁) of extended reals, with M = max(−∞, y₀, y₁), the entry in column q is
  (y_q − M) − log (exp (y₀ − M) + exp (y₁ − M)).  Both programs compute exactly this expression tree:
  the blocked program row block by row block (a block of 2000 rows depends only on the same 2000 rows of
  the input and on the bias row), the reference on the whole array at once.  No finiteness is used.
-/
import proofs.«152642_j38920993636608_1_alg».proof.Proof.Gen.KernelIdeal.Frame
import proofs.«152642_j38920993636608_1_alg».proof.Proof.Gen.ReferenceIdeal
import proofs.«152642_j38920993636608_1_alg».proof.Proof.Spec
import Idealize.ShloMosaic.Lib.ValueLayout
import Idealize.ShloMosaic.Lib.Pipeline.Value
import Idealize.ShloMosaic.PureOps.Ideal.Laws

set_option maxRecDepth 16384

noncomputable section

namespace Cert.Gcn.LogSoftmax

open Idealize.ShloMosaic Idealize.ShloMosaic.ValueIdx Idealize.ShloMosaic.TcCoe Idealize.SL.Sem
open Idealize.ShloMosaic.Pipeline (Dat)

/-! ## Layout operations on a column of row values, read at an index -/

section Layout
variable {α : Type}

/-- A length-`a` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a row's entry: a row number with the column coordinate put back. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

end Layout

/-! ## The two reductions along a row of two -/

/-- The word 0xFF800000 read as an extended real is −∞. -/
theorem ofBits_negInf : Ideal.ofBits .f32 0xFF800000#32 = (⊥ : EReal) := by
  simp [Ideal.ofBits, Ideal.ieee]

/-- From −∞ the maximum along the rows of an `[m, 2]` array, at row `p`, is the fold of `max` over the row's two entries. -/
theorem laneMax_apply {m : Nat} (src : FVec Ideal ⟨2, ![m, 2]⟩ .f32)
    (h : (⟨2, ![m, 2]⟩ : Shape).Reduces [1] (⟨1, ![m]⟩ : Shape))
    (hφ : FKind.Formats FTy.f32) (hacc : (0xFF800000#32 : BitVec 32) = 0xFF800000#32) (p : Fin m) :
    multiReduction .maximumf [1] ⟨1, ![m]⟩ src 0xFF800000#32 h hφ hacc (ix1 p)
      = Finset.univ.fold max (⊥ : EReal) (fun j : Fin 2 => src (ix2 p j)) := by
  refine (Ideal.multiReduction_maximumf_single src 0xFF800000#32 h hφ hacc (ix1 p)).trans ?_
  show Finset.fold max (Ideal.ofBits .f32 0xFF800000#32) (src ∘ h.lift (ix1 p)) (Finset.univ : Finset (Fin 2)) = _
  rw [ofBits_negInf]
  exact congrArg (fun f => Finset.fold max (⊥ : EReal) f (Finset.univ : Finset (Fin 2)))
    (funext fun k => congrArg src (lift_row h p k))

/-- From the zero word the sum along the rows of an `[m, 2]` array, at row `p`, is the sum of the row's two entries. -/
theorem laneSum_apply {m : Nat} (src : FVec Ideal ⟨2, ![m, 2]⟩ .f32)
    (h : (⟨2, ![m, 2]⟩ : Shape).Reduces [1] (⟨1, ![m]⟩ : Shape))
    (hφ : FKind.Formats FTy.f32) (hacc : (0x00000000#32 : BitVec 32) = 0x00000000#32) (p : Fin m) :
    multiReduction .add [1] ⟨1, ![m]⟩ src 0x00000000#32 h hφ hacc (ix1 p)
      = ∑ j : Fin 2, src (ix2 p j) := by
  refine (Ideal.multiReduction_add_single src 0x00000000#32 h hφ hacc (ix1 p)).trans ?_
  show ∑ k : Fin 2, src (h.lift (ix1 p) k) = _
  exact Finset.sum_congr rfl fun k _ => congrArg src (lift_row h p k)

section KernelSide
open Cert.KernelIdeal Cert.KernelIdeal.Gen

/-! ## The body's payload at an index -/

/-- An exponential of a vector, at an index. -/
theorem exp_apply {s : Shape} {φ : FTy} (a : FVec Ideal s φ) (i : s.Idx) : exp a i = Ideal.exp (a i) := rfl
/-- A logarithm of a vector, at an index. -/
theorem log_apply {s : Shape} {φ : FTy} (a : FVec Ideal s φ) (i : s.Idx) : log a i = Ideal.log (a i) := rfl

/-- The payload at row `p`, column `q` of a block: with y the block's row `p` plus the bias row and M the
    maximum of y from −∞, it is (y q − M) − log (Σ_j exp (y j − M)). -/
theorem pay_apply (x0 : FVec Ideal S2000x2 .f32) (x1 : FVec Ideal S1x2 .f32) (p : Fin 2000) (q : Fin 2) :
    k7_pay1 (F := Ideal) x0 x1 (ix2 p q)
      = ((x0 (ix2 p q) + x1 (ix2 (0 : Fin 1) q))
          - Finset.univ.fold max (⊥ : EReal) (fun j : Fin 2 => x0 (ix2 p j) + x1 (ix2 (0 : Fin 1) j)))
        - Ideal.log (∑ j : Fin 2, Ideal.exp ((x0 (ix2 p j) + x1 (ix2 (0 : Fin 1) j))
            - Finset.univ.fold max (⊥ : EReal) (fun j : Fin 2 => x0 (ix2 p j) + x1 (ix2 (0 : Fin 1) j)))) := by
  unfold k7_pay1
  simp only [shapeCast_self]
  simp only [subf_apply, addf_apply, log_apply, broadcastTo_a1_ab_apply, broadcastTo_1b_ab_apply,
    shapeCast_a_a1_apply]
  rw [laneSum_apply]
  simp only [subf_apply, addf_apply, exp_apply, broadcastTo_a1_ab_apply, broadcastTo_1b_ab_apply,
    shapeCast_a_a1_apply]
  rw [laneMax_apply]
  simp only [addf_apply, broadcastTo_1b_ab_apply]

/-! ## A block's payload is the log-softmax of the rows it holds -/

/-- If row `i 0` of the block `x0` is row `k 0` of the array `a`, the block `x1` is the bias row `b`, and the
    two indices have the same column, the payload at `i` is the log-softmax of `a` plus `b` at `k`. -/
theorem pay_eq_lsm (x0 : FVec Ideal S2000x2 .f32) (x1 : FVec Ideal S1x2 .f32) (a : Arr 50000 2) (b : Arr 1 2)
    (i : S2000x2.Idx) (k : S50000x2.Idx)
    (h0 : ∀ j : Fin 2, x0 (ix2 (i 0) j) = a (ix2 (k 0) j))
    (h1 : ∀ j : Fin 2, x1 (ix2 (0 : Fin 1) j) = b (ix2 (0 : Fin 1) j)) (hk : k 1 = i 1) :
    k7_pay1 (F := Ideal) x0 x1 i = lsm a b k := by
  obtain ⟨p, q, rfl⟩ : ∃ (p : Fin 2000) (q : Fin 2), i = ix2 p q := ⟨i 0, i 1, eq_ix2 i⟩
  obtain ⟨r, s, rfl⟩ : ∃ (r : Fin 50000) (s : Fin 2), k = ix2 r s := ⟨k 0, k 1, eq_ix2 k⟩
  obtain rfl : s = q := hk
  rw [pay_apply]
  have h0' : ∀ j : Fin 2, x0 (ix2 p j) = a (ix2 r j) := h0
  simp only [h0', h1]
  rfl

/-! ## From blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` the input's and the output's block is row block `t`, the
    bias row's block is the row itself. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- WHAT POINT `t` WRITES BACK is block `t` of the log-softmax of the input array plus the bias row, both as the
    region finds them: rows 2000·t … 2000·t + 1999 of the result depend on the same rows of the input only. -/
theorem flushed_eq (c : Dev nD) (t : Fin cfg7.N) :
    (dat7 (F := Ideal) V c).flushed 2 t
      = ((cfg7.win 2).blk t).view.read (Elt Ideal)
          (lsm (V c (Pipeline.arrRef spec7 0) : Arr 50000 2) (V c (Pipeline.arrRef spec7 1) : Arr 1 2)) := by
  show (cfg7.win 2).cut (grid7.coords t) ((dat7 V c).after 2 t) = _
  rw [after7_2]
  unfold out7_2
  rw [View.canon_unit_zero hz]
  simp only [View.ld_unit_zero (S := S2000x2) hz, View.ld_unit_zero (S := S1x2) hz]
  obtain ⟨e0, e1, e2, e3, e4, e5⟩ := idx_facts t
  funext j
  refine pay_eq_lsm _ _ _ _ _ _ (fun jj => ?_) (fun jj => ?_) (Fin.ext ?_)
  · show V c (Pipeline.arrRef spec7 0) (((cfg7.win 0).blk t).view.emb _) = V c (Pipeline.arrRef spec7 0) _
    refine congrArg _ (funext fun a => Fin.ext ?_)
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 2 + 1 * jj.val = jj.val; omega
  · show V c (Pipeline.arrRef spec7 1) (((cfg7.win 1).blk t).view.emb _) = V c (Pipeline.arrRef spec7 1) _
    refine congrArg _ (funext fun a => Fin.ext ?_)
    match a with
    | ⟨0, _⟩ => show win7_1.index t (0 : Fin 2) * 1 + 1 * 0 = 0; omega
    | ⟨1, _⟩ => show win7_1.index t (1 : Fin 2) * 2 + 1 * jj.val = jj.val; omega
  · show win7_2.index t (1 : Fin 2) * 2 + 1 * (j 1).val = (j 1).val; omega

end Blocks

/-! ## The cover, and the array after the region -/

section Final
variable (V : (c : Dev nD) → (b : Ref sig .tc) → Buf (Elt Ideal) ((c : Thread nD τ).loc b))

/-- An index of the output array is in point `t`'s block iff each coordinate is in the block's range on its axis. -/
theorem mem_blk (t : Fin cfg7.N) (i : S50000x2.Idx) :
    i ∈ ((cfg7.win 2).blk t).view.set ↔ ∀ a : Fin 2, win7_2.index t a * S2000x2.size a ≤ (i a).val ∧ (i a).val < win7_2.index t a * S2000x2.size a + S2000x2.size a := by
  show i ∈ ((View.whole main_v117).slice (win7_2.rect t)).set ↔ _
  rw [View.set_slice_whole, Rect.mem_set_unit]
  exact Iff.rfl

/-- Row `r` of the output array is written back at point `r / 2000`. -/
theorem cover (i : S50000x2.Idx) :
    ∃ t : Fin cfg7.N, (cfg7.win 2).flush t = true ∧ i ∈ ((cfg7.win 2).blk t).view.set := by
  have hi0 : (i 0).val < 50000 := (i 0).isLt
  have hi1 : (i 1).val < 2 := (i 1).isLt
  have hN : cfg7.N = 25 := N_7
  have ht : (i 0).val / 2000 < cfg7.N := by rw [hN]; omega
  obtain ⟨e0, e1, e2, e3, e4, e5⟩ := idx_facts ⟨(i 0).val / 2000, ht⟩
  refine ⟨⟨(i 0).val / 2000, ht⟩, flush7_2 _, ?_⟩
  rw [mem_blk]
  intro a
  match a with
  | ⟨0, _⟩ =>
    show win7_2.index ⟨(i 0).val / 2000, ht⟩ (0 : Fin 2) * 2000 ≤ (i 0).val ∧ (i 0).val < win7_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win7_2.index ⟨(i 0).val / 2000, ht⟩ (1 : Fin 2) * 2 ≤ (i 1).val ∧ (i 1).val < win7_2.index ⟨(i 0).val / 2000, ht⟩ (1 : Fin 2) * 2 + 2
    rw [e5]; omega

/-- THE OUTPUT ARRAY after the region: the row-wise log-softmax of the input array plus the bias row, both as the
    region finds them. -/
theorem lsm7_final (c : Dev nD) :
    (dat7 (F := Ideal) V c).arrAt 2 cfg7.N
      = lsm (V c (Pipeline.arrRef spec7 0)) (V c (Pipeline.arrRef spec7 1)) :=
  (dat7 V c).arrAt_eq_of_cover 2 _ (fun t _ => flushed_eq V c t) cover

end Final

end KernelSide

/-! ## The reference's layout operations, read at an index -/

section HostLayout
variable {α : Type}

/-- A scalar spread over a vector reads the scalar everywhere. -/
theorem bcast_scalar_apply {m : ℕ} (c : (⟨0, ![]⟩ : Shape).Idx → α)
    (h : (⟨0, ![]⟩ : Shape).BroadcastsInDim ⟨1, ![m]⟩ (![] : Fin 0 → Fin 1)) (r : Fin m) :
    broadcastInDim ⟨1, ![m]⟩ ![] h c (ix1 r) = c ix0 :=
  broadcastInDim_apply _ h c (ix1 r) ix0 fun a => a.elim0

/-- A length-`m` vector made an `[m, 1]` column reads, at `(r, u)`, the vector at `r`. -/
theorem bcast_col_apply {m : ℕ} (v : (⟨1, ![m]⟩ : Shape).Idx → α)
    (h : (⟨1, ![m]⟩ : Shape).BroadcastsInDim ⟨2, ![m, 1]⟩ (![0] : Fin 1 → Fin 2)) (r : Fin m) (u : Fin 1) :
    broadcastInDim ⟨2, ![m, 1]⟩ ![0] h v (ix2 r u) = v (ix1 r) :=
  broadcastInDim_apply _ h v (ix2 r u) (ix1 r) fun a => by
    match a with
    | ⟨0, _⟩ =>
      show r.val = if m = 1 then 0 else r.val
      split
      · have := r.isLt; omega
      · rfl

/-- An `[m, 1]` column spread over `n` columns reads, at `(r, q)`, the column's entry of row `r`. -/
theorem bcast_cols_apply {m n : ℕ} (v : (⟨2, ![m, 1]⟩ : Shape).Idx → α)
    (h : (⟨2, ![m, 1]⟩ : Shape).BroadcastsInDim ⟨2, ![m, n]⟩ (![0, 1] : Fin 2 → Fin 2)) (r : Fin m) (q : Fin n) :
    broadcastInDim ⟨2, ![m, n]⟩ ![0, 1] h v (ix2 r q) = v (ix2 r (0 : Fin 1)) :=
  broadcastInDim_apply _ h v (ix2 r q) (ix2 r (0 : Fin 1)) fun a => by
    match a with
    | ⟨0, _⟩ =>
      show r.val = if m = 1 then 0 else r.val
      split
      · have := r.isLt; omega
      · rfl
    | ⟨1, _⟩ => rfl

/-- A length-`n` vector made a `[1, n]` row reads, at `(u, j)`, the vector at `j`. -/
theorem bcast_row_apply {n : ℕ} (x : (⟨1, ![n]⟩ : Shape).Idx → α)
    (h : (⟨1, ![n]⟩ : Shape).BroadcastsInDim ⟨2, ![1, n]⟩ (![1] : Fin 1 → Fin 2)) (u : Fin 1) (j : Fin n) :
    broadcastInDim ⟨2, ![1, n]⟩ ![1] h x (ix2 u j) = x (ix1 j) :=
  broadcastInDim_apply _ h x (ix2 u j) (ix1 j) fun a => by
    match a with
    | ⟨0, _⟩ =>
      show j.val = if n = 1 then 0 else j.val
      split
      · have := j.isLt; omega
      · rfl

/-- A `[1, n]` row spread over `m` rows reads, at `(r, j)`, the row at `j`. -/
theorem bcast_rows_apply {m n : ℕ} (v : (⟨2, ![1, n]⟩ : Shape).Idx → α)
    (h : (⟨2, ![1, n]⟩ : Shape).BroadcastsInDim ⟨2, ![m, n]⟩ (![0, 1] : Fin 2 → Fin 2)) (r : Fin m) (j : Fin n) :
    broadcastInDim ⟨2, ![m, n]⟩ ![0, 1] h v (ix2 r j) = v (ix2 (0 : Fin 1) j) :=
  broadcastInDim_apply _ h v (ix2 r j) (ix2 (0 : Fin 1) j) fun a => by
    match a with
    | ⟨0, _⟩ => rfl
    | ⟨1, _⟩ =>
      show j.val = if n = 1 then 0 else j.val
      split
      · have := j.isLt; omega
      · rfl

end HostLayout

/-! ## The reference's two row reductions -/

/-- The reference's maximum over a row of two, from its initial value. -/
theorem hostRowMax_apply {m : ℕ} (y : FVec Ideal ⟨2, ![m, 2]⟩ .f32) (init : FVec Ideal ⟨0, ![]⟩ .f32)
    (h' : (⟨2, ![m, 2]⟩ : Shape).ReducesTo [1] (⟨1, ![m]⟩ : Shape))
    (h : (⟨2, ![m, 2]⟩ : Shape).Reduces [1] (⟨1, ![m]⟩ : Shape)) (hu : 0 < (⟨0, ![]⟩ : Shape).numel) (r : Fin m) :
    Host.reduce FloatOps.maximumf y init h' hu (ix1 r)
      = Finset.univ.fold max (init (Shape.Idx.first hu)) (fun j : Fin 2 => y (ix2 r j)) := by
  rw [Host.reduce_eq_fold_single FloatOps.maximumf y init h' h hu]
  exact congrArg (fun f => Finset.fold max (init (Shape.Idx.first hu)) f (Finset.univ : Finset (Fin 2)))
    (funext fun k => congrArg y (lift_row h r k))

/-- The reference's sum over a row of two, from its initial value. -/
theorem hostRowSum_apply {m : ℕ} (y : FVec Ideal ⟨2, ![m, 2]⟩ .f32) (init : FVec Ideal ⟨0, ![]⟩ .f32)
    (h' : (⟨2, ![m, 2]⟩ : Shape).ReducesTo [1] (⟨1, ![m]⟩ : Shape))
    (h : (⟨2, ![m, 2]⟩ : Shape).Reduces [1] (⟨1, ![m]⟩ : Shape)) (hu : 0 < (⟨0, ![]⟩ : Shape).numel) (r : Fin m) :
    Host.reduceAdd y init h' hu (ix1 r) = init (Shape.Idx.first hu) + ∑ j : Fin 2, y (ix2 r j) := by
  simp only [Host.reduceAdd, Ideal.hostReduceAdd_def]
  rw [Ideal.hostReduceAdd_single h' h]
  show init (Shape.Idx.first hu) + ∑ k : Fin 2, y (h.lift (ix1 r) k) = _
  exact congrArg (init (Shape.Idx.first hu) + ·) (Finset.sum_congr rfl fun k _ => congrArg y (lift_row h r k))

/-! ## The reference's log-softmax, stage by stage -/

/-- The reference's chain of operations, each stage given as an equation, ends in the row-wise log-softmax of `a`
    plus the bias row: its row maximum is max (−∞, fold of max from −∞) = the fold, its row sum is 0 + the sum. -/
theorem host_lsm
    (a : FVec Ideal ⟨2, ![50000, 2]⟩ .f32) (x9 : FVec Ideal ⟨1, ![2]⟩ .f32)
    (v134 : FVec Ideal ⟨2, ![1, 2]⟩ .f32) (v135 y v4 v5 v6 v10 out : FVec Ideal ⟨2, ![50000, 2]⟩ .f32)
    (c0 c1 cz : FVec Ideal ⟨0, ![]⟩ .f32) (v0 v1 v2 v7 : FVec Ideal ⟨1, ![50000]⟩ .f32)
    (v3 v8 v9 : FVec Ideal ⟨2, ![50000, 1]⟩ .f32)
    (hrow : (⟨1, ![2]⟩ : Shape).BroadcastsInDim ⟨2, ![1, 2]⟩ (![1] : Fin 1 → Fin 2))
    (hrows : (⟨2, ![1, 2]⟩ : Shape).BroadcastsInDim ⟨2, ![50000, 2]⟩ (![0, 1] : Fin 2 → Fin 2))
    (hs : (⟨0, ![]⟩ : Shape).BroadcastsInDim ⟨1, ![50000]⟩ (![] : Fin 0 → Fin 1))
    (hcol : (⟨1, ![50000]⟩ : Shape).BroadcastsInDim ⟨2, ![50000, 1]⟩ (![0] : Fin 1 → Fin 2))
    (hcols : (⟨2, ![50000, 1]⟩ : Shape).BroadcastsInDim ⟨2, ![50000, 2]⟩ (![0, 1] : Fin 2 → Fin 2))
    (h' : (⟨2, ![50000, 2]⟩ : Shape).ReducesTo [1] (⟨1, ![50000]⟩ : Shape)) (hu : 0 < (⟨0, ![]⟩ : Shape).numel)
    (hsc : (⟨1, ![2]⟩ : Shape).ShapeCasts ⟨2, ![1, 2]⟩)
    (e134 : v134 = broadcastInDim ⟨2, ![1, 2]⟩ ![1] hrow x9)
    (e135 : v135 = broadcastInDim ⟨2, ![50000, 2]⟩ ![0, 1] hrows v134)
    (ey : y = addf a v135)
    (ec0 : c0 = constant (F := Ideal) ⟨0, ![]⟩ .f32 0xFF800000#32)
    (e0 : v0 = Host.reduce FloatOps.maximumf y c0 h' hu)
    (ec1 : c1 = constant (F := Ideal) ⟨0, ![]⟩ .f32 0xFF800000#32)
    (e1 : v1 = broadcastInDim ⟨1, ![50000]⟩ ![] hs c1)
    (e2 : v2 = maximumf v1 v0)
    (e3 : v3 = broadcastInDim ⟨2, ![50000, 1]⟩ ![0] hcol v2)
    (e4 : v4 = broadcastInDim ⟨2, ![50000, 2]⟩ ![0, 1] hcols v3)
    (e5 : v5 = subf y v4)
    (e6 : v6 = Host.exp v5)
    (ecz : cz = constant (F := Ideal) ⟨0, ![]⟩ .f32 0x00000000#32)
    (e7 : v7 = Host.reduceAdd v6 cz h' hu)
    (e8 : v8 = broadcastInDim ⟨2, ![50000, 1]⟩ ![0] hcol v7)
    (e9 : v9 = Host.log v8)
    (e10 : v10 = broadcastInDim ⟨2, ![50000, 2]⟩ ![0, 1] hcols v9)
    (eout : out = subf v5 v10) :
    out = lsm a (shapeCast ⟨2, ![1, 2]⟩ x9 hsc) := by
  have h : (⟨2, ![50000, 2]⟩ : Shape).Reduces [1] (⟨1, ![50000]⟩ : Shape) := by decide
  have hy : ∀ (r : Fin 50000) (j : Fin 2),
      y (ix2 r j) = a (ix2 r j) + shapeCast ⟨2, ![1, 2]⟩ x9 hsc (ix2 (0 : Fin 1) j) := fun r j => by
    rw [ey, addf_apply, e135, bcast_rows_apply, e134, bcast_row_apply, shapeCast_a_1a_apply]
  have hM : ∀ r : Fin 50000, v2 (ix1 r) = Finset.univ.fold max (⊥ : EReal) (fun j : Fin 2 => y (ix2 r j)) := fun r => by
    rw [e2, maximumf_apply, e1, bcast_scalar_apply, e0, hostRowMax_apply y c0 h' h hu, ec0, ec1]
    show max (Ideal.ofBits .f32 0xFF800000#32) (Finset.fold max (Ideal.ofBits .f32 0xFF800000#32) _ _) = _
    rw [ofBits_negInf, max_bot_left]
  have h5 : ∀ (r : Fin 50000) (j : Fin 2), v5 (ix2 r j) = y (ix2 r j) - v2 (ix1 r) := fun r j => by
    rw [e5, subf_apply, e4, bcast_cols_apply, e3, bcast_col_apply]
  have h7 : ∀ r : Fin 50000, v7 (ix1 r) = ∑ j : Fin 2, Ideal.exp (v5 (ix2 r j)) := fun r => by
    rw [e7, hostRowSum_apply v6 cz h' h hu, ecz]
    show Ideal.ofBits .f32 0x00000000#32 + ∑ j : Fin 2, v6 (ix2 r j) = _
    rw [Ideal.ofBits_zero_f32, zero_add, e6]
    rfl
  funext i
  obtain ⟨r, q, rfl⟩ : ∃ (r : Fin 50000) (q : Fin 2), i = ix2 r q := ⟨i 0, i 1, eq_ix2 i⟩
  rw [eout, subf_apply, e10, bcast_cols_apply, e9]
  show v5 (ix2 r q) - Ideal.log (v8 (ix2 r (0 : Fin 1))) = _
  rw [e8, bcast_col_apply, h7]
  simp only [h5, hM, hy]
  rfl

/-! ## The reference's log-softmax as one function -/

section ReferenceSide
open Cert.ReferenceIdeal Cert.ReferenceIdeal.Gen

/-- The reference's log-softmax of a two-column array `y`, as the composition of its operations: the row maxima
    (each the larger of −∞ and the row's maximum from −∞) kept as a column and subtracted; the exponentials summed
    along each row from zero; the logarithm of the sums, kept as a column, subtracted. -/
def hostLsm (y : FVec Ideal ⟨2, ![50000, 2]⟩ .f32) : FVec Ideal ⟨2, ![50000, 2]⟩ .f32 :=
  subf
    (subf y (broadcastInDim S50000x2 ![0, 1] bcast_S50000x1_S50000x2_0_1 (broadcastInDim S50000x1 ![0] bcast_S50000_S50000x1_0
      (maximumf (broadcastInDim S50000 ![] bcast_S_S50000 (constant (F := Ideal) S_ .f32 0xFF800000#32))
        (Host.reduce FloatOps.maximumf y (constant (F := Ideal) S_ .f32 0xFF800000#32) reducesTo_S50000x2_S50000_d1 h_S_)))))
    (broadcastInDim S50000x2 ![0, 1] bcast_S50000x1_S50000x2_0_1 (Host.log (broadcastInDim S50000x1 ![0] bcast_S50000_S50000x1_0
      (Host.reduceAdd
        (Host.exp (subf y (broadcastInDim S50000x2 ![0, 1] bcast_S50000x1_S50000x2_0_1 (broadcastInDim S50000x1 ![0] bcast_S50000_S50000x1_0
          (maximumf (broadcastInDim S50000 ![] bcast_S_S50000 (constant (F := Ideal) S_ .f32 0xFF800000#32))
            (Host.reduce FloatOps.maximumf y (constant (F := Ideal) S_ .f32 0xFF800000#32) reducesTo_S50000x2_S50000_d1 h_S_))))))
        (constant (F := Ideal) S_ .f32 0x00000000#32) reducesTo_S50000x2_S50000_d1 h_S_))))

/-- Applied to an array plus a bias vector spread over its rows, it is the row-wise log-softmax of the array plus
    the bias row. -/
theorem hostLsm_eq (a : FVec Ideal ⟨2, ![50000, 2]⟩ .f32) (x9 : FVec Ideal ⟨1, ![2]⟩ .f32)
    (hsc : (⟨1, ![2]⟩ : Shape).ShapeCasts ⟨2, ![1, 2]⟩) :
    hostLsm (addf a (broadcastInDim S50000x2 ![0, 1] bcast_S1x2_S50000x2_0_1 (broadcastInDim S1x2 ![1] bcast_S2_S1x2_1 x9)))
      = lsm a (shapeCast ⟨2, ![1, 2]⟩ x9 hsc) :=
  host_lsm a x9 _ _ _ _ _ _ _ _ _ _ _ _ _ _ _ _ _ _
    bcast_S2_S1x2_1 bcast_S1x2_S50000x2_0_1 bcast_S_S50000 bcast_S50000_S50000x1_0 bcast_S50000x1_S50000x2_0_1
    reducesTo_S50000x2_S50000_d1 h_S_ hsc
    rfl rfl rfl rfl rfl rfl rfl rfl rfl rfl rfl rfl rfl rfl rfl rfl rfl rfl

end ReferenceSide

end Cert.Gcn.LogSoftmax

end
-- ==== Proof.RefLast.lean ====
/-
  The reference's last stretch of operations, read off the list one operation at a time.

  From the buffer contents V the stretch before left, the last layer computes the dense product of the hidden
  array with the weight matrix, gathers its rows at the source node of every edge, scales each by the edge's weight
  and adds them up at the edge's target node, adds the bias spread over the rows, and takes the row-wise
  log-softmax.  The stretch is read in two parts — up to the biased array, and the log-softmax of it — and the
  result is the shared log-softmax function of the aggregated product and the bias row.
-/
import proofs.«152642_j38920993636608_1_alg».proof.Proof.RefChunks
import proofs.«152642_j38920993636608_1_alg».proof.Proof.HostOps
import proofs.«152642_j38920993636608_1_alg».proof.Proof.LogSoftmax
import Idealize.ShloMosaic.Lib.Pipeline.Frame

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The last stretch up to the biased array: the dense product, the gather, the weights, the sum at the targets,
    the bias spread over the rows and added. -/
abbrev opsR4a : List (HloOp τ sig (Elt F)) :=
  [ binary main_v120 main_arg8 main_v121 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    nullary main_c_18 (constantI S_ 32 0#32),
    unary main_c_18 main_v122 (broadcastInDim S850000 ![] bcast_S_S850000 : (⟨S_, .i32⟩ : BufTy).Contents (Elt F) → (⟨S850000, .i32⟩ : BufTy).Contents (Elt F)),
    binary main_v3 main_v122 main_v123 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v124 (broadcastInDim S850000 ![] bcast_S_S850000 : (⟨S_, .i32⟩ : BufTy).Contents (Elt F) → (⟨S850000, .i32⟩ : BufTy).Contents (Elt F)),
    binary main_v3 main_v124 main_v125 (addi : (⟨S850000, .i32⟩ : BufTy).Contents (Elt F) → (⟨S850000, .i32⟩ : BufTy).Contents (Elt F) → (⟨S850000, .i32⟩ : BufTy).Contents (Elt F)),
    ternary main_v123 main_v125 main_v3 main_v126 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v126 main_v127 (broadcastInDim S850000x1 ![0] bcast_S850000_S850000x1_0 : (⟨S850000, .i32⟩ : BufTy).Contents (Elt F) → (⟨S850000x1, .i32⟩ : BufTy).Contents (Elt F)),
    binary main_v121 main_v127 main_v128 ((fun x i => Host.gather gather_S50000x2_S850000x1_S850000x2_1_0_n_n_0_1_12 x i) : (⟨S50000x2, .f32⟩ : BufTy).Contents (Elt F) → (⟨S850000x1, .i32⟩ : BufTy).Contents (Elt F) → (⟨S850000x2, .f32⟩ : BufTy).Contents (Elt F)),
    unary main_v30 main_v129 (broadcastInDim S850000x2 ![0, 1] bcast_S850000x1_S850000x2_0_1 : (⟨S850000x1, .f32⟩ : BufTy).Contents (Elt F) → (⟨S850000x2, .f32⟩ : BufTy).Contents (Elt F)),
    binary main_v128 main_v129 main_v130 (mulf : (⟨S850000x2, .f32⟩ : BufTy).Contents (Elt F) → (⟨S850000x2, .f32⟩ : BufTy).Contents (Elt F) → (⟨S850000x2, .f32⟩ : BufTy).Contents (Elt F)),
    nullary main_cst_20 (constant S_ .f32 0x00000000#32),
    unary main_cst_20 main_v131 (broadcastInDim S50000x2 ![] bcast_S_S50000x2 : (⟨S_, .f32⟩ : BufTy).Contents (Elt F) → (⟨S50000x2, .f32⟩ : BufTy).Contents (Elt F)),
    unary main_v6 main_v132 (broadcastInDim S850000x1 ![0] bcast_S850000_S850000x1_0 : (⟨S850000, .i32⟩ : BufTy).Contents (Elt F) → (⟨S850000x1, .i32⟩ : BufTy).Contents (Elt F)),
    ternary main_v131 main_v132 main_v130 main_v133 ((fun x i u => Host.scatterAdd scatter_S50000x2_S850000x1_S850000x2_1_0_0_1 x i u) : (⟨S50000x2, .f32⟩ : BufTy).Contents (Elt F) → (⟨S850000x1, .i32⟩ : BufTy).Contents (Elt F) → (⟨S850000x2, .f32⟩ : BufTy).Contents (Elt F) → (⟨S50000x2, .f32⟩ : BufTy).Contents (Elt F)),
    unary main_arg9 main_v134 (broadcastInDim S1x2 ![1] bcast_S2_S1x2_1 : (⟨S2, .f32⟩ : BufTy).Contents (Elt F) → (⟨S1x2, .f32⟩ : BufTy).Contents (Elt F)),
    unary main_v134 main_v135 (broadcastInDim S50000x2 ![0, 1] bcast_S1x2_S50000x2_0_1 : (⟨S1x2, .f32⟩ : BufTy).Contents (Elt F) → (⟨S50000x2, .f32⟩ : BufTy).Contents (Elt F)),
    binary main_v133 main_v135 main_v136 (addf : (⟨S50000x2, .f32⟩ : BufTy).Contents (Elt F) → (⟨S50000x2, .f32⟩ : BufTy).Contents (Elt F) → (⟨S50000x2, .f32⟩ : BufTy).Contents (Elt F)) ]

/-- The rest of the last stretch: the log-softmax of the biased array. -/
abbrev opsR4b : List (HloOp τ sig (Elt F)) :=
  [ TRef.nullary (TRef.of (T := ⟨S_, .f32⟩) main_call4_cst) (constant S_ .f32 0xFF800000#32),
    TRef.binary (TRef.of (T := ⟨S50000x2, .f32⟩) main_v136) (TRef.of (T := ⟨S_, .f32⟩) main_call4_cst) (TRef.of (T := ⟨S50000, .f32⟩) main_call4_v0) (fun x v => Host.reduce FloatOps.maximumf x v reducesTo_S50000x2_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x2, .f32⟩) main_call4_v4) (broadcastInDim S50000x2 ![0, 1] bcast_S50000x1_S50000x2_0_1),
    TRef.binary (TRef.of (T := ⟨S50000x2, .f32⟩) main_v136) (TRef.of (T := ⟨S50000x2, .f32⟩) main_call4_v4) (TRef.of (T := ⟨S50000x2, .f32⟩) main_call4_v5) subf,
    TRef.unary (TRef.of (T := ⟨S50000x2, .f32⟩) main_call4_v5) (TRef.of (T := ⟨S50000x2, .f32⟩) main_call4_v6) Host.exp,
    TRef.nullary (TRef.of (T := ⟨S_, .f32⟩) main_call4_cst_1) (constant S_ .f32 0x00000000#32),
    TRef.binary (TRef.of (T := ⟨S50000x2, .f32⟩) main_call4_v6) (TRef.of (T := ⟨S_, .f32⟩) main_call4_cst_1) (TRef.of (T := ⟨S50000, .f32⟩) main_call4_v7) (fun x v => Host.reduceAdd x v reducesTo_S50000x2_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x2, .f32⟩) main_call4_v10) (broadcastInDim S50000x2 ![0, 1] bcast_S50000x1_S50000x2_0_1),
    TRef.binary (TRef.of (T := ⟨S50000x2, .f32⟩) main_call4_v5) (TRef.of (T := ⟨S50000x2, .f32⟩) main_call4_v10) (TRef.of (T := ⟨S50000x2, .f32⟩) main_v137) subf ]

set_option maxRecDepth 8192 in
theorem opsR4_split : (opsR4 : List (HloOp τ sig (Elt F))) = opsR4a ++ opsR4b := rfl

/-- The log-softmax of a two-column array as the composition of the reference's operations, at any float
    instance: the row maxima (each the larger of −∞ and the row's maximum from −∞) kept as a column and subtracted;
    the exponentials summed along each row from zero; the logarithm of the sums, kept as a column, subtracted. -/
def hostLsmG (y : FVec F S50000x2 .f32) : FVec F S50000x2 .f32 :=
  subf
    (subf y (broadcastInDim S50000x2 ![0, 1] bcast_S50000x1_S50000x2_0_1 (broadcastInDim S50000x1 ![0] bcast_S50000_S50000x1_0
      (maximumf (broadcastInDim S50000 ![] bcast_S_S50000 (constant (F := F) S_ .f32 0xFF800000#32))
        (Host.reduce FloatOps.maximumf y (constant (F := F) S_ .f32 0xFF800000#32) reducesTo_S50000x2_S50000_d1 h_S_)))))
    (broadcastInDim S50000x2 ![0, 1] bcast_S50000x1_S50000x2_0_1 (Host.log (broadcastInDim S50000x1 ![0] bcast_S50000_S50000x1_0
      (Host.reduceAdd
        (Host.exp (subf y (broadcastInDim S50000x2 ![0, 1] bcast_S50000x1_S50000x2_0_1 (broadcastInDim S50000x1 ![0] bcast_S50000_S50000x1_0
          (maximumf (broadcastInDim S50000 ![] bcast_S_S50000 (constant (F := F) S_ .f32 0xFF800000#32))
            (Host.reduce FloatOps.maximumf y (constant (F := F) S_ .f32 0xFF800000#32) reducesTo_S50000x2_S50000_d1 h_S_))))))
        (constant (F := F) S_ .f32 0x00000000#32) reducesTo_S50000x2_S50000_d1 h_S_))))

/-- At the extended reals it is the function the log-softmax lemma is about. -/
theorem hostLsmG_ideal (y : FVec Ideal S50000x2 .f32) : hostLsmG (F := Ideal) y = Cert.Gcn.LogSoftmax.hostLsm y := rfl

set_option maxHeartbeats 4000000 in
/-- The second part leaves the reference's log-softmax of whatever the biased array holds. -/
theorem r4b_v137 (W : Valuation τ sig (Elt F)) :
    StableHlo.after opsR4b W (Proc.devRef .tc main_v137) = hostLsmG (W (Proc.devRef .tc main_v136)) := by
  dsimp only [opsR4b]
  after_results_simp
  unfold hostLsmG
  simp only [TRef.toBuf, TRef.ofBuf, cast_eq]

set_option maxHeartbeats 4000000 in
/-- The first part leaves, in the biased array, the weighted gather-and-sum of the dense product plus the bias spread
    over the rows. -/
theorem r4a_v136 (V : Valuation τ sig (Elt F)) :
    StableHlo.after opsR4a V (Proc.devRef .tc main_v136)
      = addf (Cert.Gcn.HostOps.aggregate2 (F := F)
            (Host.dotGeneral (F := F) (φ₁ := .f32) (φ₂ := .f32) Cert.ReferenceIdeal.dot_S50000x128_S128x2_S50000x2_1_0_0_1_n_n none
              (V (Proc.devRef .tc main_v120)) (V (Proc.devRef .tc main_arg8)))
            (V (Proc.devRef .tc main_v3)) (V (Proc.devRef .tc main_v6)) (V (Proc.devRef .tc main_v30)))
          (broadcastInDim S50000x2 ![0, 1] bcast_S1x2_S50000x2_0_1 (broadcastInDim S1x2 ![1] bcast_S2_S1x2_1 (V (Proc.devRef .tc main_arg9)))) := by
  dsimp only [opsR4a]
  after_results_simp
  unfold Cert.Gcn.HostOps.aggregate2 Cert.Gcn.HostOps.wrapIdx
  rfl

/-- After the last stretch the result array is the row-wise log-softmax of the weighted gather-and-sum of the dense
    product, plus the bias row. -/
theorem r4_v137 (V : Valuation τ sig (Elt Ideal)) :
    StableHlo.after (opsR4 (F := Ideal)) V (Proc.devRef .tc main_v137)
      = Cert.Gcn.lsm
          (Cert.Gcn.HostOps.aggregate2 (F := Ideal)
            (Host.dotGeneral (F := Ideal) (φ₁ := .f32) (φ₂ := .f32) Cert.ReferenceIdeal.dot_S50000x128_S128x2_S50000x2_1_0_0_1_n_n none
              (V (Proc.devRef .tc main_v120)) (V (Proc.devRef .tc main_arg8)))
            (V (Proc.devRef .tc main_v3)) (V (Proc.devRef .tc main_v6)) (V (Proc.devRef .tc main_v30)))
          (Cert.Gcn.HostOps.row2 (F := Ideal) (V (Proc.devRef .tc main_arg9))) := by
  rw [opsR4_split, StableHlo.after_append, r4b_v137, r4a_v136, hostLsmG_ideal]
  exact Cert.Gcn.LogSoftmax.hostLsm_eq _ _ _

end Cert.ReferenceIdeal.Hand

end
-- ==== Proof.KeepTable.lean ====
/- A table of cases. For each argument array and each boundary of the kernel program's run at which it is read, and for the
   three edge arrays at the four boundaries where a host stretch reads them: the buffer still holds what it held at launch
   (respectively at the first region's entry), because no host operation in between writes it and it is no region's array.
   Every line is an instance of the lemmas of Proof/Chain.lean; the side conditions are decided. -/
import proofs.«152642_j38920993636608_1_alg».proof.Proof.Chain
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

theorem arg0_W3 : W3 m ρ c (Proc.devRef .tc main_arg0) = m ((c : Thread nD τ).loc main_arg0) :=
  to3 m ρ c (by untouched hostOps0) (by untouched hostOps0_1) (by untouched hostOps0_2)
theorem arg2_W3 : W3 m ρ c (Proc.devRef .tc main_arg2) = m ((c : Thread nD τ).loc main_arg2) :=
  to3 m ρ c (by untouched hostOps0) (by untouched hostOps0_1) (by untouched hostOps0_2)
theorem arg3_W4 : W4 m ρ c (Proc.devRef .tc main_arg3) = m ((c : Thread nD τ).loc main_arg3) :=
  (at4 m ρ c (by decide)).trans (to3 m ρ c (by untouched hostOps0) (by untouched hostOps0_1) (by untouched hostOps0_2))
theorem arg10_W4 : W4 m ρ c (Proc.devRef .tc main_arg10) = m ((c : Thread nD τ).loc main_arg10) :=
  (at4 m ρ c (by decide)).trans (to3 m ρ c (by untouched hostOps0) (by untouched hostOps0_1) (by untouched hostOps0_2))
theorem arg11_W4 : W4 m ρ c (Proc.devRef .tc main_arg11) = m ((c : Thread nD τ).loc main_arg11) :=
  (at4 m ρ c (by decide)).trans (to3 m ρ c (by untouched hostOps0) (by untouched hostOps0_1) (by untouched hostOps0_2))
theorem arg12_W4 : W4 m ρ c (Proc.devRef .tc main_arg12) = m ((c : Thread nD τ).loc main_arg12) :=
  (at4 m ρ c (by decide)).trans (to3 m ρ c (by untouched hostOps0) (by untouched hostOps0_1) (by untouched hostOps0_2))
theorem arg13_W4 : W4 m ρ c (Proc.devRef .tc main_arg13) = m ((c : Thread nD τ).loc main_arg13) :=
  (at4 m ρ c (by decide)).trans (to3 m ρ c (by untouched hostOps0) (by untouched hostOps0_1) (by untouched hostOps0_2))
theorem arg4_W6 : W6 m ρ c (Proc.devRef .tc main_arg4) = m ((c : Thread nD τ).loc main_arg4) :=
  (at6 m ρ c (by decide) (by untouched hostOps1) (by decide)).trans (to3 m ρ c (by untouched hostOps0) (by untouched hostOps0_1) (by untouched hostOps0_2))
theorem arg5_W7 : W7 m ρ c (Proc.devRef .tc main_arg5) = m ((c : Thread nD τ).loc main_arg5) :=
  (at7 m ρ c (by decide) (by untouched hostOps1) (by decide) (by decide)).trans (to3 m ρ c (by untouched hostOps0) (by untouched hostOps0_1) (by untouched hostOps0_2))
theorem arg14_W7 : W7 m ρ c (Proc.devRef .tc main_arg14) = m ((c : Thread nD τ).loc main_arg14) :=
  (at7 m ρ c (by decide) (by untouched hostOps1) (by decide) (by decide)).trans (to3 m ρ c (by untouched hostOps0) (by untouched hostOps0_1) (by untouched hostOps0_2))
theorem arg15_W7 : W7 m ρ c (Proc.devRef .tc main_arg15) = m ((c : Thread nD τ).loc main_arg15) :=
  (at7 m ρ c (by decide) (by untouched hostOps1) (by decide) (by decide)).trans (to3 m ρ c (by untouched hostOps0) (by untouched hostOps0_1) (by untouched hostOps0_2))
theorem arg16_W7 : W7 m ρ c (Proc.devRef .tc main_arg16) = m ((c : Thread nD τ).loc main_arg16) :=
  (at7 m ρ c (by decide) (by untouched hostOps1) (by decide) (by decide)).trans (to3 m ρ c (by untouched hostOps0) (by untouched hostOps0_1) (by untouched hostOps0_2))
theorem arg17_W7 : W7 m ρ c (Proc.devRef .tc main_arg17) = m ((c : Thread nD τ).loc main_arg17) :=
  (at7 m ρ c (by decide) (by untouched hostOps1) (by decide) (by decide)).trans (to3 m ρ c (by untouched hostOps0) (by untouched hostOps0_1) (by untouched hostOps0_2))
theorem arg6_W9 : W9 m ρ c (Proc.devRef .tc main_arg6) = m ((c : Thread nD τ).loc main_arg6) :=
  (at9 m ρ c (by decide) (by untouched hostOps1) (by decide) (by decide) (by untouched hostOps3) (by decide)).trans (to3 m ρ c (by untouched hostOps0) (by untouched hostOps0_1) (by untouched hostOps0_2))
theorem arg7_W10 : W10 m ρ c (Proc.devRef .tc main_arg7) = m ((c : Thread nD τ).loc main_arg7) :=
  (at10 m ρ c (by decide) (by untouched hostOps1) (by decide) (by decide) (by untouched hostOps3) (by decide) (by decide)).trans (to3 m ρ c (by untouched hostOps0) (by untouched hostOps0_1) (by untouched hostOps0_2))
theorem arg18_W10 : W10 m ρ c (Proc.devRef .tc main_arg18) = m ((c : Thread nD τ).loc main_arg18) :=
  (at10 m ρ c (by decide) (by untouched hostOps1) (by decide) (by decide) (by untouched hostOps3) (by decide) (by decide)).trans (to3 m ρ c (by untouched hostOps0) (by untouched hostOps0_1) (by untouched hostOps0_2))
theorem arg19_W10 : W10 m ρ c (Proc.devRef .tc main_arg19) = m ((c : Thread nD τ).loc main_arg19) :=
  (at10 m ρ c (by decide) (by untouched hostOps1) (by decide) (by decide) (by untouched hostOps3) (by decide) (by decide)).trans (to3 m ρ c (by untouched hostOps0) (by untouched hostOps0_1) (by untouched hostOps0_2))
theorem arg20_W10 : W10 m ρ c (Proc.devRef .tc main_arg20) = m ((c : Thread nD τ).loc main_arg20) :=
  (at10 m ρ c (by decide) (by untouched hostOps1) (by decide) (by decide) (by untouched hostOps3) (by decide) (by decide)).trans (to3 m ρ c (by untouched hostOps0) (by untouched hostOps0_1) (by untouched hostOps0_2))
theorem arg21_W10 : W10 m ρ c (Proc.devRef .tc main_arg21) = m ((c : Thread nD τ).loc main_arg21) :=
  (at10 m ρ c (by decide) (by untouched hostOps1) (by decide) (by decide) (by untouched hostOps3) (by decide) (by decide)).trans (to3 m ρ c (by untouched hostOps0) (by untouched hostOps0_1) (by untouched hostOps0_2))
theorem arg8_W12 : W12 m ρ c (Proc.devRef .tc main_arg8) = m ((c : Thread nD τ).loc main_arg8) :=
  (at12 m ρ c (by decide) (by untouched hostOps1) (by decide) (by decide) (by untouched hostOps3) (by decide) (by decide) (by untouched hostOps5) (by decide)).trans (to3 m ρ c (by untouched hostOps0) (by untouched hostOps0_1) (by untouched hostOps0_2))
theorem arg9_W13 : W13 m ρ c (Proc.devRef .tc main_arg9) = m ((c : Thread nD τ).loc main_arg9) :=
  (at13 m ρ c (by decide) (by untouched hostOps1) (by decide) (by decide) (by untouched hostOps3) (by decide) (by decide) (by untouched hostOps5) (by decide) (by decide)).trans (to3 m ρ c (by untouched hostOps0) (by untouched hostOps0_1) (by untouched hostOps0_2))
theorem v3_W4 : W4 m ρ c (Proc.devRef .tc main_v3) = W3 m ρ c (Proc.devRef .tc main_v3) :=
  at4 m ρ c (by decide)
theorem v6_W4 : W4 m ρ c (Proc.devRef .tc main_v6) = W3 m ρ c (Proc.devRef .tc main_v6) :=
  at4 m ρ c (by decide)
theorem v30_W4 : W4 m ρ c (Proc.devRef .tc main_v30) = W3 m ρ c (Proc.devRef .tc main_v30) :=
  at4 m ρ c (by decide)
theorem v3_W7 : W7 m ρ c (Proc.devRef .tc main_v3) = W3 m ρ c (Proc.devRef .tc main_v3) :=
  at7 m ρ c (by decide) (by untouched hostOps1) (by decide) (by decide)
theorem v6_W7 : W7 m ρ c (Proc.devRef .tc main_v6) = W3 m ρ c (Proc.devRef .tc main_v6) :=
  at7 m ρ c (by decide) (by untouched hostOps1) (by decide) (by decide)
theorem v30_W7 : W7 m ρ c (Proc.devRef .tc main_v30) = W3 m ρ c (Proc.devRef .tc main_v30) :=
  at7 m ρ c (by decide) (by untouched hostOps1) (by decide) (by decide)
theorem v3_W10 : W10 m ρ c (Proc.devRef .tc main_v3) = W3 m ρ c (Proc.devRef .tc main_v3) :=
  at10 m ρ c (by decide) (by untouched hostOps1) (by decide) (by decide) (by untouched hostOps3) (by decide) (by decide)
theorem v6_W10 : W10 m ρ c (Proc.devRef .tc main_v6) = W3 m ρ c (Proc.devRef .tc main_v6) :=
  at10 m ρ c (by decide) (by untouched hostOps1) (by decide) (by decide) (by untouched hostOps3) (by decide) (by decide)
theorem v30_W10 : W10 m ρ c (Proc.devRef .tc main_v30) = W3 m ρ c (Proc.devRef .tc main_v30) :=
  at10 m ρ c (by decide) (by untouched hostOps1) (by decide) (by decide) (by untouched hostOps3) (by decide) (by decide)
theorem v3_W13 : W13 m ρ c (Proc.devRef .tc main_v3) = W3 m ρ c (Proc.devRef .tc main_v3) :=
  at13 m ρ c (by decide) (by untouched hostOps1) (by decide) (by decide) (by untouched hostOps3) (by decide) (by decide) (by untouched hostOps5) (by decide) (by decide)
theorem v6_W13 : W13 m ρ c (Proc.devRef .tc main_v6) = W3 m ρ c (Proc.devRef .tc main_v6) :=
  at13 m ρ c (by decide) (by untouched hostOps1) (by decide) (by decide) (by untouched hostOps3) (by decide) (by decide) (by untouched hostOps5) (by decide) (by decide)
theorem v30_W13 : W13 m ρ c (Proc.devRef .tc main_v30) = W3 m ρ c (Proc.devRef .tc main_v30) :=
  at13 m ρ c (by decide) (by untouched hostOps1) (by decide) (by decide) (by untouched hostOps3) (by decide) (by decide) (by untouched hostOps5) (by decide) (by decide)

end Cert.KernelIdeal.Hand

end
-- ==== Proof.Stretches.lean ====
/-
  What the four stretches of host operations between the kernel program's regions leave in the buffers the next
  regions read.

  Each stretch, run from the buffer contents V the region before it left, computes from the dense product of the
  layer the weighted gather-and-sum over the edges, and (for the first three layers) folds the bias and the batch
  normalisation into one scale row and one shift row; the last stretch lays the bias out as a one-row array.  Every
  result is read off the list of operations, one operation at a time, and is the named function of V at the buffers
  the stretch reads.
-/
import proofs.«152642_j38920993636608_1_alg».proof.Proof.Chain
import proofs.«152642_j38920993636608_1_alg».proof.Proof.HostOps
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Gcn.HostOps

section Generic

variable {F : FTy → Type} [FloatOps F]

/-! ## The stretch of host operations `hostOps1` -/

set_option maxHeartbeats 4000000 in
/-- After the stretch the aggregated array is the weighted gather-and-sum of the dense product the region before left. -/
theorem after1_agg (V : Valuation τ sig (Elt F)) :
    StableHlo.after hostOps1 V (Proc.devRef .tc main_v43)
      = aggregate128 (V (Proc.devRef .tc main_v31)) (V (Proc.devRef .tc main_v3)) (V (Proc.devRef .tc main_v6)) (V (Proc.devRef .tc main_v30)) := by
  dsimp only [hostOps1]
  after_results_simp
  unfold aggregate128 wrapIdx
  rfl

set_option maxHeartbeats 4000000 in
/-- After the stretch the scale row is g · rsqrt (v + ε), as a one-row array. -/
theorem after1_scale (V : Valuation τ sig (Elt F)) :
    StableHlo.after hostOps1 V (Proc.devRef .tc main_v52) = row128 (scaleOf (V (Proc.devRef .tc main_arg10)) (V (Proc.devRef .tc main_arg13))) := by
  dsimp only [hostOps1]
  after_results_simp
  unfold row128 scaleOf
  rfl

set_option maxHeartbeats 4000000 in
/-- After the stretch the shift row is (b · scale + β) − μ · scale, as a one-row array. -/
theorem after1_shift (V : Valuation τ sig (Elt F)) :
    StableHlo.after hostOps1 V (Proc.devRef .tc main_v53)
      = row128 (shiftOf (V (Proc.devRef .tc main_arg3)) (V (Proc.devRef .tc main_arg11)) (V (Proc.devRef .tc main_arg12)) (scaleOf (V (Proc.devRef .tc main_arg10)) (V (Proc.devRef .tc main_arg13)))) := by
  dsimp only [hostOps1]
  after_results_simp
  unfold row128 shiftOf scaleOf
  rfl

/-! ## The stretch of host operations `hostOps3` -/

set_option maxHeartbeats 4000000 in
/-- After the stretch the aggregated array is the weighted gather-and-sum of the dense product the region before left. -/
theorem after3_agg (V : Valuation τ sig (Elt F)) :
    StableHlo.after hostOps3 V (Proc.devRef .tc main_v67)
      = aggregate128 (V (Proc.devRef .tc main_v55)) (V (Proc.devRef .tc main_v3)) (V (Proc.devRef .tc main_v6)) (V (Proc.devRef .tc main_v30)) := by
  dsimp only [hostOps3]
  after_results_simp
  unfold aggregate128 wrapIdx
  rfl

set_option maxHeartbeats 4000000 in
/-- After the stretch the scale row is g · rsqrt (v + ε), as a one-row array. -/
theorem after3_scale (V : Valuation τ sig (Elt F)) :
    StableHlo.after hostOps3 V (Proc.devRef .tc main_v76) = row128 (scaleOf (V (Proc.devRef .tc main_arg14)) (V (Proc.devRef .tc main_arg17))) := by
  dsimp only [hostOps3]
  after_results_simp
  unfold row128 scaleOf
  rfl

set_option maxHeartbeats 4000000 in
/-- After the stretch the shift row is (b · scale + β) − μ · scale, as a one-row array. -/
theorem after3_shift (V : Valuation τ sig (Elt F)) :
    StableHlo.after hostOps3 V (Proc.devRef .tc main_v77)
      = row128 (shiftOf (V (Proc.devRef .tc main_arg5)) (V (Proc.devRef .tc main_arg15)) (V (Proc.devRef .tc main_arg16)) (scaleOf (V (Proc.devRef .tc main_arg14)) (V (Proc.devRef .tc main_arg17)))) := by
  dsimp only [hostOps3]
  after_results_simp
  unfold row128 shiftOf scaleOf
  rfl

/-! ## The stretch of host operations `hostOps5` -/

set_option maxHeartbeats 4000000 in
/-- After the stretch the aggregated array is the weighted gather-and-sum of the dense product the region before left. -/
theorem after5_agg (V : Valuation τ sig (Elt F)) :
    StableHlo.after hostOps5 V (Proc.devRef .tc main_v91)
      = aggregate128 (V (Proc.devRef .tc main_v79)) (V (Proc.devRef .tc main_v3)) (V (Proc.devRef .tc main_v6)) (V (Proc.devRef .tc main_v30)) := by
  dsimp only [hostOps5]
  after_results_simp
  unfold aggregate128 wrapIdx
  rfl

set_option maxHeartbeats 4000000 in
/-- After the stretch the scale row is g · rsqrt (v + ε), as a one-row array. -/
theorem after5_scale (V : Valuation τ sig (Elt F)) :
    StableHlo.after hostOps5 V (Proc.devRef .tc main_v100) = row128 (scaleOf (V (Proc.devRef .tc main_arg18)) (V (Proc.devRef .tc main_arg21))) := by
  dsimp only [hostOps5]
  after_results_simp
  unfold row128 scaleOf
  rfl

set_option maxHeartbeats 4000000 in
/-- After the stretch the shift row is (b · scale + β) − μ · scale, as a one-row array. -/
theorem after5_shift (V : Valuation τ sig (Elt F)) :
    StableHlo.after hostOps5 V (Proc.devRef .tc main_v101)
      = row128 (shiftOf (V (Proc.devRef .tc main_arg7)) (V (Proc.devRef .tc main_arg19)) (V (Proc.devRef .tc main_arg20)) (scaleOf (V (Proc.devRef .tc main_arg18)) (V (Proc.devRef .tc main_arg21)))) := by
  dsimp only [hostOps5]
  after_results_simp
  unfold row128 shiftOf scaleOf
  rfl

/-! ## The stretch of host operations `hostOps7` -/

set_option maxHeartbeats 4000000 in
/-- After the stretch the aggregated array is the weighted gather-and-sum of the dense product the region before left. -/
theorem after7_agg (V : Valuation τ sig (Elt F)) :
    StableHlo.after hostOps7 V (Proc.devRef .tc main_v115)
      = aggregate2 (V (Proc.devRef .tc main_v103)) (V (Proc.devRef .tc main_v3)) (V (Proc.devRef .tc main_v6)) (V (Proc.devRef .tc main_v30)) := by
  dsimp only [hostOps7]
  after_results_simp
  unfold aggregate2 wrapIdx
  rfl

set_option maxHeartbeats 4000000 in
/-- After the stretch the bias row is the bias vector as a one-row array. -/
theorem after7_bias (V : Valuation τ sig (Elt F)) :
    StableHlo.after hostOps7 V (Proc.devRef .tc main_v116) = row2 (V (Proc.devRef .tc main_arg9)) := by
  dsimp only [hostOps7]
  after_results_simp
  unfold row2
  rfl

end Generic

/-! ## The same at the boundaries of the run -/

variable (m : (ℓ : Loc nD τ sig) → Buf (Elt Ideal) ℓ) (ρ : Dev nD → PrngReg) (c : Dev nD)

theorem stretch1_agg : W5 m ρ c (Proc.devRef .tc main_v43)
    = aggregate128 (F := Ideal) (W4 m ρ c (Proc.devRef .tc main_v31)) (W4 m ρ c (Proc.devRef .tc main_v3)) (W4 m ρ c (Proc.devRef .tc main_v6)) (W4 m ρ c (Proc.devRef .tc main_v30)) :=
  after1_agg (W4 m ρ c)
theorem stretch1_scale : W5 m ρ c (Proc.devRef .tc main_v52) = row128 (F := Ideal) (scaleOf (F := Ideal) (W4 m ρ c (Proc.devRef .tc main_arg10)) (W4 m ρ c (Proc.devRef .tc main_arg13))) :=
  after1_scale (W4 m ρ c)
theorem stretch1_shift : W5 m ρ c (Proc.devRef .tc main_v53)
    = row128 (F := Ideal) (shiftOf (F := Ideal) (W4 m ρ c (Proc.devRef .tc main_arg3)) (W4 m ρ c (Proc.devRef .tc main_arg11)) (W4 m ρ c (Proc.devRef .tc main_arg12)) (scaleOf (F := Ideal) (W4 m ρ c (Proc.devRef .tc main_arg10)) (W4 m ρ c (Proc.devRef .tc main_arg13)))) :=
  after1_shift (W4 m ρ c)

theorem stretch3_agg : W8 m ρ c (Proc.devRef .tc main_v67)
    = aggregate128 (F := Ideal) (W7 m ρ c (Proc.devRef .tc main_v55)) (W7 m ρ c (Proc.devRef .tc main_v3)) (W7 m ρ c (Proc.devRef .tc main_v6)) (W7 m ρ c (Proc.devRef .tc main_v30)) :=
  after3_agg (W7 m ρ c)
theorem stretch3_scale : W8 m ρ c (Proc.devRef .tc main_v76) = row128 (F := Ideal) (scaleOf (F := Ideal) (W7 m ρ c (Proc.devRef .tc main_arg14)) (W7 m ρ c (Proc.devRef .tc main_arg17))) :=
  after3_scale (W7 m ρ c)
theorem stretch3_shift : W8 m ρ c (Proc.devRef .tc main_v77)
    = row128 (F := Ideal) (shiftOf (F := Ideal) (W7 m ρ c (Proc.devRef .tc main_arg5)) (W7 m ρ c (Proc.devRef .tc main_arg15)) (W7 m ρ c (Proc.devRef .tc main_arg16)) (scaleOf (F := Ideal) (W7 m ρ c (Proc.devRef .tc main_arg14)) (W7 m ρ c (Proc.devRef .tc main_arg17)))) :=
  after3_shift (W7 m ρ c)

theorem stretch5_agg : W11 m ρ c (Proc.devRef .tc main_v91)
    = aggregate128 (F := Ideal) (W10 m ρ c (Proc.devRef .tc main_v79)) (W10 m ρ c (Proc.devRef .tc main_v3)) (W10 m ρ c (Proc.devRef .tc main_v6)) (W10 m ρ c (Proc.devRef .tc main_v30)) :=
  after5_agg (W10 m ρ c)
theorem stretch5_scale : W11 m ρ c (Proc.devRef .tc main_v100) = row128 (F := Ideal) (scaleOf (F := Ideal) (W10 m ρ c (Proc.devRef .tc main_arg18)) (W10 m ρ c (Proc.devRef .tc main_arg21))) :=
  after5_scale (W10 m ρ c)
theorem stretch5_shift : W11 m ρ c (Proc.devRef .tc main_v101)
    = row128 (F := Ideal) (shiftOf (F := Ideal) (W10 m ρ c (Proc.devRef .tc main_arg7)) (W10 m ρ c (Proc.devRef .tc main_arg19)) (W10 m ρ c (Proc.devRef .tc main_arg20)) (scaleOf (F := Ideal) (W10 m ρ c (Proc.devRef .tc main_arg18)) (W10 m ρ c (Proc.devRef .tc main_arg21)))) :=
  after5_shift (W10 m ρ c)

theorem stretch7_agg : W14 m ρ c (Proc.devRef .tc main_v115)
    = aggregate2 (F := Ideal) (W13 m ρ c (Proc.devRef .tc main_v103)) (W13 m ρ c (Proc.devRef .tc main_v3)) (W13 m ρ c (Proc.devRef .tc main_v6)) (W13 m ρ c (Proc.devRef .tc main_v30)) :=
  after7_agg (W13 m ρ c)
theorem stretch7_bias : W14 m ρ c (Proc.devRef .tc main_v116) = row2 (F := Ideal) (W13 m ρ c (Proc.devRef .tc main_arg9)) :=
  after7_bias (W13 m ρ c)

end Cert.KernelIdeal.Hand

end
-- ==== Proof.MatMul.lean ====
/-
  The four dense-product regions of the kernel program (regions 0, 2, 4, 6) and the three dense products of the
  reference program, each identified with the array function `mm`: entry (p, q) of the product of an n×k array
  with a k×c array is the sum over κ of h(p, κ) · W(κ, q).

  Kernel side, per region: the body's result at an index of the block is the contraction sum of the two blocks it
  loaded (over the extended reals the narrowing of the operands is the identity and the accumulator is zero); the
  left operand's block at point t is rows 2000·t … 2000·t + 1999 of its array, the right operand's block is its
  whole array, so what point t writes back is block t of `mm` of the two arrays; the 25 row blocks cover the
  50000 rows (row r lies in block r / 2000), hence the output array ends at `mm` of the two input arrays.

  Reference side: a `dot_general` contracting axis 1 of the left operand with axis 0 of the right one is `mm`.
  Last, `mm` of two arrays of real numbers is an array of real numbers.
-/
import proofs.«152642_j38920993636608_1_alg».proof.Proof.Gen.ReferenceIdeal
import proofs.«152642_j38920993636608_1_alg».proof.Proof.Gen.KernelIdeal.Frame
import proofs.«152642_j38920993636608_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.MatMul

open Idealize.ShloMosaic Idealize.ShloMosaic.TcCoe Idealize.ShloMosaic.ValueIdx Idealize.SL.Sem
open Idealize.ShloMosaic.Pipeline (Dat)
open Cert.KernelIdeal Cert.KernelIdeal.Gen

/-! ## Real-valued arrays have a real-valued product -/

/-- A finite sum of real numbers, taken in the extended reals, is a real number. -/
theorem isReal_sum {ι : Type} [DecidableEq ι] (f : ι → EReal) (s : Finset ι) :
    (∀ i ∈ s, ∃ r : ℝ, f i = (r : EReal)) → ∃ r : ℝ, ∑ i ∈ s, f i = (r : EReal) := by
  refine Finset.induction_on s (fun _ => ⟨0, by rw [Finset.sum_empty, EReal.coe_zero]⟩) ?_
  intro a s ha ih h
  obtain ⟨r1, h1⟩ := h a (Finset.mem_insert_self a s)
  obtain ⟨r2, h2⟩ := ih (fun i hi => h i (Finset.mem_insert_of_mem hi))
  exact ⟨r1 + r2, by rw [Finset.sum_insert ha, h1, h2, EReal.coe_add]⟩

/-- Each entry of the product is a finite sum of products of two real numbers. -/
theorem mm_real {n k c : Nat} (h : Arr n k) (W : Arr k c) (hh : IsReal h) (hW : IsReal W) : IsReal (mm h W) := by
  intro i
  show ∃ r : ℝ, ∑ κ : Fin k, h (ix2 (i 0) κ) * W (ix2 κ (i 1)) = (r : EReal)
  refine isReal_sum _ Finset.univ fun κ _ => ?_
  obtain ⟨a, ha⟩ := hh (ix2 (i 0) κ)
  obtain ⟨b, hb⟩ := hW (ix2 κ (i 1))
  exact ⟨a * b, by rw [ha, hb, EReal.coe_mul]⟩

/-! ## The contraction sums -/

/-! ### Dimension numbers `dot_S2000x512_S512x128_S2000x128_1_0_0_1_n_n`: the operand indices at output index (p, q) and contraction index κ -/

theorem lhs0_k512 (i : Cert.KernelIdeal.S2000x128.Idx) (κ : Cert.KernelIdeal.dot_S2000x512_S512x128_S2000x128_1_0_0_1_n_n.contr.Idx) :
    (Cert.KernelIdeal.dot_S2000x512_S512x128_S2000x128_1_0_0_1_n_n.lhsIdx i κ 0).val = (i 0).val := by
  unfold DotDims.lhsIdx
  rw [dif_neg (show ¬(0 : Fin Cert.KernelIdeal.S2000x512.rank) ∈ Cert.KernelIdeal.dot_S2000x512_S512x128_S2000x128_1_0_0_1_n_n.lhsBatch by decide), dif_pos (show (0 : Fin Cert.KernelIdeal.S2000x512.rank) ∈ Cert.KernelIdeal.dot_S2000x512_S512x128_S2000x128_1_0_0_1_n_n.lhsNonContracting by decide)]
  rfl
theorem lhs1_k512 (i : Cert.KernelIdeal.S2000x128.Idx) (κ : Cert.KernelIdeal.dot_S2000x512_S512x128_S2000x128_1_0_0_1_n_n.contr.Idx) :
    (Cert.KernelIdeal.dot_S2000x512_S512x128_S2000x128_1_0_0_1_n_n.lhsIdx i κ 1).val = (κ ⟨0, by decide⟩).val :=
  Cert.KernelIdeal.dot_S2000x512_S512x128_S2000x128_1_0_0_1_n_n.lhsIdx_val_of_single rfl i κ
theorem rhs0_k512 (i : Cert.KernelIdeal.S2000x128.Idx) (κ : Cert.KernelIdeal.dot_S2000x512_S512x128_S2000x128_1_0_0_1_n_n.contr.Idx) :
    (Cert.KernelIdeal.dot_S2000x512_S512x128_S2000x128_1_0_0_1_n_n.rhsIdx i κ 0).val = (κ ⟨0, by decide⟩).val :=
  Cert.KernelIdeal.dot_S2000x512_S512x128_S2000x128_1_0_0_1_n_n.rhsIdx_val_of_single rfl i κ
theorem rhs1_k512 (i : Cert.KernelIdeal.S2000x128.Idx) (κ : Cert.KernelIdeal.dot_S2000x512_S512x128_S2000x128_1_0_0_1_n_n.contr.Idx) :
    (Cert.KernelIdeal.dot_S2000x512_S512x128_S2000x128_1_0_0_1_n_n.rhsIdx i κ 1).val = (i 1).val := by
  unfold DotDims.rhsIdx
  rw [dif_neg (show ¬(1 : Fin Cert.KernelIdeal.S512x128.rank) ∈ Cert.KernelIdeal.dot_S2000x512_S512x128_S2000x128_1_0_0_1_n_n.rhsBatch by decide), dif_pos (show (1 : Fin Cert.KernelIdeal.S512x128.rank) ∈ Cert.KernelIdeal.dot_S2000x512_S512x128_S2000x128_1_0_0_1_n_n.rhsNonContracting by decide)]
  rfl

/-- The contraction sum of these dimension numbers at output index (p, q) is the sum over κ of l(p, κ) · r(κ, q). -/
theorem sum_k512 (l : Arr 2000 512) (r : Arr 512 128) (p : Fin 2000) (q : Fin 128) :
    ∑ κ : Cert.KernelIdeal.dot_S2000x512_S512x128_S2000x128_1_0_0_1_n_n.contr.Idx, l (Cert.KernelIdeal.dot_S2000x512_S512x128_S2000x128_1_0_0_1_n_n.lhsIdx (ix2 p q) κ) * r (Cert.KernelIdeal.dot_S2000x512_S512x128_S2000x128_1_0_0_1_n_n.rhsIdx (ix2 p q) κ)
      = ∑ κ : Fin 512, l (ix2 p κ) * r (ix2 κ q) := by
  rw [← Equiv.sum_comp (contrEquiv1 Cert.KernelIdeal.dot_S2000x512_S512x128_S2000x128_1_0_0_1_n_n 512 rfl rfl).symm]
  refine Finset.sum_congr rfl fun k _ => ?_
  have hk := contrEquiv1_symm_val Cert.KernelIdeal.dot_S2000x512_S512x128_S2000x128_1_0_0_1_n_n 512 rfl rfl k
  have el : Cert.KernelIdeal.dot_S2000x512_S512x128_S2000x128_1_0_0_1_n_n.lhsIdx (ix2 p q) ((contrEquiv1 Cert.KernelIdeal.dot_S2000x512_S512x128_S2000x128_1_0_0_1_n_n 512 rfl rfl).symm k) = ix2 p k := funext fun a => Fin.ext (by
    match a with
    | ⟨0, _⟩ => exact lhs0_k512 _ _
    | ⟨1, _⟩ => exact (lhs1_k512 _ _).trans hk)
  have er : Cert.KernelIdeal.dot_S2000x512_S512x128_S2000x128_1_0_0_1_n_n.rhsIdx (ix2 p q) ((contrEquiv1 Cert.KernelIdeal.dot_S2000x512_S512x128_S2000x128_1_0_0_1_n_n 512 rfl rfl).symm k) = ix2 k q := funext fun a => Fin.ext (by
    match a with
    | ⟨0, _⟩ => exact (rhs0_k512 _ _).trans hk
    | ⟨1, _⟩ => exact rhs1_k512 _ _)
  rw [el, er]

/-! ### Dimension numbers `dot_S2000x128_S128x128_S2000x128_1_0_0_1_n_n`: the operand indices at output index (p, q) and contraction index κ -/

theorem lhs0_k128 (i : Cert.KernelIdeal.S2000x128.Idx) (κ : Cert.KernelIdeal.dot_S2000x128_S128x128_S2000x128_1_0_0_1_n_n.contr.Idx) :
    (Cert.KernelIdeal.dot_S2000x128_S128x128_S2000x128_1_0_0_1_n_n.lhsIdx i κ 0).val = (i 0).val := by
  unfold DotDims.lhsIdx
  rw [dif_neg (show ¬(0 : Fin Cert.KernelIdeal.S2000x128.rank) ∈ Cert.KernelIdeal.dot_S2000x128_S128x128_S2000x128_1_0_0_1_n_n.lhsBatch by decide), dif_pos (show (0 : Fin Cert.KernelIdeal.S2000x128.rank) ∈ Cert.KernelIdeal.dot_S2000x128_S128x128_S2000x128_1_0_0_1_n_n.lhsNonContracting by decide)]
  rfl
theorem lhs1_k128 (i : Cert.KernelIdeal.S2000x128.Idx) (κ : Cert.KernelIdeal.dot_S2000x128_S128x128_S2000x128_1_0_0_1_n_n.contr.Idx) :
    (Cert.KernelIdeal.dot_S2000x128_S128x128_S2000x128_1_0_0_1_n_n.lhsIdx i κ 1).val = (κ ⟨0, by decide⟩).val :=
  Cert.KernelIdeal.dot_S2000x128_S128x128_S2000x128_1_0_0_1_n_n.lhsIdx_val_of_single rfl i κ
theorem rhs0_k128 (i : Cert.KernelIdeal.S2000x128.Idx) (κ : Cert.KernelIdeal.dot_S2000x128_S128x128_S2000x128_1_0_0_1_n_n.contr.Idx) :
    (Cert.KernelIdeal.dot_S2000x128_S128x128_S2000x128_1_0_0_1_n_n.rhsIdx i κ 0).val = (κ ⟨0, by decide⟩).val :=
  Cert.KernelIdeal.dot_S2000x128_S128x128_S2000x128_1_0_0_1_n_n.rhsIdx_val_of_single rfl i κ
theorem rhs1_k128 (i : Cert.KernelIdeal.S2000x128.Idx) (κ : Cert.KernelIdeal.dot_S2000x128_S128x128_S2000x128_1_0_0_1_n_n.contr.Idx) :
    (Cert.KernelIdeal.dot_S2000x128_S128x128_S2000x128_1_0_0_1_n_n.rhsIdx i κ 1).val = (i 1).val := by
  unfold DotDims.rhsIdx
  rw [dif_neg (show ¬(1 : Fin Cert.KernelIdeal.S128x128.rank) ∈ Cert.KernelIdeal.dot_S2000x128_S128x128_S2000x128_1_0_0_1_n_n.rhsBatch by decide), dif_pos (show (1 : Fin Cert.KernelIdeal.S128x128.rank) ∈ Cert.KernelIdeal.dot_S2000x128_S128x128_S2000x128_1_0_0_1_n_n.rhsNonContracting by decide)]
  rfl

/-- The contraction sum of these dimension numbers at output index (p, q) is the sum over κ of l(p, κ) · r(κ, q). -/
theorem sum_k128 (l : Arr 2000 128) (r : Arr 128 128) (p : Fin 2000) (q : Fin 128) :
    ∑ κ : Cert.KernelIdeal.dot_S2000x128_S128x128_S2000x128_1_0_0_1_n_n.contr.Idx, l (Cert.KernelIdeal.dot_S2000x128_S128x128_S2000x128_1_0_0_1_n_n.lhsIdx (ix2 p q) κ) * r (Cert.KernelIdeal.dot_S2000x128_S128x128_S2000x128_1_0_0_1_n_n.rhsIdx (ix2 p q) κ)
      = ∑ κ : Fin 128, l (ix2 p κ) * r (ix2 κ q) := by
  rw [← Equiv.sum_comp (contrEquiv1 Cert.KernelIdeal.dot_S2000x128_S128x128_S2000x128_1_0_0_1_n_n 128 rfl rfl).symm]
  refine Finset.sum_congr rfl fun k _ => ?_
  have hk := contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p q) ((contrEquiv1 Cert.KernelIdeal.dot_S2000x128_S128x128_S2000x128_1_0_0_1_n_n 128 rfl rfl).symm k) = ix2 p k := funext fun a => Fin.ext (by
    match a with
    | ⟨0, _⟩ => exact lhs0_k128 _ _
    | ⟨1, _⟩ => exact (lhs1_k128 _ _).trans hk)
  have er : Cert.KernelIdeal.dot_S2000x128_S128x128_S2000x128_1_0_0_1_n_n.rhsIdx (ix2 p q) ((contrEquiv1 Cert.KernelIdeal.dot_S2000x128_S128x128_S2000x128_1_0_0_1_n_n 128 rfl rfl).symm k) = ix2 k q := funext fun a => Fin.ext (by
    match a with
    | ⟨0, _⟩ => exact (rhs0_k128 _ _).trans hk
    | ⟨1, _⟩ => exact rhs1_k128 _ _)
  rw [el, er]

/-! ### Dimension numbers `dot_S2000x128_S128x2_S2000x2_1_0_0_1_n_n`: the operand indices at output index (p, q) and contraction index κ -/

theorem lhs0_k2 (i : Cert.KernelIdeal.S2000x2.Idx) (κ : Cert.KernelIdeal.dot_S2000x128_S128x2_S2000x2_1_0_0_1_n_n.contr.Idx) :
    (Cert.KernelIdeal.dot_S2000x128_S128x2_S2000x2_1_0_0_1_n_n.lhsIdx i κ 0).val = (i 0).val := by
  unfold DotDims.lhsIdx
  rw [dif_neg (show ¬(0 : Fin Cert.KernelIdeal.S2000x128.rank) ∈ Cert.KernelIdeal.dot_S2000x128_S128x2_S2000x2_1_0_0_1_n_n.lhsBatch by decide), dif_pos (show (0 : Fin Cert.KernelIdeal.S2000x128.rank) ∈ Cert.KernelIdeal.dot_S2000x128_S128x2_S2000x2_1_0_0_1_n_n.lhsNonContracting by decide)]
  rfl
theorem lhs1_k2 (i : Cert.KernelIdeal.S2000x2.Idx) (κ : Cert.KernelIdeal.dot_S2000x128_S128x2_S2000x2_1_0_0_1_n_n.contr.Idx) :
    (Cert.KernelIdeal.dot_S2000x128_S128x2_S2000x2_1_0_0_1_n_n.lhsIdx i κ 1).val = (κ ⟨0, by decide⟩).val :=
  Cert.KernelIdeal.dot_S2000x128_S128x2_S2000x2_1_0_0_1_n_n.lhsIdx_val_of_single rfl i κ
theorem rhs0_k2 (i : Cert.KernelIdeal.S2000x2.Idx) (κ : Cert.KernelIdeal.dot_S2000x128_S128x2_S2000x2_1_0_0_1_n_n.contr.Idx) :
    (Cert.KernelIdeal.dot_S2000x128_S128x2_S2000x2_1_0_0_1_n_n.rhsIdx i κ 0).val = (κ ⟨0, by decide⟩).val :=
  Cert.KernelIdeal.dot_S2000x128_S128x2_S2000x2_1_0_0_1_n_n.rhsIdx_val_of_single rfl i κ
theorem rhs1_k2 (i : Cert.KernelIdeal.S2000x2.Idx) (κ : Cert.KernelIdeal.dot_S2000x128_S128x2_S2000x2_1_0_0_1_n_n.contr.Idx) :
    (Cert.KernelIdeal.dot_S2000x128_S128x2_S2000x2_1_0_0_1_n_n.rhsIdx i κ 1).val = (i 1).val := by
  unfold DotDims.rhsIdx
  rw [dif_neg (show ¬(1 : Fin Cert.KernelIdeal.S128x2.rank) ∈ Cert.KernelIdeal.dot_S2000x128_S128x2_S2000x2_1_0_0_1_n_n.rhsBatch by decide), dif_pos (show (1 : Fin Cert.KernelIdeal.S128x2.rank) ∈ Cert.KernelIdeal.dot_S2000x128_S128x2_S2000x2_1_0_0_1_n_n.rhsNonContracting by decide)]
  rfl

/-- The contraction sum of these dimension numbers at output index (p, q) is the sum over κ of l(p, κ) · r(κ, q). -/
theorem sum_k2 (l : Arr 2000 128) (r : Arr 128 2) (p : Fin 2000) (q : Fin 2) :
    ∑ κ : Cert.KernelIdeal.dot_S2000x128_S128x2_S2000x2_1_0_0_1_n_n.contr.Idx, l (Cert.KernelIdeal.dot_S2000x128_S128x2_S2000x2_1_0_0_1_n_n.lhsIdx (ix2 p q) κ) * r (Cert.KernelIdeal.dot_S2000x128_S128x2_S2000x2_1_0_0_1_n_n.rhsIdx (ix2 p q) κ)
      = ∑ κ : Fin 128, l (ix2 p κ) * r (ix2 κ q) := by
  rw [← Equiv.sum_comp (contrEquiv1 Cert.KernelIdeal.dot_S2000x128_S128x2_S2000x2_1_0_0_1_n_n 128 rfl rfl).symm]
  refine Finset.sum_congr rfl fun k _ => ?_
  have hk := contrEquiv1_symm_val Cert.KernelIdeal.dot_S2000x128_S128x2_S2000x2_1_0_0_1_n_n 128 rfl rfl k
  have el : Cert.KernelIdeal.dot_S2000x128_S128x2_S2000x2_1_0_0_1_n_n.lhsIdx (ix2 p q) ((contrEquiv1 Cert.KernelIdeal.dot_S2000x128_S128x2_S2000x2_1_0_0_1_n_n 128 rfl rfl).symm k) = ix2 p k := funext fun a => Fin.ext (by
    match a with
    | ⟨0, _⟩ => exact lhs0_k2 _ _
    | ⟨1, _⟩ => exact (lhs1_k2 _ _).trans hk)
  have er : Cert.KernelIdeal.dot_S2000x128_S128x2_S2000x2_1_0_0_1_n_n.rhsIdx (ix2 p q) ((contrEquiv1 Cert.KernelIdeal.dot_S2000x128_S128x2_S2000x2_1_0_0_1_n_n 128 rfl rfl).symm k) = ix2 k q := funext fun a => Fin.ext (by
    match a with
    | ⟨0, _⟩ => exact (rhs0_k2 _ _).trans hk
    | ⟨1, _⟩ => exact rhs1_k2 _ _)
  rw [el, er]

/-! ### Dimension numbers `dot_S50000x512_S512x128_S50000x128_1_0_0_1_n_n`: the operand indices at output index (p, q) and contraction index κ -/

theorem lhs0_r512 (i : Cert.ReferenceIdeal.S50000x128.Idx) (κ : Cert.ReferenceIdeal.dot_S50000x512_S512x128_S50000x128_1_0_0_1_n_n.contr.Idx) :
    (Cert.ReferenceIdeal.dot_S50000x512_S512x128_S50000x128_1_0_0_1_n_n.lhsIdx i κ 0).val = (i 0).val := by
  unfold DotDims.lhsIdx
  rw [dif_neg (show ¬(0 : Fin Cert.ReferenceIdeal.S50000x512.rank) ∈ Cert.ReferenceIdeal.dot_S50000x512_S512x128_S50000x128_1_0_0_1_n_n.lhsBatch by decide), dif_pos (show (0 : Fin Cert.ReferenceIdeal.S50000x512.rank) ∈ Cert.ReferenceIdeal.dot_S50000x512_S512x128_S50000x128_1_0_0_1_n_n.lhsNonContracting by decide)]
  rfl
theorem lhs1_r512 (i : Cert.ReferenceIdeal.S50000x128.Idx) (κ : Cert.ReferenceIdeal.dot_S50000x512_S512x128_S50000x128_1_0_0_1_n_n.contr.Idx) :
    (Cert.ReferenceIdeal.dot_S50000x512_S512x128_S50000x128_1_0_0_1_n_n.lhsIdx i κ 1).val = (κ ⟨0, by decide⟩).val :=
  Cert.ReferenceIdeal.dot_S50000x512_S512x128_S50000x128_1_0_0_1_n_n.lhsIdx_val_of_single rfl i κ
theorem rhs0_r512 (i : Cert.ReferenceIdeal.S50000x128.Idx) (κ : Cert.ReferenceIdeal.dot_S50000x512_S512x128_S50000x128_1_0_0_1_n_n.contr.Idx) :
    (Cert.ReferenceIdeal.dot_S50000x512_S512x128_S50000x128_1_0_0_1_n_n.rhsIdx i κ 0).val = (κ ⟨0, by decide⟩).val :=
  Cert.ReferenceIdeal.dot_S50000x512_S512x128_S50000x128_1_0_0_1_n_n.rhsIdx_val_of_single rfl i κ
theorem rhs1_r512 (i : Cert.ReferenceIdeal.S50000x128.Idx) (κ : Cert.ReferenceIdeal.dot_S50000x512_S512x128_S50000x128_1_0_0_1_n_n.contr.Idx) :
    (Cert.ReferenceIdeal.dot_S50000x512_S512x128_S50000x128_1_0_0_1_n_n.rhsIdx i κ 1).val = (i 1).val := by
  unfold DotDims.rhsIdx
  rw [dif_neg (show ¬(1 : Fin Cert.ReferenceIdeal.S512x128.rank) ∈ Cert.ReferenceIdeal.dot_S50000x512_S512x128_S50000x128_1_0_0_1_n_n.rhsBatch by decide), dif_pos (show (1 : Fin Cert.ReferenceIdeal.S512x128.rank) ∈ Cert.ReferenceIdeal.dot_S50000x512_S512x128_S50000x128_1_0_0_1_n_n.rhsNonContracting by decide)]
  rfl

/-- The contraction sum of these dimension numbers at output index (p, q) is the sum over κ of l(p, κ) · r(κ, q). -/
theorem sum_r512 (l : Arr 50000 512) (r : Arr 512 128) (p : Fin 50000) (q : Fin 128) :
    ∑ κ : Cert.ReferenceIdeal.dot_S50000x512_S512x128_S50000x128_1_0_0_1_n_n.contr.Idx, l (Cert.ReferenceIdeal.dot_S50000x512_S512x128_S50000x128_1_0_0_1_n_n.lhsIdx (ix2 p q) κ) * r (Cert.ReferenceIdeal.dot_S50000x512_S512x128_S50000x128_1_0_0_1_n_n.rhsIdx (ix2 p q) κ)
      = ∑ κ : Fin 512, l (ix2 p κ) * r (ix2 κ q) := by
  rw [← Equiv.sum_comp (contrEquiv1 Cert.ReferenceIdeal.dot_S50000x512_S512x128_S50000x128_1_0_0_1_n_n 512 rfl rfl).symm]
  refine Finset.sum_congr rfl fun k _ => ?_
  have hk := contrEquiv1_symm_val Cert.ReferenceIdeal.dot_S50000x512_S512x128_S50000x128_1_0_0_1_n_n 512 rfl rfl k
  have el : Cert.ReferenceIdeal.dot_S50000x512_S512x128_S50000x128_1_0_0_1_n_n.lhsIdx (ix2 p q) ((contrEquiv1 Cert.ReferenceIdeal.dot_S50000x512_S512x128_S50000x128_1_0_0_1_n_n 512 rfl rfl).symm k) = ix2 p k := funext fun a => Fin.ext (by
    match a with
    | ⟨0, _⟩ => exact lhs0_r512 _ _
    | ⟨1, _⟩ => exact (lhs1_r512 _ _).trans hk)
  have er : Cert.ReferenceIdeal.dot_S50000x512_S512x128_S50000x128_1_0_0_1_n_n.rhsIdx (ix2 p q) ((contrEquiv1 Cert.ReferenceIdeal.dot_S50000x512_S512x128_S50000x128_1_0_0_1_n_n 512 rfl rfl).symm k) = ix2 k q := funext fun a => Fin.ext (by
    match a with
    | ⟨0, _⟩ => exact (rhs0_r512 _ _).trans hk
    | ⟨1, _⟩ => exact rhs1_r512 _ _)
  rw [el, er]

/-! ### Dimension numbers `dot_S50000x128_S128x128_S50000x128_1_0_0_1_n_n`: the operand indices at output index (p, q) and contraction index κ -/

theorem lhs0_r128 (i : Cert.ReferenceIdeal.S50000x128.Idx) (κ : Cert.ReferenceIdeal.dot_S50000x128_S128x128_S50000x128_1_0_0_1_n_n.contr.Idx) :
    (Cert.ReferenceIdeal.dot_S50000x128_S128x128_S50000x128_1_0_0_1_n_n.lhsIdx i κ 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs1_r128 (i : Cert.ReferenceIdeal.S50000x128.Idx) (κ : Cert.ReferenceIdeal.dot_S50000x128_S128x128_S50000x128_1_0_0_1_n_n.contr.Idx) :
    (Cert.ReferenceIdeal.dot_S50000x128_S128x128_S50000x128_1_0_0_1_n_n.lhsIdx i κ 1).val = (κ ⟨0, by decide⟩).val :=
  Cert.ReferenceIdeal.dot_S50000x128_S128x128_S50000x128_1_0_0_1_n_n.lhsIdx_val_of_single rfl i κ
theorem rhs0_r128 (i : Cert.ReferenceIdeal.S50000x128.Idx) (κ : Cert.ReferenceIdeal.dot_S50000x128_S128x128_S50000x128_1_0_0_1_n_n.contr.Idx) :
    (Cert.ReferenceIdeal.dot_S50000x128_S128x128_S50000x128_1_0_0_1_n_n.rhsIdx i κ 0).val = (κ ⟨0, by decide⟩).val :=
  Cert.ReferenceIdeal.dot_S50000x128_S128x128_S50000x128_1_0_0_1_n_n.rhsIdx_val_of_single rfl i κ
theorem rhs1_r128 (i : Cert.ReferenceIdeal.S50000x128.Idx) (κ : Cert.ReferenceIdeal.dot_S50000x128_S128x128_S50000x128_1_0_0_1_n_n.contr.Idx) :
    (Cert.ReferenceIdeal.dot_S50000x128_S128x128_S50000x128_1_0_0_1_n_n.rhsIdx i κ 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The contraction sum of these dimension numbers at output index (p, q) is the sum over κ of l(p, κ) · r(κ, q). -/
theorem sum_r128 (l : Arr 50000 128) (r : Arr 128 128) (p : Fin 50000) (q : Fin 128) :
    ∑ κ : Cert.ReferenceIdeal.dot_S50000x128_S128x128_S50000x128_1_0_0_1_n_n.contr.Idx, l (Cert.ReferenceIdeal.dot_S50000x128_S128x128_S50000x128_1_0_0_1_n_n.lhsIdx (ix2 p q) κ) * r (Cert.ReferenceIdeal.dot_S50000x128_S128x128_S50000x128_1_0_0_1_n_n.rhsIdx (ix2 p q) κ)
      = ∑ κ : Fin 128, l (ix2 p κ) * r (ix2 κ q) := by
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q) ((contrEquiv1 Cert.ReferenceIdeal.dot_S50000x128_S128x128_S50000x128_1_0_0_1_n_n 128 rfl rfl).symm k) = ix2 p k := funext fun a => Fin.ext (by
    match a with
    | ⟨0, _⟩ => exact lhs0_r128 _ _
    | ⟨1, _⟩ => exact (lhs1_r128 _ _).trans hk)
  have er : Cert.ReferenceIdeal.dot_S50000x128_S128x128_S50000x128_1_0_0_1_n_n.rhsIdx (ix2 p q) ((contrEquiv1 Cert.ReferenceIdeal.dot_S50000x128_S128x128_S50000x128_1_0_0_1_n_n 128 rfl rfl).symm k) = ix2 k q := funext fun a => Fin.ext (by
    match a with
    | ⟨0, _⟩ => exact (rhs0_r128 _ _).trans hk
    | ⟨1, _⟩ => exact rhs1_r128 _ _)
  rw [el, er]

/-! ### Dimension numbers `dot_S50000x128_S128x2_S50000x2_1_0_0_1_n_n`: the operand indices at output index (p, q) and contraction index κ -/

theorem lhs0_r2 (i : Cert.ReferenceIdeal.S50000x2.Idx) (κ : Cert.ReferenceIdeal.dot_S50000x128_S128x2_S50000x2_1_0_0_1_n_n.contr.Idx) :
    (Cert.ReferenceIdeal.dot_S50000x128_S128x2_S50000x2_1_0_0_1_n_n.lhsIdx i κ 0).val = (i 0).val := by
  unfold DotDims.lhsIdx
  rw [dif_neg (show ¬(0 : Fin Cert.ReferenceIdeal.S50000x128.rank) ∈ Cert.ReferenceIdeal.dot_S50000x128_S128x2_S50000x2_1_0_0_1_n_n.lhsBatch by decide), dif_pos (show (0 : Fin Cert.ReferenceIdeal.S50000x128.rank) ∈ Cert.ReferenceIdeal.dot_S50000x128_S128x2_S50000x2_1_0_0_1_n_n.lhsNonContracting by decide)]
  rfl
theorem lhs1_r2 (i : Cert.ReferenceIdeal.S50000x2.Idx) (κ : Cert.ReferenceIdeal.dot_S50000x128_S128x2_S50000x2_1_0_0_1_n_n.contr.Idx) :
    (Cert.ReferenceIdeal.dot_S50000x128_S128x2_S50000x2_1_0_0_1_n_n.lhsIdx i κ 1).val = (κ ⟨0, by decide⟩).val :=
  Cert.ReferenceIdeal.dot_S50000x128_S128x2_S50000x2_1_0_0_1_n_n.lhsIdx_val_of_single rfl i κ
theorem rhs0_r2 (i : Cert.ReferenceIdeal.S50000x2.Idx) (κ : Cert.ReferenceIdeal.dot_S50000x128_S128x2_S50000x2_1_0_0_1_n_n.contr.Idx) :
    (Cert.ReferenceIdeal.dot_S50000x128_S128x2_S50000x2_1_0_0_1_n_n.rhsIdx i κ 0).val = (κ ⟨0, by decide⟩).val :=
  Cert.ReferenceIdeal.dot_S50000x128_S128x2_S50000x2_1_0_0_1_n_n.rhsIdx_val_of_single rfl i κ
theorem rhs1_r2 (i : Cert.ReferenceIdeal.S50000x2.Idx) (κ : Cert.ReferenceIdeal.dot_S50000x128_S128x2_S50000x2_1_0_0_1_n_n.contr.Idx) :
    (Cert.ReferenceIdeal.dot_S50000x128_S128x2_S50000x2_1_0_0_1_n_n.rhsIdx i κ 1).val = (i 1).val := by
  unfold DotDims.rhsIdx
  rw [dif_neg (show ¬(1 : Fin Cert.ReferenceIdeal.S128x2.rank) ∈ Cert.ReferenceIdeal.dot_S50000x128_S128x2_S50000x2_1_0_0_1_n_n.rhsBatch by decide), dif_pos (show (1 : Fin Cert.ReferenceIdeal.S128x2.rank) ∈ Cert.ReferenceIdeal.dot_S50000x128_S128x2_S50000x2_1_0_0_1_n_n.rhsNonContracting by decide)]
  rfl

/-- The contraction sum of these dimension numbers at output index (p, q) is the sum over κ of l(p, κ) · r(κ, q). -/
theorem sum_r2 (l : Arr 50000 128) (r : Arr 128 2) (p : Fin 50000) (q : Fin 2) :
    ∑ κ : Cert.ReferenceIdeal.dot_S50000x128_S128x2_S50000x2_1_0_0_1_n_n.contr.Idx, l (Cert.ReferenceIdeal.dot_S50000x128_S128x2_S50000x2_1_0_0_1_n_n.lhsIdx (ix2 p q) κ) * r (Cert.ReferenceIdeal.dot_S50000x128_S128x2_S50000x2_1_0_0_1_n_n.rhsIdx (ix2 p q) κ)
      = ∑ κ : Fin 128, l (ix2 p κ) * r (ix2 κ q) := by
  rw [← Equiv.sum_comp (contrEquiv1 Cert.ReferenceIdeal.dot_S50000x128_S128x2_S50000x2_1_0_0_1_n_n 128 rfl rfl).symm]
  refine Finset.sum_congr rfl fun k _ => ?_
  have hk := contrEquiv1_symm_val Cert.ReferenceIdeal.dot_S50000x128_S128x2_S50000x2_1_0_0_1_n_n 128 rfl rfl k
  have el : Cert.ReferenceIdeal.dot_S50000x128_S128x2_S50000x2_1_0_0_1_n_n.lhsIdx (ix2 p q) ((contrEquiv1 Cert.ReferenceIdeal.dot_S50000x128_S128x2_S50000x2_1_0_0_1_n_n 128 rfl rfl).symm k) = ix2 p k := funext fun a => Fin.ext (by
    match a with
    | ⟨0, _⟩ => exact lhs0_r2 _ _
    | ⟨1, _⟩ => exact (lhs1_r2 _ _).trans hk)
  have er : Cert.ReferenceIdeal.dot_S50000x128_S128x2_S50000x2_1_0_0_1_n_n.rhsIdx (ix2 p q) ((contrEquiv1 Cert.ReferenceIdeal.dot_S50000x128_S128x2_S50000x2_1_0_0_1_n_n 128 rfl rfl).symm k) = ix2 k q := funext fun a => Fin.ext (by
    match a with
    | ⟨0, _⟩ => exact (rhs0_r2 _ _).trans hk
    | ⟨1, _⟩ => exact rhs1_r2 _ _)
  rw [el, er]

/-! ## The reference's dense products -/

/-- The reference's dense product of a 50000×512 array with a 512×128 array is `mm`. -/
theorem dot_eq_mm_512 (h : Arr 50000 512) (W : Arr 512 128) :
    Host.dotGeneral (F := Ideal) (φ₁ := .f32) (φ₂ := .f32) Cert.ReferenceIdeal.dot_S50000x512_S512x128_S50000x128_1_0_0_1_n_n none h W = mm h W := by
  funext i
  obtain ⟨p, q, rfl⟩ : ∃ (p : Fin 50000) (q : Fin 128), i = ix2 p q := ⟨i 0, i 1, eq_ix2 i⟩
  simp only [Host.dotGeneral]
  rw [Ideal.dotGeneral_apply]
  exact sum_r512 h W p q

/-- The reference's dense product of a 50000×128 array with a 128×128 array is `mm`. -/
theorem dot_eq_mm_128 (h : Arr 50000 128) (W : Arr 128 128) :
    Host.dotGeneral (F := Ideal) (φ₁ := .f32) (φ₂ := .f32) Cert.ReferenceIdeal.dot_S50000x128_S128x128_S50000x128_1_0_0_1_n_n none h W = mm h W := by
  funext i
  obtain ⟨p, q, rfl⟩ : ∃ (p : Fin 50000) (q : Fin 128), i = ix2 p q := ⟨i 0, i 1, eq_ix2 i⟩
  simp only [Host.dotGeneral]
  rw [Ideal.dotGeneral_apply]
  exact sum_r128 h W p q

/-- The reference's dense product of a 50000×128 array with a 128×2 array is `mm`. -/
theorem dot_eq_mm_2 (h : Arr 50000 128) (W : Arr 128 2) :
    Host.dotGeneral (F := Ideal) (φ₁ := .f32) (φ₂ := .f32) Cert.ReferenceIdeal.dot_S50000x128_S128x2_S50000x2_1_0_0_1_n_n none h W = mm h W := by
  funext i
  obtain ⟨p, q, rfl⟩ : ∃ (p : Fin 50000) (q : Fin 2), i = ix2 p q := ⟨i 0, i 1, eq_ix2 i⟩
  simp only [Host.dotGeneral]
  rw [Ideal.dotGeneral_apply]
  exact sum_r2 h W p q

/-! ## The kernel's regions -/

theorem hz : (![0, 0] : Fin 2 → Nat) = fun _ => 0 := funext fun a => by fin_cases a <;> rfl

/-! ## Region 0: the 50000×512 by 512×128 product, 25 row blocks of 2000 rows -/

/-- The body's result at (p, q): the contraction sum of the two loaded blocks. -/
theorem pay0_apply (x0 : Vec Ideal S2000x512 .f32) (x1 : Vec Ideal S512x128 .f32) (p : Fin 2000) (q : Fin 128) :
    k0_pay1 (F := Ideal) x0 x1 (ix2 p q) = ∑ κ : Fin 512, x0 (ix2 p κ) * x1 (ix2 κ q) := by
  unfold k0_pay1
  refine (Ideal.matmul_constant_zero_apply Cert.KernelIdeal.dot_S2000x512_S512x128_S2000x128_1_0_0_1_n_n none _ _ (ix2 p q)).trans ?_
  exact sum_k512 x0 x1 p q

/-- If the left block holds row r of A at its row p, and the right block holds B, the body's result at (p, q) is
    entry (r, q) of the product of A and B. -/
theorem pay0_block (A : Arr 50000 512) (B : Arr 512 128) (x0 : Vec Ideal S2000x512 .f32) (x1 : Vec Ideal S512x128 .f32)
    (p : Fin 2000) (q : Fin 128) (r : Fin 50000)
    (h0 : ∀ κ : Fin 512, x0 (ix2 p κ) = A (ix2 r κ)) (h1 : ∀ κ : Fin 512, x1 (ix2 κ q) = B (ix2 κ q)) :
    k0_pay1 (F := Ideal) x0 x1 (ix2 p q) = mm A B (ix2 r q) := by
  rw [pay0_apply]
  show _ = ∑ κ : Fin 512, A (ix2 r κ) * B (ix2 κ q)
  exact Finset.sum_congr rfl fun κ _ => by rw [h0 κ, h1 κ]

/-- The block indices over the grid: the left operand and the output move with the point along the rows, the right
    operand stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (mm (n := 50000) (k := 512) (c := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts0 t
  have ht : t.val < 25 := by have h : t.val < cfg0.N := t.isLt; have hN : cfg0.N = 25 := N_0; omega
  funext j
  obtain ⟨p, q, rfl⟩ : ∃ (p : Fin 2000) (q : Fin 128), j = ix2 p q := ⟨j 0, j 1, eq_ix2 j⟩
  have hp : p.val < 2000 := p.isLt
  have hemb : ((cfg0.win 2).blk t).view.emb (ix2 p q) = ix2 (⟨2000 * t.val + p.val, by omega⟩ : Fin 50000) q := by
    funext a; apply Fin.ext
    match a with
    | ⟨0, _⟩ => show win0_2.index t (0 : Fin 2) * 2000 + 1 * p.val = 2000 * t.val + p.val; omega
    | ⟨1, _⟩ => show win0_2.index t (1 : Fin 2) * 128 + 1 * q.val = q.val; omega
  show k0_pay1 (iblk0 V c 0 t) (iblk0 V c 1 t) (ix2 p q) = mm (n := 50000) (k := 512) (c := 128) (V c (Pipeline.arrRef spec0 0)) (V c (Pipeline.arrRef spec0 1)) (((cfg0.win 2).blk t).view.emb (ix2 p q))
  rw [hemb]
  refine pay0_block _ _ _ _ p q _ (fun κ => ?_) (fun κ => ?_)
  · show V c (Pipeline.arrRef spec0 0) (((cfg0.win 0).blk t).view.emb (ix2 p κ)) = V c (Pipeline.arrRef spec0 0) (ix2 (⟨2000 * t.val + p.val, by omega⟩ : Fin 50000) κ)
    refine congrArg _ ?_
    funext a; apply Fin.ext
    match a with
    | ⟨0, _⟩ => show win0_0.index t (0 : Fin 2) * 2000 + 1 * p.val = 2000 * t.val + p.val; omega
    | ⟨1, _⟩ => show win0_0.index t (1 : Fin 2) * 512 + 1 * κ.val = κ.val; omega
  · show V c (Pipeline.arrRef spec0 1) (((cfg0.win 1).blk t).view.emb (ix2 κ q)) = V c (Pipeline.arrRef spec0 1) (ix2 κ q)
    refine congrArg _ ?_
    funext a; apply Fin.ext
    match a with
    | ⟨0, _⟩ => show win0_1.index t (0 : Fin 2) * 512 + 1 * κ.val = κ.val; omega
    | ⟨1, _⟩ => show win0_1.index t (1 : Fin 2) * 128 + 1 * q.val = q.val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Row r of the output lies in the block of point r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, htv⟩ : ∃ t : Fin cfg0.N, t.val = (i 0).val / 2000 := ⟨⟨(i 0).val / 2000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array of region 0 after its run is the product of its two input arrays as the region finds them. -/
theorem mm0_final (V : (c : Dev nD) → (b : Ref sig .tc) → Buf (Elt Ideal) ((c : Thread nD τ).loc b)) (c : Dev nD) :
    (dat0 (F := Ideal) V c).arrAt 2 cfg0.N
      = mm (n := 50000) (k := 512) (c := 128) (V c (Pipeline.arrRef spec0 0)) (V c (Pipeline.arrRef spec0 1)) :=
  (dat0 (F := Ideal) V c).arrAt_eq_of_cover 2
    (mm (n := 50000) (k := 512) (c := 128) (V c (Pipeline.arrRef spec0 0)) (V c (Pipeline.arrRef spec0 1)))
    (fun t _ => flushed0_eq V c t) cover0

/-! ## Region 2: the 50000×128 by 128×128 product, 25 row blocks of 2000 rows -/

/-- The body's result at (p, q): the contraction sum of the two loaded blocks. -/
theorem pay2_apply (x0 : Vec Ideal S2000x128 .f32) (x1 : Vec Ideal S128x128 .f32) (p : Fin 2000) (q : Fin 128) :
    k2_pay1 (F := Ideal) x0 x1 (ix2 p q) = ∑ κ : Fin 128, x0 (ix2 p κ) * x1 (ix2 κ q) := by
  unfold k2_pay1
  refine (Ideal.matmul_constant_zero_apply Cert.KernelIdeal.dot_S2000x128_S128x128_S2000x128_1_0_0_1_n_n none _ _ (ix2 p q)).trans ?_
  simp only [shapeCast_self]
  exact sum_k128 x0 x1 p q

/-- If the left block holds row r of A at its row p, and the right block holds B, the body's result at (p, q) is
    entry (r, q) of the product of A and B. -/
theorem pay2_block (A : Arr 50000 128) (B : Arr 128 128) (x0 : Vec Ideal S2000x128 .f32) (x1 : Vec Ideal S128x128 .f32)
    (p : Fin 2000) (q : Fin 128) (r : Fin 50000)
    (h0 : ∀ κ : Fin 128, x0 (ix2 p κ) = A (ix2 r κ)) (h1 : ∀ κ : Fin 128, x1 (ix2 κ q) = B (ix2 κ q)) :
    k2_pay1 (F := Ideal) x0 x1 (ix2 p q) = mm A B (ix2 r q) := by
  rw [pay2_apply]
  show _ = ∑ κ : Fin 128, A (ix2 r κ) * B (ix2 κ q)
  exact Finset.sum_congr rfl fun κ _ => by rw [h0 κ, h1 κ]

/-- The block indices over the grid: the left operand and the output move with the point along the rows, the right
    operand stays at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (mm (n := 50000) (k := 128) (c := 128) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts2 t
  have ht : t.val < 25 := by have h : t.val < cfg2.N := t.isLt; have hN : cfg2.N = 25 := N_2; omega
  funext j
  obtain ⟨p, q, rfl⟩ : ∃ (p : Fin 2000) (q : Fin 128), j = ix2 p q := ⟨j 0, j 1, eq_ix2 j⟩
  have hp : p.val < 2000 := p.isLt
  have hemb : ((cfg2.win 2).blk t).view.emb (ix2 p q) = ix2 (⟨2000 * t.val + p.val, by omega⟩ : Fin 50000) q := by
    funext a; apply Fin.ext
    match a with
    | ⟨0, _⟩ => show win2_2.index t (0 : Fin 2) * 2000 + 1 * p.val = 2000 * t.val + p.val; omega
    | ⟨1, _⟩ => show win2_2.index t (1 : Fin 2) * 128 + 1 * q.val = q.val; omega
  show k2_pay1 (iblk2 V c 0 t) (iblk2 V c 1 t) (ix2 p q) = mm (n := 50000) (k := 128) (c := 128) (V c (Pipeline.arrRef spec2 0)) (V c (Pipeline.arrRef spec2 1)) (((cfg2.win 2).blk t).view.emb (ix2 p q))
  rw [hemb]
  refine pay2_block _ _ _ _ p q _ (fun κ => ?_) (fun κ => ?_)
  · show V c (Pipeline.arrRef spec2 0) (((cfg2.win 0).blk t).view.emb (ix2 p κ)) = V c (Pipeline.arrRef spec2 0) (ix2 (⟨2000 * t.val + p.val, by omega⟩ : Fin 50000) κ)
    refine congrArg _ ?_
    funext a; apply Fin.ext
    match a with
    | ⟨0, _⟩ => show win2_0.index t (0 : Fin 2) * 2000 + 1 * p.val = 2000 * t.val + p.val; omega
    | ⟨1, _⟩ => show win2_0.index t (1 : Fin 2) * 128 + 1 * κ.val = κ.val; omega
  · show V c (Pipeline.arrRef spec2 1) (((cfg2.win 1).blk t).view.emb (ix2 κ q)) = V c (Pipeline.arrRef spec2 1) (ix2 κ q)
    refine congrArg _ ?_
    funext a; apply Fin.ext
    match a with
    | ⟨0, _⟩ => show win2_1.index t (0 : Fin 2) * 128 + 1 * κ.val = κ.val; omega
    | ⟨1, _⟩ => show win2_1.index t (1 : Fin 2) * 128 + 1 * q.val = q.val; omega

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v55).slice (win2_2.rect t)).set ↔ _
  rw [View.set_slice_whole, Rect.mem_set_unit]
  exact Iff.rfl

/-- Row r of the output lies in the block of point r / 2000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  obtain ⟨t, htv⟩ : ∃ t : Fin cfg2.N, t.val = (i 0).val / 2000 := ⟨⟨(i 0).val / 2000, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array of region 2 after its run is the product of its two input arrays as the region finds them. -/
theorem mm2_final (V : (c : Dev nD) → (b : Ref sig .tc) → Buf (Elt Ideal) ((c : Thread nD τ).loc b)) (c : Dev nD) :
    (dat2 (F := Ideal) V c).arrAt 2 cfg2.N
      = mm (n := 50000) (k := 128) (c := 128) (V c (Pipeline.arrRef spec2 0)) (V c (Pipeline.arrRef spec2 1)) :=
  (dat2 (F := Ideal) V c).arrAt_eq_of_cover 2
    (mm (n := 50000) (k := 128) (c := 128) (V c (Pipeline.arrRef spec2 0)) (V c (Pipeline.arrRef spec2 1)))
    (fun t _ => flushed2_eq V c t) cover2

/-! ## Region 4: the 50000×128 by 128×128 product, 25 row blocks of 2000 rows -/

/-- The body's result at (p, q): the contraction sum of the two loaded blocks. -/
theorem pay4_apply (x0 : Vec Ideal S2000x128 .f32) (x1 : Vec Ideal S128x128 .f32) (p : Fin 2000) (q : Fin 128) :
    k4_pay1 (F := Ideal) x0 x1 (ix2 p q) = ∑ κ : Fin 128, x0 (ix2 p κ) * x1 (ix2 κ q) := by
  unfold k4_pay1
  refine (Ideal.matmul_constant_zero_apply Cert.KernelIdeal.dot_S2000x128_S128x128_S2000x128_1_0_0_1_n_n none _ _ (ix2 p q)).trans ?_
  simp only [shapeCast_self]
  exact sum_k128 x0 x1 p q

/-- If the left block holds row r of A at its row p, and the right block holds B, the body's result at (p, q) is
    entry (r, q) of the product of A and B. -/
theorem pay4_block (A : Arr 50000 128) (B : Arr 128 128) (x0 : Vec Ideal S2000x128 .f32) (x1 : Vec Ideal S128x128 .f32)
    (p : Fin 2000) (q : Fin 128) (r : Fin 50000)
    (h0 : ∀ κ : Fin 128, x0 (ix2 p κ) = A (ix2 r κ)) (h1 : ∀ κ : Fin 128, x1 (ix2 κ q) = B (ix2 κ q)) :
    k4_pay1 (F := Ideal) x0 x1 (ix2 p q) = mm A B (ix2 r q) := by
  rw [pay4_apply]
  show _ = ∑ κ : Fin 128, A (ix2 r κ) * B (ix2 κ q)
  exact Finset.sum_congr rfl fun κ _ => by rw [h0 κ, h1 κ]

/-- The block indices over the grid: the left operand and the output move with the point along the rows, the right
    operand stays at its one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (mm (n := 50000) (k := 128) (c := 128) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4, e5⟩ := idx_facts4 t
  have ht : t.val < 25 := by have h : t.val < cfg4.N := t.isLt; have hN : cfg4.N = 25 := N_4; omega
  funext j
  obtain ⟨p, q, rfl⟩ : ∃ (p : Fin 2000) (q : Fin 128), j = ix2 p q := ⟨j 0, j 1, eq_ix2 j⟩
  have hp : p.val < 2000 := p.isLt
  have hemb : ((cfg4.win 2).blk t).view.emb (ix2 p q) = ix2 (⟨2000 * t.val + p.val, by omega⟩ : Fin 50000) q := by
    funext a; apply Fin.ext
    match a with
    | ⟨0, _⟩ => show win4_2.index t (0 : Fin 2) * 2000 + 1 * p.val = 2000 * t.val + p.val; omega
    | ⟨1, _⟩ => show win4_2.index t (1 : Fin 2) * 128 + 1 * q.val = q.val; omega
  show k4_pay1 (iblk4 V c 0 t) (iblk4 V c 1 t) (ix2 p q) = mm (n := 50000) (k := 128) (c := 128) (V c (Pipeline.arrRef spec4 0)) (V c (Pipeline.arrRef spec4 1)) (((cfg4.win 2).blk t).view.emb (ix2 p q))
  rw [hemb]
  refine pay4_block _ _ _ _ p q _ (fun κ => ?_) (fun κ => ?_)
  · show V c (Pipeline.arrRef spec4 0) (((cfg4.win 0).blk t).view.emb (ix2 p κ)) = V c (Pipeline.arrRef spec4 0) (ix2 (⟨2000 * t.val + p.val, by omega⟩ : Fin 50000) κ)
    refine congrArg _ ?_
    funext a; apply Fin.ext
    match a with
    | ⟨0, _⟩ => show win4_0.index t (0 : Fin 2) * 2000 + 1 * p.val = 2000 * t.val + p.val; omega
    | ⟨1, _⟩ => show win4_0.index t (1 : Fin 2) * 128 + 1 * κ.val = κ.val; omega
  · show V c (Pipeline.arrRef spec4 1) (((cfg4.win 1).blk t).view.emb (ix2 κ q)) = V c (Pipeline.arrRef spec4 1) (ix2 κ q)
    refine congrArg _ ?_
    funext a; apply Fin.ext
    match a with
    | ⟨0, _⟩ => show win4_1.index t (0 : Fin 2) * 128 + 1 * κ.val = κ.val; omega
    | ⟨1, _⟩ => show win4_1.index t (1 : Fin 2) * 128 + 1 * q.val = q.val; omega

/-- An index of the output array is in point t's block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v79).slice (win4_2.rect t)).set ↔ _
  rw [View.set_slice_whole, Rect.mem_set_unit]
  exact Iff.rfl

/-- Row r of the output lies in the block of point r / 2000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, htv⟩ : ∃ t : Fin cfg4.N, t.val = (i 0).val / 2000 := ⟨⟨(i 0).val / 2000, by rw [hN]; omega⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array of region 4 after its run is the product of its two input arrays as the region finds them. -/
theorem mm4_final (V : (c : Dev nD) → (b : Ref sig .tc) → Buf (Elt Ideal) ((c : Thread nD τ).loc b)) (c : Dev nD) :
    (dat4 (F := Ideal) V c).arrAt 2 cfg4.N
      = mm (n := 50000) (k := 128) (c := 128) (V c (Pipeline.arrRef spec4 0)) (V c (Pipeline.arrRef spec4 1)) :=
  (dat4 (F := Ideal) V c).arrAt_eq_of_cover 2
    (mm (n := 50000) (k := 128) (c := 128) (V c (Pipeline.arrRef spec4 0)) (V c (Pipeline.arrRef spec4 1)))
    (fun t _ => flushed4_eq V c t) cover4

/-! ## Region 6: the 50000×128 by 128×2 product, 25 row blocks of 2000 rows -/

/-- The body's result at (p, q): the contraction sum of the two loaded blocks. -/
theorem pay6_apply (x0 : Vec Ideal S2000x128 .f32) (x1 : Vec Ideal S128x2 .f32) (p : Fin 2000) (q : Fin 2) :
    k6_pay1 (F := Ideal) x0 x1 (ix2 p q) = ∑ κ : Fin 128, x0 (ix2 p κ) * x1 (ix2 κ q) := by
  unfold k6_pay1
  refine (Ideal.matmul_constant_zero_apply Cert.KernelIdeal.dot_S2000x128_S128x2_S2000x2_1_0_0_1_n_n none _ _ (ix2 p q)).trans ?_
  simp only [shapeCast_self]
  exact sum_k2 x0 x1 p q

/-- If the left block holds row r of A at its row p, and the right block holds B, the body's result at (p, q) is
    entry (r, q) of the product of A and B. -/
theorem pay6_block (A : Arr 50000 128) (B : Arr 128 2) (x0 : Vec Ideal S2000x128 .f32) (x1 : Vec Ideal S128x2 .f32)
    (p : Fin 2000) (q : Fin 2) (r : Fin 50000)
    (h0 : ∀ κ : Fin 128, x0 (ix2 p κ) = A (ix2 r κ)) (h1 : ∀ κ : Fin 128, x1 (ix2 κ q) = B (ix2 κ q)) :
    k6_pay1 (F := Ideal) x0 x1 (ix2 p q) = mm A B (ix2 r q) := by
  rw [pay6_apply]
  show _ = ∑ κ : Fin 128, A (ix2 r κ) * B (ix2 κ q)
  exact Finset.sum_congr rfl fun κ _ => by rw [h0 κ, h1 κ]

/-- The block indices over the grid: the left operand and the output move with the point along the rows, the right
    operand stays at its one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays as the region finds them. -/
theorem flushed6_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal)
      (mm (n := 50000) (k := 128) (c := 2) (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S2000x128) hz, View.ld_unit_zero (S := S128x2) hz]
  obtain ⟨e0, e1, e2, e3, e4, e5⟩ := idx_facts6 t
  have ht : t.val < 25 := by have h : t.val < cfg6.N := t.isLt; have hN : cfg6.N = 25 := N_6; omega
  funext j
  obtain ⟨p, q, rfl⟩ : ∃ (p : Fin 2000) (q : Fin 2), j = ix2 p q := ⟨j 0, j 1, eq_ix2 j⟩
  have hp : p.val < 2000 := p.isLt
  have hemb : ((cfg6.win 2).blk t).view.emb (ix2 p q) = ix2 (⟨2000 * t.val + p.val, by omega⟩ : Fin 50000) q := by
    funext a; apply Fin.ext
    match a with
    | ⟨0, _⟩ => show win6_2.index t (0 : Fin 2) * 2000 + 1 * p.val = 2000 * t.val + p.val; omega
    | ⟨1, _⟩ => show win6_2.index t (1 : Fin 2) * 2 + 1 * q.val = q.val; omega
  show k6_pay1 (iblk6 V c 0 t) (iblk6 V c 1 t) (ix2 p q) = mm (n := 50000) (k := 128) (c := 2) (V c (Pipeline.arrRef spec6 0)) (V c (Pipeline.arrRef spec6 1)) (((cfg6.win 2).blk t).view.emb (ix2 p q))
  rw [hemb]
  refine pay6_block _ _ _ _ p q _ (fun κ => ?_) (fun κ => ?_)
  · show V c (Pipeline.arrRef spec6 0) (((cfg6.win 0).blk t).view.emb (ix2 p κ)) = V c (Pipeline.arrRef spec6 0) (ix2 (⟨2000 * t.val + p.val, by omega⟩ : Fin 50000) κ)
    refine congrArg _ ?_
    funext a; apply Fin.ext
    match a with
    | ⟨0, _⟩ => show win6_0.index t (0 : Fin 2) * 2000 + 1 * p.val = 2000 * t.val + p.val; omega
    | ⟨1, _⟩ => show win6_0.index t (1 : Fin 2) * 128 + 1 * κ.val = κ.val; omega
  · show V c (Pipeline.arrRef spec6 1) (((cfg6.win 1).blk t).view.emb (ix2 κ q)) = V c (Pipeline.arrRef spec6 1) (ix2 κ q)
    refine congrArg _ ?_
    funext a; apply Fin.ext
    match a with
    | ⟨0, _⟩ => show win6_1.index t (0 : Fin 2) * 128 + 1 * κ.val = κ.val; omega
    | ⟨1, _⟩ => show win6_1.index t (1 : Fin 2) * 2 + 1 * q.val = q.val; omega

/-- An index of the output array is in point t's block iff each coordinate is in the block's range on its axis. -/
theorem mem_blk6 (t : Fin cfg6.N) (i : S50000x2.Idx) :
    i ∈ ((cfg6.win 2).blk t).view.set ↔ ∀ a : Fin 2, win6_2.index t a * S2000x2.size a ≤ (i a).val ∧ (i a).val < win6_2.index t a * S2000x2.size a + S2000x2.size a := by
  show i ∈ ((View.whole main_v103).slice (win6_2.rect t)).set ↔ _
  rw [View.set_slice_whole, Rect.mem_set_unit]
  exact Iff.rfl

/-- Row r of the output lies in the block of point r / 2000. -/
theorem cover6 (i : S50000x2.Idx) : ∃ t : Fin cfg6.N, (cfg6.win 2).flush t = true ∧ i ∈ ((cfg6.win 2).blk t).view.set := by
  have hi0 : (i 0).val < 50000 := (i 0).isLt
  have hi1 : (i 1).val < 2 := (i 1).isLt
  have hN : cfg6.N = 25 := N_6
  obtain ⟨t, htv⟩ : ∃ t : Fin cfg6.N, t.val = (i 0).val / 2000 := ⟨⟨(i 0).val / 2000, by rw [hN]; omega⟩, rfl⟩
  obtain ⟨-, -, -, -, e4, e5⟩ := idx_facts6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 2 ≤ (i 1).val ∧ (i 1).val < win6_2.index t (1 : Fin 2) * 2 + 2; omega

/-- The output array of region 6 after its run is the product of its two input arrays as the region finds them. -/
theorem mm6_final (V : (c : Dev nD) → (b : Ref sig .tc) → Buf (Elt Ideal) ((c : Thread nD τ).loc b)) (c : Dev nD) :
    (dat6 (F := Ideal) V c).arrAt 2 cfg6.N
      = mm (n := 50000) (k := 128) (c := 2) (V c (Pipeline.arrRef spec6 0)) (V c (Pipeline.arrRef spec6 1)) :=
  (dat6 (F := Ideal) V c).arrAt_eq_of_cover 2
    (mm (n := 50000) (k := 128) (c := 2) (V c (Pipeline.arrRef spec6 0)) (V c (Pipeline.arrRef spec6 1)))
    (fun t _ => flushed6_eq V c t) cover6

end Cert.Gcn.MatMul

end
-- ==== Proof.KernelValue.lean ====
/-
  What the kernel program returns, as one function of its arguments.

  Reading the run boundary by boundary: each dense-product region leaves `mm` of its two operands, each
  scale-shift region leaves `ssr` of its three, the last region leaves `lsm`; each host stretch between them
  leaves the aggregation of the dense product along the edges and the folded scale and shift of the next layer.
  The edge data and the arguments are read back unchanged at every boundary where they are used.
-/
import proofs.«152642_j38920993636608_1_alg».proof.Proof.KeepTable
import proofs.«152642_j38920993636608_1_alg».proof.Proof.Edges
import proofs.«152642_j38920993636608_1_alg».proof.Proof.Stretches
import proofs.«152642_j38920993636608_1_alg».proof.Proof.MatMul
import proofs.«152642_j38920993636608_1_alg».proof.Proof.ScaleShift
import proofs.«152642_j38920993636608_1_alg».proof.Proof.LogSoftmax

set_option maxRecDepth 16384

noncomputable section

namespace Cert.KernelIdeal.Hand

open Cert.KernelIdeal Cert.KernelIdeal.Gen
open Idealize.ShloMosaic Idealize.ShloMosaic.TcCoe Idealize.SL.Sem
open Cert.Gcn Cert.Gcn.HostOps

variable (m : (ℓ : Loc nD τ sig) → Buf (Elt Ideal) ℓ) (ρ : Dev nD → PrngReg) (c : Dev nD)

/-! ## The layers as functions of the launch memory -/

/-- The aggregation along the edges of an edge list (128 columns). -/
def kAgg (e : IVec S2x800000 32) (a : FVec Ideal S50000x128 .f32) : FVec Ideal S50000x128 .f32 :=
  aggregate128 a (srcOf (F := Ideal) e) (dstOf (F := Ideal) e) (normOf (F := Ideal) e)

/-- One hidden layer after its dense product: aggregate, then scale, shift and clamp per column. -/
def kHidden (e : IVec S2x800000 32) (a : FVec Ideal S50000x128 .f32) (b g be mu v : FVec Ideal S128 .f32) : FVec Ideal S50000x128 .f32 :=
  ssr (kAgg e a) (row128 (scaleOf g v)) (row128 (shiftOf b be mu (scaleOf g v)))

/-- The last layer after its dense product: aggregate, add the bias, take the row-wise log-softmax. -/
def kLast (e : IVec S2x800000 32) (a : FVec Ideal S50000x2 .f32) (b : FVec Ideal S2 .f32) : FVec Ideal S50000x2 .f32 :=
  lsm (aggregate2 a (srcOf (F := Ideal) e) (dstOf (F := Ideal) e) (normOf (F := Ideal) e)) (row2 b)

def kA1 : FVec Ideal S50000x128 .f32 := mm (n := 50000) (k := 512) (c := 128) (m ((c : Thread nD τ).loc main_arg0)) (m ((c : Thread nD τ).loc main_arg2))
def kH1 : FVec Ideal S50000x128 .f32 := kHidden (m ((c : Thread nD τ).loc main_arg1)) (kA1 m c) (m ((c : Thread nD τ).loc main_arg3)) (m ((c : Thread nD τ).loc main_arg10)) (m ((c : Thread nD τ).loc main_arg11)) (m ((c : Thread nD τ).loc main_arg12)) (m ((c : Thread nD τ).loc main_arg13))
def kA2 : FVec Ideal S50000x128 .f32 := mm (n := 50000) (k := 128) (c := 128) (kH1 m c) (m ((c : Thread nD τ).loc main_arg4))
def kH2 : FVec Ideal S50000x128 .f32 := kHidden (m ((c : Thread nD τ).loc main_arg1)) (kA2 m c) (m ((c : Thread nD τ).loc main_arg5)) (m ((c : Thread nD τ).loc main_arg14)) (m ((c : Thread nD τ).loc main_arg15)) (m ((c : Thread nD τ).loc main_arg16)) (m ((c : Thread nD τ).loc main_arg17))
def kA3 : FVec Ideal S50000x128 .f32 := mm (n := 50000) (k := 128) (c := 128) (kH2 m c) (m ((c : Thread nD τ).loc main_arg6))
def kH3 : FVec Ideal S50000x128 .f32 := kHidden (m ((c : Thread nD τ).loc main_arg1)) (kA3 m c) (m ((c : Thread nD τ).loc main_arg7)) (m ((c : Thread nD τ).loc main_arg18)) (m ((c : Thread nD τ).loc main_arg19)) (m ((c : Thread nD τ).loc main_arg20)) (m ((c : Thread nD τ).loc main_arg21))
def kA4 : FVec Ideal S50000x2 .f32 := mm (n := 50000) (k := 128) (c := 2) (kH3 m c) (m ((c : Thread nD τ).loc main_arg8))
/-- The returned array. -/
def kOut : FVec Ideal S50000x2 .f32 := kLast (m ((c : Thread nD τ).loc main_arg1)) (kA4 m c) (m ((c : Thread nD τ).loc main_arg9))

/-! ## The run, boundary by boundary -/

set_option maxHeartbeats 4000000 in
theorem a1_eq : W4 m ρ c (Proc.devRef .tc main_v31) = kA1 m c :=
  (W4_arr m ρ c 2).trans ((MatMul.mm0_final (V3 m ρ) c).trans (by
    rw [show V3 m ρ c (Pipeline.arrRef spec0 0) = _ from arg0_W3 m ρ c,
      show V3 m ρ c (Pipeline.arrRef spec0 1) = _ from arg2_W3 m ρ c]; rfl))

set_option maxHeartbeats 4000000 in
theorem h1_eq : W6 m ρ c (Proc.devRef .tc main_v54) = kH1 m c :=
  (W6_arr m ρ c 3).trans ((ScaleShift.ssr1_final (V5 m ρ) c).trans (by
    rw [show V5 m ρ c (Pipeline.arrRef spec1 0) = _ from stretch1_agg m ρ c,
      show V5 m ρ c (Pipeline.arrRef spec1 1) = _ from stretch1_scale m ρ c,
      show V5 m ρ c (Pipeline.arrRef spec1 2) = _ from stretch1_shift m ρ c,
      a1_eq m ρ c, v3_W4 m ρ c, v6_W4 m ρ c, v30_W4 m ρ c, v3_W3 m ρ c, v6_W3 m ρ c, v30_W3 m ρ c,
      arg3_W4 m ρ c, arg10_W4 m ρ c, arg11_W4 m ρ c, arg12_W4 m ρ c, arg13_W4 m ρ c]; rfl))

set_option maxHeartbeats 4000000 in
theorem a2_eq : W7 m ρ c (Proc.devRef .tc main_v55) = kA2 m c :=
  (W7_arr m ρ c 2).trans ((MatMul.mm2_final (V6 m ρ) c).trans (by
    rw [show V6 m ρ c (Pipeline.arrRef spec2 0) = _ from h1_eq m ρ c,
      show V6 m ρ c (Pipeline.arrRef spec2 1) = _ from arg4_W6 m ρ c]; rfl))

set_option maxHeartbeats 4000000 in
theorem h2_eq : W9 m ρ c (Proc.devRef .tc main_v78) = kH2 m c :=
  (W9_arr m ρ c 3).trans ((ScaleShift.ssr3_final (V8 m ρ) c).trans (by
    rw [show V8 m ρ c (Pipeline.arrRef spec3 0) = _ from stretch3_agg m ρ c,
      show V8 m ρ c (Pipeline.arrRef spec3 1) = _ from stretch3_scale m ρ c,
      show V8 m ρ c (Pipeline.arrRef spec3 2) = _ from stretch3_shift m ρ c,
      a2_eq m ρ c, v3_W7 m ρ c, v6_W7 m ρ c, v30_W7 m ρ c, v3_W3 m ρ c, v6_W3 m ρ c, v30_W3 m ρ c,
      arg5_W7 m ρ c, arg14_W7 m ρ c, arg15_W7 m ρ c, arg16_W7 m ρ c, arg17_W7 m ρ c]; rfl))

set_option maxHeartbeats 4000000 in
theorem a3_eq : W10 m ρ c (Proc.devRef .tc main_v79) = kA3 m c :=
  (W10_arr m ρ c 2).trans ((MatMul.mm4_final (V9 m ρ) c).trans (by
    rw [show V9 m ρ c (Pipeline.arrRef spec4 0) = _ from h2_eq m ρ c,
      show V9 m ρ c (Pipeline.arrRef spec4 1) = _ from arg6_W9 m ρ c]; rfl))

set_option maxHeartbeats 4000000 in
theorem h3_eq : W12 m ρ c (Proc.devRef .tc main_v102) = kH3 m c :=
  (W12_arr m ρ c 3).trans ((ScaleShift.ssr5_final (V11 m ρ) c).trans (by
    rw [show V11 m ρ c (Pipeline.arrRef spec5 0) = _ from stretch5_agg m ρ c,
      show V11 m ρ c (Pipeline.arrRef spec5 1) = _ from stretch5_scale m ρ c,
      show V11 m ρ c (Pipeline.arrRef spec5 2) = _ from stretch5_shift m ρ c,
      a3_eq m ρ c, v3_W10 m ρ c, v6_W10 m ρ c, v30_W10 m ρ c, v3_W3 m ρ c, v6_W3 m ρ c, v30_W3 m ρ c,
      arg7_W10 m ρ c, arg18_W10 m ρ c, arg19_W10 m ρ c, arg20_W10 m ρ c, arg21_W10 m ρ c]; rfl))

set_option maxHeartbeats 4000000 in
theorem a4_eq : W13 m ρ c (Proc.devRef .tc main_v103) = kA4 m c :=
  (W13_arr m ρ c 2).trans ((MatMul.mm6_final (V12 m ρ) c).trans (by
    rw [show V12 m ρ c (Pipeline.arrRef spec6 0) = _ from h3_eq m ρ c,
      show V12 m ρ c (Pipeline.arrRef spec6 1) = _ from arg8_W12 m ρ c]; rfl))

set_option maxHeartbeats 4000000 in
/-- THE KERNEL PROGRAM'S RESULT: what the last boundary holds in the returned buffer. -/
theorem kernel_value : W15 m ρ c (Proc.devRef .tc main_v117) = kOut m c :=
  (W15_arr m ρ c 2).trans ((LogSoftmax.lsm7_final (V14 m ρ) c).trans (by
    rw [show V14 m ρ c (Pipeline.arrRef spec7 0) = _ from stretch7_agg m ρ c,
      show V14 m ρ c (Pipeline.arrRef spec7 1) = _ from stretch7_bias m ρ c,
      a4_eq m ρ c, v3_W13 m ρ c, v6_W13 m ρ c, v30_W13 m ρ c, v3_W3 m ρ c, v6_W3 m ρ c, v30_W3 m ρ c,
      arg9_W13 m ρ c]; rfl))

end Cert.KernelIdeal.Hand

end
-- ==== Proof.Aggregate.lean ====
/-
  The neighbourhood aggregation keeps real arrays real.

  A gather only copies entries of its operand, so it maps a real array to a real array whatever the indices are.
  A scatter-add puts at each index the operand's entry plus a finite sum of update entries, so a real operand and
  real updates give a real result.  Hence the aggregated array is real as soon as the dense product that feeds it
  and the edge weights are.
-/
import proofs.«152642_j38920993636608_1_alg».proof.Proof.Spec
import proofs.«152642_j38920993636608_1_alg».proof.Proof.HostOps
import Idealize.ShloMosaic.PureOps.Ideal.Laws

noncomputable section

namespace Cert.Gcn.Aggregate

open Idealize.ShloMosaic Idealize.ShloMosaic.TcCoe
open Cert.KernelIdeal Cert.KernelIdeal.Facts₀ Cert.KernelIdeal.Facts
open Cert.Gcn Cert.Gcn.HostOps

/-- A finite sum of reals is real. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self _ _)
    obtain ⟨q, hq⟩ := ih (fun i hi => h i (Finset.mem_insert_of_mem hi))
    exact ⟨r + q, by rw [Finset.sum_insert ha, hr, hq, EReal.coe_add]⟩

/-- A product of two reals is real. -/
theorem mul_real {x y : EReal} (hx : ∃ r : ℝ, x = (r : EReal)) (hy : ∃ r : ℝ, y = (r : EReal)) : ∃ r : ℝ, x * y = (r : EReal) := by
  obtain ⟨r, rfl⟩ := hx
  obtain ⟨q, rfl⟩ := hy
  exact ⟨r * q, (EReal.coe_mul r q).symm⟩

/-- Gathered entries are entries of the operand. -/
theorem gather_real {s si t : Shape} {w : Nat} (d : GatherDims s si t) (x : s.Idx → EReal) (idx : IVec si w) (hx : IsReal x) :
    IsReal (Host.gather d x idx) := fun j => hx _

/-- A scatter-add of real updates into a real operand is real. -/
theorem scatterAdd_real {s si su : Shape} {w : Nat} (d : ScatterDims s si su) (x : FVec Ideal s .f32) (idx : IVec si w)
    (u : FVec Ideal su .f32) (hx : IsReal x) (hu : IsReal u) : IsReal (Host.scatterAdd d x idx u) := fun i => by
  obtain ⟨r, hr⟩ := hx i
  obtain ⟨q, hq⟩ := sum_real (Finset.univ.filter fun j => d.resultIdx? j idx = some i) u (fun j _ => hu j)
  refine ⟨r + q, ?_⟩
  show x i + ∑ j ∈ Finset.univ.filter (fun j => d.resultIdx? j idx = some i), u j = _
  rw [hr, hq, EReal.coe_add]

/-- A broadcast reads entries of its operand. -/
theorem bcast_real {s t : Shape} (dims : Fin s.rank → Fin t.rank) (h : s.BroadcastsInDim t dims) (x : FVec Ideal s .f32) (hx : IsReal x) :
    IsReal (broadcastInDim t dims h x) := fun j => hx _

/-- The aggregation of a real array with real edge weights is real (128 columns). -/
theorem aggregate128_real (a : FVec Ideal S50000x128 .f32) (s d : IVec S850000 32) (n : FVec Ideal S850000x1 .f32)
    (ha : IsReal a) (hn : IsReal n) : IsReal (aggregate128 a s d n) := by
  unfold aggregate128
  refine scatterAdd_real _ _ _ _ (fun j => ⟨0, ?_⟩) (fun j => mul_real (gather_real _ _ _ ha j) (bcast_real _ _ _ hn j))
  show Ideal.ofBits .f32 0x00000000#32 = _
  rw [Ideal.ofBits_zero_f32]; rfl

end Cert.Gcn.Aggregate

end
-- ==== Proof.Bridge.lean ====
/-
  The two programs compute one function.

  Layer by layer.  A layer's dense product is the same sum of products in both programs.  The aggregation along the
  edges is the same operations applied to it, and keeps it real.  After the aggregation the reference adds the bias,
  subtracts the running mean, multiplies by s = g · rsqrt (v + ε) and adds β, where the kernel program multiplies by s
  and adds the folded shift (b · s + β) − μ · s: the two agree because every operand is a real number — the inputs by
  the precondition, the variances nonnegative so that v + ε > 0 and s is real, the aggregated array by the layer
  before — and over the reals the product distributes.  The clamp at zero keeps the layer's output real, which feeds
  the next layer.  The last layer ends in the same row-wise log-softmax, which needs no finiteness.
-/
import proofs.«152642_j38920993636608_1_alg».proof.Proof.KernelValue
import proofs.«152642_j38920993636608_1_alg».proof.Proof.Aggregate

set_option maxRecDepth 16384

noncomputable section

namespace Cert.Gcn.Bridge

open Idealize.ShloMosaic Idealize.ShloMosaic.TcCoe Idealize.SL.Sem
open Cert.KernelIdeal Cert.KernelIdeal.Hand
open Cert.Gcn Cert.Gcn.HostOps

/-- A hidden layer after its dense product, when everything is real: the kernel program's folded form is the
    reference's unfolded one, and the result is real. -/
theorem hidden_eq (e : IVec S2x800000 32) (a : FVec Ideal S50000x128 .f32) (b g be mu v : FVec Ideal S128 .f32)
    (ha : IsReal a) (hb : IsReal b) (hg : IsReal g) (hbe : IsReal be) (hmu : IsReal mu) (hv : IsReal v) (hv0 : ∀ j, (0 : EReal) ≤ v j) :
    kHidden e a b g be mu v = ScaleShift.refForm (kAgg e a) b g be mu v ∧ IsReal (kHidden e a b g be mu v) := by
  have rg : IsReal (kAgg e a) := Aggregate.aggregate128_real _ _ _ _ ha (norm_real e)
  have key : kHidden e a b g be mu v = ScaleShift.refForm (kAgg e a) b g be mu v :=
    ScaleShift.ssr_eq_refForm (kAgg e a) b g be mu v rg hb hg hbe hmu hv hv0 Cert.KernelIdeal.Gen.shapeCasts_S128_S1x128
  exact ⟨key, key ▸ ScaleShift.refForm_real (kAgg e a) b g be mu v rg hb hg hbe hmu hv hv0⟩

/-! ## The reference's stages as functions of the argument arrays -/

section Stages
variable (x0 : FVec Ideal S50000x512 .f32) (x1 : IVec S2x800000 32) (x2 : FVec Ideal S512x128 .f32) (x3 : FVec Ideal S128 .f32)
  (x4 : FVec Ideal S128x128 .f32) (x5 : FVec Ideal S128 .f32) (x6 : FVec Ideal S128x128 .f32) (x7 : FVec Ideal S128 .f32)
  (x8 : FVec Ideal S128x2 .f32) (x9 : FVec Ideal S2 .f32) (x10 x11 x12 x13 x14 x15 x16 x17 x18 x19 x20 x21 : FVec Ideal S128 .f32)

/-- The reference's first hidden layer. -/
def rHid1 : FVec Ideal S50000x128 .f32 :=
  ScaleShift.refForm (kAgg x1 (Host.dotGeneral (F := Ideal) (φ₁ := .f32) (φ₂ := .f32) Cert.ReferenceIdeal.dot_S50000x512_S512x128_S50000x128_1_0_0_1_n_n none x0 x2)) x3 x10 x11 x12 x13
/-- Its second. -/
def rHid2 : FVec Ideal S50000x128 .f32 :=
  ScaleShift.refForm (kAgg x1 (Host.dotGeneral (F := Ideal) (φ₁ := .f32) (φ₂ := .f32) Cert.ReferenceIdeal.dot_S50000x128_S128x128_S50000x128_1_0_0_1_n_n none (rHid1 x0 x1 x2 x3 x10 x11 x12 x13) x4)) x5 x14 x15 x16 x17
/-- Its third. -/
def rHid3 : FVec Ideal S50000x128 .f32 :=
  ScaleShift.refForm (kAgg x1 (Host.dotGeneral (F := Ideal) (φ₁ := .f32) (φ₂ := .f32) Cert.ReferenceIdeal.dot_S50000x128_S128x128_S50000x128_1_0_0_1_n_n none (rHid2 x0 x1 x2 x3 x4 x5 x10 x11 x12 x13 x14 x15 x16 x17) x6)) x7 x18 x19 x20 x21
/-- Its result. -/
def rOut : FVec Ideal S50000x2 .f32 :=
  kLast x1 (Host.dotGeneral (F := Ideal) (φ₁ := .f32) (φ₂ := .f32) Cert.ReferenceIdeal.dot_S50000x128_S128x2_S50000x2_1_0_0_1_n_n none (rHid3 x0 x1 x2 x3 x4 x5 x6 x7 x10 x11 x12 x13 x14 x15 x16 x17 x18 x19 x20 x21) x8) x9

/-- THE BRIDGE: on real inputs with nonnegative variances the kernel program's network is the reference's. -/
theorem net_eq
    (r0 : IsReal x0) (r2 : IsReal x2) (r3 : IsReal x3) (r4 : IsReal x4) (r5 : IsReal x5) (r6 : IsReal x6) (r7 : IsReal x7) (r8 : IsReal x8)
    (r10 : IsReal x10) (r11 : IsReal x11) (r12 : IsReal x12) (r13 : IsReal x13) (r14 : IsReal x14) (r15 : IsReal x15) (r16 : IsReal x16)
    (r17 : IsReal x17) (r18 : IsReal x18) (r19 : IsReal x19) (r20 : IsReal x20) (r21 : IsReal x21)
    (n13 : ∀ j, (0 : EReal) ≤ x13 j) (n17 : ∀ j, (0 : EReal) ≤ x17 j) (n21 : ∀ j, (0 : EReal) ≤ x21 j) :
    kLast x1 (mm (n := 50000) (k := 128) (c := 2) (kHidden x1 (mm (n := 50000) (k := 128) (c := 128) (kHidden x1 (mm (n := 50000) (k := 128) (c := 128) (kHidden x1 (mm (n := 50000) (k := 512) (c := 128) x0 x2) x3 x10 x11 x12 x13) x4) x5 x14 x15 x16 x17) x6) x7 x18 x19 x20 x21) x8) x9
      = rOut x0 x1 x2 x3 x4 x5 x6 x7 x8 x9 x10 x11 x12 x13 x14 x15 x16 x17 x18 x19 x20 x21 := by
  -- layer 1
  have rA1 : IsReal (mm (n := 50000) (k := 512) (c := 128) x0 x2) := MatMul.mm_real _ _ r0 r2
  obtain ⟨H1, rH1⟩ := hidden_eq x1 _ x3 x10 x11 x12 x13 rA1 r3 r10 r11 r12 r13 n13
  have S1 : rHid1 x0 x1 x2 x3 x10 x11 x12 x13 = kHidden x1 (mm (n := 50000) (k := 512) (c := 128) x0 x2) x3 x10 x11 x12 x13 := by
    unfold rHid1; rw [MatMul.dot_eq_mm_512 x0 x2]; exact H1.symm
  -- layer 2
  have rA2 := MatMul.mm_real _ _ rH1 r4
  obtain ⟨H2, rH2⟩ := hidden_eq x1 _ x5 x14 x15 x16 x17 rA2 r5 r14 r15 r16 r17 n17
  have S2 : rHid2 x0 x1 x2 x3 x4 x5 x10 x11 x12 x13 x14 x15 x16 x17 = kHidden x1 (mm (n := 50000) (k := 128) (c := 128) (kHidden x1 (mm (n := 50000) (k := 512) (c := 128) x0 x2) x3 x10 x11 x12 x13) x4) x5 x14 x15 x16 x17 := by
    unfold rHid2; rw [S1, MatMul.dot_eq_mm_128 _ x4]; exact H2.symm
  -- layer 3
  have rA3 := MatMul.mm_real _ _ rH2 r6
  obtain ⟨H3, rH3⟩ := hidden_eq x1 _ x7 x18 x19 x20 x21 rA3 r7 r18 r19 r20 r21 n21
  have S3 : rHid3 x0 x1 x2 x3 x4 x5 x6 x7 x10 x11 x12 x13 x14 x15 x16 x17 x18 x19 x20 x21 = kHidden x1 (mm (n := 50000) (k := 128) (c := 128) (kHidden x1 (mm (n := 50000) (k := 128) (c := 128) (kHidden x1 (mm (n := 50000) (k := 512) (c := 128) x0 x2) x3 x10 x11 x12 x13) x4) x5 x14 x15 x16 x17) x6) x7 x18 x19 x20 x21 := by
    unfold rHid3; rw [S2, MatMul.dot_eq_mm_128 _ x6]; exact H3.symm
  -- the last layer
  unfold rOut
  rw [S3, MatMul.dot_eq_mm_2 _ x8]

end Stages

end Cert.Gcn.Bridge

end
-- ==== Proof.RefValue.lean ====
/-
  What the reference returns, as one function of its arguments.

  Its 183 host operations are read in five consecutive stretches.  The first leaves the edge data; each of the next
  three leaves a hidden layer as a function of the previous layer, the layer's arguments and the edge data; the last
  leaves the log-softmax of the last layer.  No later stretch writes the arguments or the edge data, so each stretch
  finds them as the first stretch left them.
-/
import proofs.«152642_j38920993636608_1_alg».proof.Proof.RefRunRaw
import proofs.«152642_j38920993636608_1_alg».proof.Proof.RefEdges
import proofs.«152642_j38920993636608_1_alg».proof.Proof.RefLayers
import proofs.«152642_j38920993636608_1_alg».proof.Proof.RefLast
import proofs.«152642_j38920993636608_1_alg».proof.Proof.Bridge

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo
open Cert.Gcn Cert.Gcn.HostOps Cert.Gcn.Bridge

variable (V : Valuation τ sig (Elt Ideal))

/-- The contents after the first stretch, the second, … -/
abbrev U0 : Valuation τ sig (Elt Ideal) := StableHlo.after opsR0 V
abbrev U1 : Valuation τ sig (Elt Ideal) := StableHlo.after opsR1 (U0 V)
abbrev U2 : Valuation τ sig (Elt Ideal) := StableHlo.after opsR2 (U1 V)
abbrev U3 : Valuation τ sig (Elt Ideal) := StableHlo.after opsR3 (U2 V)

/-- An argument is found unchanged after the first stretch, … -/
theorem arg_U0 (b : Ref sig .tc) (hb : b ∈ argRefs) : U0 V (Proc.devRef .tc b) = V (Proc.devRef .tc b) := keep0_arg V b hb
theorem arg_U1 (b : Ref sig .tc) (hb : b ∈ argRefs) : U1 V (Proc.devRef .tc b) = V (Proc.devRef .tc b) :=
  (keep1_kept (U0 V) b (List.mem_append_left _ hb)).trans (arg_U0 V b hb)
theorem arg_U2 (b : Ref sig .tc) (hb : b ∈ argRefs) : U2 V (Proc.devRef .tc b) = V (Proc.devRef .tc b) :=
  (keep2_kept (U1 V) b (List.mem_append_left _ hb)).trans (arg_U1 V b hb)
theorem arg_U3 (b : Ref sig .tc) (hb : b ∈ argRefs) : U3 V (Proc.devRef .tc b) = V (Proc.devRef .tc b) :=
  (keep3_kept (U2 V) b (List.mem_append_left _ hb)).trans (arg_U2 V b hb)

/-- The edge data are found as the first stretch left them. -/
theorem edge_U1 (b : Ref sig .tc) (hb : b ∈ [main_v3, main_v6, main_v30]) : U1 V (Proc.devRef .tc b) = U0 V (Proc.devRef .tc b) :=
  keep1_kept (U0 V) b (List.mem_append_right _ hb)
theorem edge_U2 (b : Ref sig .tc) (hb : b ∈ [main_v3, main_v6, main_v30]) : U2 V (Proc.devRef .tc b) = U0 V (Proc.devRef .tc b) :=
  (keep2_kept (U1 V) b (List.mem_append_right _ hb)).trans (edge_U1 V b hb)
theorem edge_U3 (b : Ref sig .tc) (hb : b ∈ [main_v3, main_v6, main_v30]) : U3 V (Proc.devRef .tc b) = U0 V (Proc.devRef .tc b) :=
  (keep3_kept (U2 V) b (List.mem_append_right _ hb)).trans (edge_U2 V b hb)

set_option maxHeartbeats 4000000 in
/-- THE REFERENCE'S RESULT over any start contents: the network of the start contents' argument arrays. -/
theorem ref_value_of : StableHlo.after (ops (F := Ideal)) V (Proc.devRef .tc main_v137)
    = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [ops_eq, after_append', after_append', after_append', after_append']
  refine (r4_v137 (U3 V)).trans ?_
  rw [arg_U3 V main_arg8 (by decide), arg_U3 V main_arg9 (by decide), edge_U3 V main_v3 (by decide), edge_U3 V main_v6 (by decide),
    edge_U3 V main_v30 (by decide), show U3 V (Proc.devRef .tc main_v120) = _ from r3_v120 (U2 V)]
  rw [arg_U2 V main_arg6 (by decide), arg_U2 V main_arg7 (by decide), arg_U2 V main_arg18 (by decide), arg_U2 V main_arg19 (by decide),
    arg_U2 V main_arg20 (by decide), arg_U2 V main_arg21 (by decide), edge_U2 V main_v3 (by decide), edge_U2 V main_v6 (by decide),
    edge_U2 V main_v30 (by decide), show U2 V (Proc.devRef .tc main_v90) = _ from r2_v90 (U1 V)]
  rw [arg_U1 V main_arg4 (by decide), arg_U1 V main_arg5 (by decide), arg_U1 V main_arg14 (by decide), arg_U1 V main_arg15 (by decide),
    arg_U1 V main_arg16 (by decide), arg_U1 V main_arg17 (by decide), edge_U1 V main_v3 (by decide), edge_U1 V main_v6 (by decide),
    edge_U1 V main_v30 (by decide), show U1 V (Proc.devRef .tc main_v60) = _ from r1_v60 (U0 V)]
  rw [arg_U0 V main_arg0 (by decide), arg_U0 V main_arg2 (by decide), arg_U0 V main_arg3 (by decide), arg_U0 V main_arg10 (by decide),
    arg_U0 V main_arg11 (by decide), arg_U0 V main_arg12 (by decide), arg_U0 V main_arg13 (by decide),
    show U0 V (Proc.devRef .tc main_v3) = _ from r0_v3 V, show U0 V (Proc.devRef .tc main_v6) = _ from r0_v6 V,
    show U0 V (Proc.devRef .tc main_v30) = _ from r0_v30 V]
  rfl

/-- THE REFERENCE'S RESULT from a launch memory. -/
theorem ref_value (m : (ℓ : Loc nD τ sig) → Buf (Elt Ideal) ℓ) (c : Dev nD) :
    StableHlo.after (ops (F := Ideal)) (launchContents m c) (Proc.devRef .tc main_v137)
    = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  ref_value_of (launchContents m c)

end Cert.ReferenceIdeal.Hand

end
-- ==== Proof.RunValued.lean ====
/-
  The idealized kernel program's run, with its result named.

  The program is eight kernel regions among stretches of host operations.  Its run threads the contents of every
  buffer from one boundary to the next: a host stretch applies its operations, a region replaces its output array
  by what its grid points write back.  Here that run is stated once more with the returned buffer read off the
  last boundary's contents; what those contents are, as a function of the arguments, is worked out elsewhere.
-/
import proofs.«152642_j38920993636608_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the returned buffer then holds what the last boundary's
    contents say, and every argument array is as launched. -/
theorem run_valued : θ_run defs (onTc (τ := τ) (main (F := F))) ⟨m, fun _ => 0, ρ⟩ (fun r => ∀ c : Dev nD,
      r.2.mem ((c.tc : Thread nD τ).loc main_v117) = W15 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v117 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c)⟩)

end Cert.KernelIdeal.Hand

end
-- ==== Proof.PreDecode.lean ====
/-
  The precondition on the argument arrays, read back as facts about their entries.

  The precondition is a conjunction of one-bit words: for each of the 21 floating-point arguments, "every
  entry x satisfies |x| < +∞", and for three of the one-axis arguments, "every entry v satisfies v ≥ 0".
  Over the extended reals |x| is max x (−x), and |x| < ⊤ holds exactly when x is a real number.
-/
import proofs.«152642_j38920993636608_1_alg».proof.Defs
import proofs.«152642_j38920993636608_1_alg».proof.Proof.Spec
import Idealize.ShloMosaic.Lib.ReduceAll
import Idealize.ShloMosaic.Lib.ValueIdx

noncomputable section

namespace Cert.Gcn.PreDecode

open Idealize.ShloMosaic

/-- The shape with no axes has exactly one index. -/
instance : Subsingleton Cert.Pre_finite_inputs.S_.Idx := ⟨fun a b => funext fun d => d.elim0⟩

/-- The word 0x7F800000 read as a single-precision pattern is +∞. -/
theorem ofBits_inf_f32 : Ideal.ofBits .f32 0x7F800000#32 = (⊤ : EReal) := by
  simp [Ideal.ofBits, Ideal.ieee]

/-- If max x (−x) < +∞ as extended reals then x is a real number. -/
theorem real_of_abs_lt (x : EReal)
    (h : Ideal.cmp .olt (max x (-x)) (Ideal.ofBits .f32 0x7F800000#32) = 1#1) : ∃ r : ℝ, x = (r : EReal) := by
  rw [ofBits_inf_f32] at h
  have h' : max x (-x) < ⊤ := by
    by_contra hc
    simp [Ideal.cmp, hc] at h
  induction x using EReal.rec with
  | bot => simp at h'
  | coe r => exact ⟨r, rfl⟩
  | top => simp at h'

/-- The all-zero word read as a single-precision pattern is 0. -/
theorem ofBits_zero_f32' : Ideal.ofBits .f32 0x00000000#32 = (0 : EReal) := by
  simp [Ideal.ofBits, Ideal.ieee]

/-- If v ≥ 0 compares true against the zero word then 0 ≤ v. -/
theorem nonneg_of_ge (v : EReal)
    (h : Ideal.cmp .oge v (Ideal.ofBits .f32 0x00000000#32) = 1#1) : 0 ≤ v := by
  rw [ofBits_zero_f32'] at h
  by_contra hc
  simp [Ideal.cmp, hc] at h

/-- "Every entry has |x| < +∞", for an array of any shape: every entry is a real number. -/
theorem isReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) :
    IsReal x := fun i =>
  real_of_abs_lt (x i) (Host.reduce_andi_all _ _ hr hu j e i)

/-- "Every entry has v ≥ 0", for an array of any shape: every entry is nonnegative. -/
theorem nonneg_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
          (cmpf .oge x (broadcastInDim s ![] hb (constant Cert.Pre_finite_inputs.S_ .f32 0x00000000#32)))
          (constantI Cert.Pre_finite_inputs.S_ 1 1#1) hr hu j = 1#1) :
    ∀ i, 0 ≤ x i := fun i =>
  nonneg_of_ge (x i) (Host.reduce_andi_all _ _ hr hu j e i)

/-- The precondition, specialised at a device and split: every floating-point argument array has real
    entries, and three of the one-axis arrays have nonnegative entries. -/
theorem pre_decode [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.IsReal (m ((c.tc : Thread Cert.KernelIdeal.nD Cert.KernelIdeal.τ).loc Cert.KernelIdeal.main_arg0))
    ∧ Cert.Gcn.IsReal (m ((c.tc : Thread Cert.KernelIdeal.nD Cert.KernelIdeal.τ).loc Cert.KernelIdeal.main_arg2))
    ∧ Cert.Gcn.IsReal (m ((c.tc : Thread Cert.KernelIdeal.nD Cert.KernelIdeal.τ).loc Cert.KernelIdeal.main_arg3))
    ∧ Cert.Gcn.IsReal (m ((c.tc : Thread Cert.KernelIdeal.nD Cert.KernelIdeal.τ).loc Cert.KernelIdeal.main_arg4))
    ∧ Cert.Gcn.IsReal (m ((c.tc : Thread Cert.KernelIdeal.nD Cert.KernelIdeal.τ).loc Cert.KernelIdeal.main_arg5))
    ∧ Cert.Gcn.IsReal (m ((c.tc : Thread Cert.KernelIdeal.nD Cert.KernelIdeal.τ).loc Cert.KernelIdeal.main_arg6))
    ∧ Cert.Gcn.IsReal (m ((c.tc : Thread Cert.KernelIdeal.nD Cert.KernelIdeal.τ).loc Cert.KernelIdeal.main_arg7))
    ∧ Cert.Gcn.IsReal (m ((c.tc : Thread Cert.KernelIdeal.nD Cert.KernelIdeal.τ).loc Cert.KernelIdeal.main_arg8))
    ∧ Cert.Gcn.IsReal (m ((c.tc : Thread Cert.KernelIdeal.nD Cert.KernelIdeal.τ).loc Cert.KernelIdeal.main_arg9))
    ∧ Cert.Gcn.IsReal (m ((c.tc : Thread Cert.KernelIdeal.nD Cert.KernelIdeal.τ).loc Cert.KernelIdeal.main_arg10))
    ∧ Cert.Gcn.IsReal (m ((c.tc : Thread Cert.KernelIdeal.nD Cert.KernelIdeal.τ).loc Cert.KernelIdeal.main_arg11))
    ∧ Cert.Gcn.IsReal (m ((c.tc : Thread Cert.KernelIdeal.nD Cert.KernelIdeal.τ).loc Cert.KernelIdeal.main_arg12))
    ∧ Cert.Gcn.IsReal (m ((c.tc : Thread Cert.KernelIdeal.nD Cert.KernelIdeal.τ).loc Cert.KernelIdeal.main_arg13))
    ∧ Cert.Gcn.IsReal (m ((c.tc : Thread Cert.KernelIdeal.nD Cert.KernelIdeal.τ).loc Cert.KernelIdeal.main_arg14))
    ∧ Cert.Gcn.IsReal (m ((c.tc : Thread Cert.KernelIdeal.nD Cert.KernelIdeal.τ).loc Cert.KernelIdeal.main_arg15))
    ∧ Cert.Gcn.IsReal (m ((c.tc : Thread Cert.KernelIdeal.nD Cert.KernelIdeal.τ).loc Cert.KernelIdeal.main_arg16))
    ∧ Cert.Gcn.IsReal (m ((c.tc : Thread Cert.KernelIdeal.nD Cert.KernelIdeal.τ).loc Cert.KernelIdeal.main_arg17))
    ∧ Cert.Gcn.IsReal (m ((c.tc : Thread Cert.KernelIdeal.nD Cert.KernelIdeal.τ).loc Cert.KernelIdeal.main_arg18))
    ∧ Cert.Gcn.IsReal (m ((c.tc : Thread Cert.KernelIdeal.nD Cert.KernelIdeal.τ).loc Cert.KernelIdeal.main_arg19))
    ∧ Cert.Gcn.IsReal (m ((c.tc : Thread Cert.KernelIdeal.nD Cert.KernelIdeal.τ).loc Cert.KernelIdeal.main_arg20))
    ∧ Cert.Gcn.IsReal (m ((c.tc : Thread Cert.KernelIdeal.nD Cert.KernelIdeal.τ).loc Cert.KernelIdeal.main_arg21))
    ∧ (∀ j : Cert.KernelIdeal.S128.Idx, (0 : EReal) ≤ ((m ((c.tc : Thread Cert.KernelIdeal.nD Cert.KernelIdeal.τ).loc Cert.KernelIdeal.main_arg13)) : Cert.KernelIdeal.S128.Idx → EReal) j)
    ∧ (∀ j : Cert.KernelIdeal.S128.Idx, (0 : EReal) ≤ ((m ((c.tc : Thread Cert.KernelIdeal.nD Cert.KernelIdeal.τ).loc Cert.KernelIdeal.main_arg17)) : Cert.KernelIdeal.S128.Idx → EReal) j)
    ∧ (∀ j : Cert.KernelIdeal.S128.Idx, (0 : EReal) ≤ ((m ((c.tc : Thread Cert.KernelIdeal.nD Cert.KernelIdeal.τ).loc Cert.KernelIdeal.main_arg21)) : Cert.KernelIdeal.S128.Idx → EReal) j) := by
  have h0 := congrFun (h c) ValueIdx.ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Idealize.ShloMosaic.andi] at h0
  simp only [IntOp.andi_eq_one] at h0
  obtain ⟨⟨⟨⟨⟨⟨⟨⟨⟨⟨⟨⟨⟨⟨⟨⟨⟨⟨⟨⟨⟨⟨⟨hr0, hr2⟩, hr3⟩, hr4⟩, hr5⟩, hr6⟩, hr7⟩, hr8⟩, hr9⟩, hr10⟩, hr11⟩, hr12⟩, hr13⟩, hr14⟩, hr15⟩, hr16⟩, hr17⟩, hr18⟩, hr19⟩, hr20⟩, hr21⟩, hn13⟩, hn17⟩, hn21⟩ := h0
  exact ⟨isReal_of_all _ _ _ _ _ hr0,
    isReal_of_all _ _ _ _ _ hr2,
    isReal_of_all _ _ _ _ _ hr3,
    isReal_of_all _ _ _ _ _ hr4,
    isReal_of_all _ _ _ _ _ hr5,
    isReal_of_all _ _ _ _ _ hr6,
    isReal_of_all _ _ _ _ _ hr7,
    isReal_of_all _ _ _ _ _ hr8,
    isReal_of_all _ _ _ _ _ hr9,
    isReal_of_all _ _ _ _ _ hr10,
    isReal_of_all _ _ _ _ _ hr11,
    isReal_of_all _ _ _ _ _ hr12,
    isReal_of_all _ _ _ _ _ hr13,
    isReal_of_all _ _ _ _ _ hr14,
    isReal_of_all _ _ _ _ _ hr15,
    isReal_of_all _ _ _ _ _ hr16,
    isReal_of_all _ _ _ _ _ hr17,
    isReal_of_all _ _ _ _ _ hr18,
    isReal_of_all _ _ _ _ _ hr19,
    isReal_of_all _ _ _ _ _ hr20,
    isReal_of_all _ _ _ _ _ hr21,
    nonneg_of_all _ _ _ _ _ hn13,
    nonneg_of_all _ _ _ _ _ hn17,
    nonneg_of_all _ _ _ _ _ hn21⟩

end Cert.Gcn.PreDecode

end
-- ==== Proof.lean ====
/-
  A four-layer graph convolution: the tiled kernel program against the plain reference, over the extended reals.

  Each layer is a dense product h · W, an aggregation of its rows along the edges (gather at the source, weight by
  the product of the endpoints' guarded inverse-square-root degrees, sum at the target), a bias and an eval-mode
  batch normalisation, and a clamp at zero; the last layer ends in a row-wise log-softmax instead.  The kernel
  program computes the dense products, the normalisation-and-clamp and the log-softmax in row blocks of 2000 nodes,
  and folds bias and normalisation into one scale s = g · rsqrt (v + ε) and one shift (b · s + β) − μ · s per
  column, where the reference computes ((agg + b) − μ) · s + β.  Over the extended reals the two agree when every
  operand is a real number, which the precondition gives: all float inputs finite, and the running variances
  nonnegative, so that v + ε > 0 and s is real (at v + ε = 0 the inverse square root is +∞ and the folded form
  differs from the unfolded one).  The aggregated arrays are real whatever the edge list is, since the edge weights
  are: where (deg > 0) (rsqrt deg) 0 is a nonnegative real at every extended real degree.

  The kernel program's run with its result (RunValued), the result as a function of the launch memory
  (KernelValue), the reference's run over its list of host operations and its result as a function of the launch
  memory (RefRunRaw, RefValue), the two functions against each other (Bridge), the precondition read element by
  element (PreDecode).  The ideal pass rewrote nothing, so `preserves`
  is `True`.
-/
import proofs.«152642_j38920993636608_1_alg».proof.Defs
import proofs.«152642_j38920993636608_1_alg».proof.Proof.Gen.Kernel
import proofs.«152642_j38920993636608_1_alg».proof.Proof.Gen.Kernel.Skeleton
import proofs.«152642_j38920993636608_1_alg».proof.Proof.Gen.Kernel.Launch
import proofs.«152642_j38920993636608_1_alg».proof.Proof.Gen.Kernel.Points
import proofs.«152642_j38920993636608_1_alg».proof.Proof.Gen.Kernel.Frame
import proofs.«152642_j38920993636608_1_alg».proof.Proof.Gen.KernelIdeal
import proofs.«152642_j38920993636608_1_alg».proof.Proof.Gen.KernelIdeal.Skeleton
import proofs.«152642_j38920993636608_1_alg».proof.Proof.Gen.KernelIdeal.Launch
import proofs.«152642_j38920993636608_1_alg».proof.Proof.Gen.KernelIdeal.Points
import proofs.«152642_j38920993636608_1_alg».proof.Proof.Gen.KernelIdeal.Frame
import proofs.«152642_j38920993636608_1_alg».proof.Proof.Gen.ReferenceIdeal
import proofs.«152642_j38920993636608_1_alg».proof.Proof.Gen.Pre_finite_inputs
import proofs.«152642_j38920993636608_1_alg».proof.Proof.RefRunRaw
import proofs.«152642_j38920993636608_1_alg».proof.Proof.RefValue
import proofs.«152642_j38920993636608_1_alg».proof.Proof.RunValued
import proofs.«152642_j38920993636608_1_alg».proof.Proof.KernelValue
import proofs.«152642_j38920993636608_1_alg».proof.Proof.Bridge
import proofs.«152642_j38920993636608_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Hand.run_raw m ρ)

/-- The ideal pass rewrote nothing. -/
theorem preserves : Cert.preserves_Kernel_KernelIdeal := trivial

/-- Both programs end with the same array: the kernel program's network of the launch memory. -/
theorem algebraic : Cert.algebraic_KernelIdeal_ReferenceIdeal := by
  intro m ρ m' ρ' hpre hagree
  refine ⟨fun c => Cert.KernelIdeal.Hand.kOut m c, ?_, ?_⟩
  · exact (θ_run Cert.KernelIdeal.defs _ _).mono
      (fun r h c => ⟨(h c).1.trans (Cert.KernelIdeal.Hand.kernel_value m ρ c), (h c).2⟩)
      (Cert.KernelIdeal.Hand.run_valued m ρ)
  · refine (θ_run Cert.ReferenceIdeal.defs _ _).mono (fun r h c => ⟨(h c).1.trans ?_, (h c).2⟩)
      (Cert.ReferenceIdeal.Hand.run_raw m' ρ')
    obtain ⟨e0, e1, e2, e3, e4, e5, e6, e7, e8, e9, e10, e11, e12, e13, e14, e15, e16, e17, e18, e19, e20, e21⟩ := hagree c
    obtain ⟨r0, r2, r3, r4, r5, r6, r7, r8, r9, r10, r11, r12, r13, r14, r15, r16, r17, r18, r19, r20, r21, n13, n17, n21⟩ :=
      Cert.Gcn.PreDecode.pre_decode m hpre c
    rw [Cert.ReferenceIdeal.Hand.ref_value m' c, e0, e1, e2, e3, e4, e5, e6, e7, e8, e9, e10, e11, e12, e13, e14, e15, e16, e17,
      e18, e19, e20, e21]
    exact (Cert.Gcn.Bridge.net_eq _ _ _ _ _ _ _ _ _ _ _ _ _ _ _ _ _ _ _ _ _ _ r0 r2 r3 r4 r5 r6 r7 r8 r10 r11 r12 r13 r14 r15 r16 r17 r18 r19
      r20 r21 n13 n17 n21).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
